-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v351) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x1024x1024 : Shape := ⟨4, ![8, 3, 1024, 1024]⟩
abbrev S8x20 : Shape := ⟨2, ![8, 20]⟩
abbrev S33x5 : Shape := ⟨2, ![33, 5]⟩
abbrev S20x1089 : Shape := ⟨2, ![20, 1089]⟩
abbrev S300x20 : Shape := ⟨2, ![300, 20]⟩
abbrev S_ : Shape := ⟨0, ![]⟩

class Facts : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel
  bcast_S_S8x20 : S_.BroadcastsInDim S8x20 (![] : Fin 0 → Fin S8x20.rank)
  reducesTo_S8x20_S_d0_1 : S8x20.ReducesTo [0, 1] S_
  bcast_S_S33x5 : S_.BroadcastsInDim S33x5 (![] : Fin 0 → Fin S33x5.rank)
  reducesTo_S33x5_S_d0_1 : S33x5.ReducesTo [0, 1] S_
  bcast_S_S20x1089 : S_.BroadcastsInDim S20x1089 (![] : Fin 0 → Fin S20x1089.rank)
  reducesTo_S20x1089_S_d0_1 : S20x1089.ReducesTo [0, 1] S_
  bcast_S_S300x20 : S_.BroadcastsInDim S300x20 (![] : Fin 0 → Fin S300x20.rank)
  reducesTo_S300x20_S_d0_1 : S300x20.ReducesTo [0, 1] S_

variable [Facts]

def fn_part1 {F : FTy → Type} [FloatOps F] (main_arg4 : FVec F S300x20 .f32) (main_v13 : IVec S_ 1) (main_v16 : IVec S20x1089 1) : IVec S_ 1 :=
  let main_c_5 : IVec S_ 1 := constantI S_ 1 1#1
  let main_v17 : IVec S_ 1 := (fun x v => Host.reduce IntOp.andi x v reducesTo_S20x1089_S_d0_1 h_S_) main_v16 main_c_5
  let main_v18 : IVec S_ 1 := andi main_v13 main_v17
  let main_v19 : FVec F S300x20 .f32 := Host.absf main_arg4
  let main_cst_6 : FVec F S_ .f32 := constant S_ .f32 0x7F800000#32
  let main_v20 : FVec F S300x20 .f32 := broadcastInDim S300x20 ![] bcast_S_S300x20 main_cst_6
  let main_v21 : IVec S300x20 1 := cmpf .olt main_v19 main_v20
  let main_c_7 : IVec S_ 1 := constantI S_ 1 1#1
  let main_v22 : IVec S_ 1 := (fun x v => Host.reduce IntOp.andi x v reducesTo_S300x20_S_d0_1 h_S_) main_v21 main_c_7
  let main_v23 : IVec S_ 1 := andi main_v18 main_v22
  main_v23

def fn {F : FTy → Type} [FloatOps F] (main_arg0 : FVec F S8x3x1024x1024 .f32) (main_arg1 : FVec F S8x20 .f32) (main_arg2 : FVec F S33x5 .f32) (main_arg3 : FVec F S20x1089 .f32) (main_arg4 : FVec F S300x20 .f32) : IVec S_ 1 :=
  let main_v0 : FVec F S8x3x1024x1024 .f32 := Host.absf main_arg0
  let main_cst : FVec F S_ .f32 := constant S_ .f32 0x7F800000#32
  let main_v1 : FVec F S8x3x1024x1024 .f32 := broadcastInDim S8x3x1024x1024 ![] bcast_S_S8x3x1024x1024 main_cst
  let main_v2 : IVec S8x3x1024x1024 1 := cmpf .olt main_v0 main_v1
  let main_c : IVec S_ 1 := constantI S_ 1 1#1
  let main_v3 : IVec S_ 1 := (fun x v => Host.reduce IntOp.andi x v reducesTo_S8x3x1024x1024_S_d0_1_2_3 h_S_) main_v2 main_c
  let main_v4 : FVec F S8x20 .f32 := Host.absf main_arg1
  let main_cst_0 : FVec F S_ .f32 := constant S_ .f32 0x7F800000#32
  let main_v5 : FVec F S8x20 .f32 := broadcastInDim S8x20 ![] bcast_S_S8x20 main_cst_0
  let main_v6 : IVec S8x20 1 := cmpf .olt main_v4 main_v5
  let main_c_1 : IVec S_ 1 := constantI S_ 1 1#1
  let main_v7 : IVec S_ 1 := (fun x v => Host.reduce IntOp.andi x v reducesTo_S8x20_S_d0_1 h_S_) main_v6 main_c_1
  let main_v8 : IVec S_ 1 := andi main_v3 main_v7
  let main_v9 : FVec F S33x5 .f32 := Host.absf main_arg2
  let main_cst_2 : FVec F S_ .f32 := constant S_ .f32 0x7F800000#32
  let main_v10 : FVec F S33x5 .f32 := broadcastInDim S33x5 ![] bcast_S_S33x5 main_cst_2
  let main_v11 : IVec S33x5 1 := cmpf .olt main_v9 main_v10
  let main_c_3 : IVec S_ 1 := constantI S_ 1 1#1
  let main_v12 : IVec S_ 1 := (fun x v => Host.reduce IntOp.andi x v reducesTo_S33x5_S_d0_1 h_S_) main_v11 main_c_3
  let main_v13 : IVec S_ 1 := andi main_v8 main_v12
  let main_v14 : FVec F S20x1089 .f32 := Host.absf main_arg3
  let main_cst_4 : FVec F S_ .f32 := constant S_ .f32 0x7F800000#32
  let main_v15 : FVec F S20x1089 .f32 := broadcastInDim S20x1089 ![] bcast_S_S20x1089 main_cst_4
  let main_v16 : IVec S20x1089 1 := cmpf .olt main_v14 main_v15
  fn_part1 (F := F) main_arg4 main_v13 main_v16
-- ==== Kernel.lean ====
abbrev S8x3x1024x1024 : Shape := ⟨4, ![8, 3, 1024, 1024]⟩
abbrev S8x20 : Shape := ⟨2, ![8, 20]⟩
abbrev S33x5 : Shape := ⟨2, ![33, 5]⟩
abbrev S20x1089 : Shape := ⟨2, ![20, 1089]⟩
abbrev S300x20 : Shape := ⟨2, ![300, 20]⟩
abbrev S300x1089 : Shape := ⟨2, ![300, 1089]⟩
abbrev S5x65340 : Shape := ⟨2, ![5, 65340]⟩
abbrev S33x65340 : Shape := ⟨2, ![33, 65340]⟩
abbrev S33x60x1089 : Shape := ⟨3, ![33, 60, 1089]⟩
abbrev S60x33x1089 : Shape := ⟨3, ![60, 33, 1089]⟩
abbrev S20x3x33x33x33 : Shape := ⟨5, ![20, 3, 33, 33, 33]⟩
abbrev S20x1x33x33x33 : Shape := ⟨5, ![20, 1, 33, 33, 33]⟩
abbrev S20x33x33x33 : Shape := ⟨4, ![20, 33, 33, 33]⟩
abbrev S20x107811 : Shape := ⟨2, ![20, 107811]⟩
abbrev S8x107811 : Shape := ⟨2, ![8, 107811]⟩
abbrev S8x3x33x33x33 : Shape := ⟨5, ![8, 3, 33, 33, 33]⟩
abbrev S8x99x1089 : Shape := ⟨3, ![8, 99, 1089]⟩
abbrev S8x3x1048576 : Shape := ⟨3, ![8, 3, 1048576]⟩
abbrev S1x3x2048 : Shape := ⟨3, ![1, 3, 2048]⟩
abbrev S1x99x1089 : Shape := ⟨3, ![1, 99, 1089]⟩
abbrev S3x2048 : Shape := ⟨2, ![3, 2048]⟩
abbrev S1x2048 : Shape := ⟨2, ![1, 2048]⟩
abbrev S2048 : Shape := ⟨1, ![2048]⟩
abbrev S1089x2048 : Shape := ⟨2, ![1089, 2048]⟩
abbrev S99x1089 : Shape := ⟨2, ![99, 1089]⟩
abbrev S99x2048 : Shape := ⟨2, ![99, 2048]⟩
abbrev S3x33x2048 : Shape := ⟨3, ![3, 33, 2048]⟩
abbrev S33x2048 : Shape := ⟨2, ![33, 2048]⟩
abbrev S1x33x2048 : Shape := ⟨3, ![1, 33, 2048]⟩

abbrev nBuf : Space → Nat
  | .hbm => 31
  | .vmem => 6
  | .smem => 0
  | _ => 0

abbrev bufTy : (tb : Table) → Fin (tcTables nBuf tb) → BufTy
  | .hbm, ⟨0, _⟩ => ⟨S8x3x1024x1024, .f32⟩
  | .hbm, ⟨1, _⟩ => ⟨S8x20, .f32⟩
  | .hbm, ⟨2, _⟩ => ⟨S33x5, .f32⟩
  | .hbm, ⟨3, _⟩ => ⟨S20x1089, .f32⟩
  | .hbm, ⟨4, _⟩ => ⟨S300x20, .f32⟩
  | .hbm, ⟨5, _⟩ => ⟨S300x1089, .f32⟩
  | .hbm, ⟨6, _⟩ => ⟨S5x65340, .f32⟩
  | .hbm, ⟨7, _⟩ => ⟨S33x65340, .f32⟩
  | .hbm, ⟨8, _⟩ => ⟨S33x60x1089, .f32⟩
  | .hbm, ⟨9, _⟩ => ⟨S60x33x1089, .f32⟩
  | .hbm, ⟨10, _⟩ => ⟨S20x3x33x33x33, .f32⟩
  | .hbm, ⟨11, _⟩ => ⟨S20x1x33x33x33, .f32⟩
  | .hbm, ⟨12, _⟩ => ⟨S20x33x33x33, .f32⟩
  | .hbm, ⟨13, _⟩ => ⟨S20x33x33x33, .f32⟩
  | .hbm, ⟨14, _⟩ => ⟨S20x1x33x33x33, .f32⟩
  | .hbm, ⟨15, _⟩ => ⟨S20x33x33x33, .f32⟩
  | .hbm, ⟨16, _⟩ => ⟨S20x33x33x33, .f32⟩
  | .hbm, ⟨17, _⟩ => ⟨S20x1x33x33x33, .f32⟩
  | .hbm, ⟨18, _⟩ => ⟨S20x33x33x33, .f32⟩
  | .hbm, ⟨19, _⟩ => ⟨S20x1x33x33x33, .f32⟩
  | .hbm, ⟨20, _⟩ => ⟨S20x1x33x33x33, .f32⟩
  | .hbm, ⟨21, _⟩ => ⟨S20x1x33x33x33, .f32⟩
  | .hbm, ⟨22, _⟩ => ⟨S20x3x33x33x33, .f32⟩
  | .hbm, ⟨23, _⟩ => ⟨S20x107811, .f32⟩
  | .hbm, ⟨24, _⟩ => ⟨S8x107811, .f32⟩
  | .hbm, ⟨25, _⟩ => ⟨S8x3x33x33x33, .f32⟩
  | .hbm, ⟨26, _⟩ => ⟨S8x99x1089, .f32⟩
  | .hbm, ⟨27, _⟩ => ⟨S8x99x1089, .bf16⟩
  | .hbm, ⟨28, _⟩ => ⟨S8x3x1048576, .f32⟩
  | .hbm, ⟨29, _⟩ => ⟨S8x3x1048576, .f32⟩
  | .hbm, ⟨30, _⟩ => ⟨S8x3x1024x1024, .f32⟩
  | .local _ .vmem, ⟨0, _⟩ => ⟨S1x3x2048, .f32⟩
  | .local _ .vmem, ⟨1, _⟩ => ⟨S1x3x2048, .f32⟩
  | .local _ .vmem, ⟨2, _⟩ => ⟨S1x99x1089, .bf16⟩
  | .local _ .vmem, ⟨3, _⟩ => ⟨S1x99x1089, .bf16⟩
  | .local _ .vmem, ⟨4, _⟩ => ⟨S1x3x2048, .f32⟩
  | .local _ .vmem, ⟨5, _⟩ => ⟨S1x3x2048, .f32⟩
  | _, _ => ⟨S8x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 512], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x99x1089 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S300x1089_S5x65340 : S300x1089.ShapeCasts S5x65340
  shapeCasts_S33x65340_S33x60x1089 : S33x65340.ShapeCasts S33x60x1089
  transposes_S33x60x1089_S60x33x1089_1_0_2 : S33x60x1089.Transposes [1, 0, 2] S60x33x1089
  shapeCasts_S60x33x1089_S20x3x33x33x33 : S60x33x1089.ShapeCasts S20x3x33x33x33
  slices_S20x3x33x33x33_S20x1x33x33x33_0_0_0_0_0 : S20x3x33x33x33.Slices ![0, 0, 0, 0, 0] S20x1x33x33x33
  shapeCasts_S20x1x33x33x33_S20x33x33x33 : S20x1x33x33x33.ShapeCasts S20x33x33x33
  transposes_S20x33x33x33_S20x33x33x33_0_2_3_1 : S20x33x33x33.Transposes [0, 2, 3, 1] S20x33x33x33
  slices_S20x3x33x33x33_S20x1x33x33x33_0_1_0_0_0 : S20x3x33x33x33.Slices ![0, 1, 0, 0, 0] S20x1x33x33x33
  transposes_S20x33x33x33_S20x33x33x33_0_2_1_3 : S20x33x33x33.Transposes [0, 2, 1, 3] S20x33x33x33
  slices_S20x3x33x33x33_S20x1x33x33x33_0_2_0_0_0 : S20x3x33x33x33.Slices ![0, 2, 0, 0, 0] S20x1x33x33x33
  bcast_S20x33x33x33_S20x1x33x33x33_0_2_3_4 : S20x33x33x33.BroadcastsInDim S20x1x33x33x33 (![0, 2, 3, 4] : Fin 4 → Fin S20x1x33x33x33.rank)
  concatenates_S20x1x33x33x33_S20x1x33x33x33_S20x1x33x33x33_S20x3x33x33x33_d1 : Shape.Concatenates [S20x1x33x33x33, S20x1x33x33x33, S20x1x33x33x33] S20x3x33x33x33 1
  shapeCasts_S20x3x33x33x33_S20x107811 : S20x3x33x33x33.ShapeCasts S20x107811
  shapeCasts_S8x107811_S8x3x33x33x33 : S8x107811.ShapeCasts S8x3x33x33x33
  shapeCasts_S8x3x33x33x33_S8x99x1089 : S8x3x33x33x33.ShapeCasts S8x99x1089
  bitsLt_bf16_f32 : FTy.bits .bf16 < FTy.bits .f32
  shapeCasts_S8x3x1024x1024_S8x3x1048576 : S8x3x1024x1024.ShapeCasts S8x3x1048576
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  slices_S3x2048_o0_0_S1x2048 : S3x2048.Slices ![0, 0] S1x2048
  shapeCasts_S1x2048_S2048 : S1x2048.ShapeCasts S2048
  slices_S3x2048_o1_0_S1x2048 : S3x2048.Slices ![1, 0] S1x2048
  slices_S3x2048_o2_0_S1x2048 : S3x2048.Slices ![2, 0] S1x2048
  iota_S1089x2048_d0_w32 : S1089x2048.Iotas .tc 32 [0]
  shapeCasts_S2048_S1x2048 : S2048.ShapeCasts S1x2048
  broadcasts_S1x2048_S1089x2048 : S1x2048.Broadcasts S1089x2048
  shapeCasts_S1x2048_S1x2048 : S1x2048.ShapeCasts S1x2048
  inb_S1x99x1089_S1x99x1089_0_0_0 : ∀ a, (![0, 0, 0] : Fin 3 → Nat) a + S1x99x1089.size a ≤ S1x99x1089.size a
  h_S1x99x1089 : 0 < S1x99x1089.numel
  shapeCasts_S1x99x1089_S99x1089 : S1x99x1089.ShapeCasts S99x1089
  shapeCasts_S99x2048_S3x33x2048 : S99x2048.ShapeCasts S3x33x2048
  iota_S33x2048_d0_w32 : S33x2048.Iotas .tc 32 [0]
  broadcasts_S1x2048_S33x2048 : S1x2048.Broadcasts S33x2048
  shapeCasts_S33x2048_S1x33x2048 : S33x2048.ShapeCasts S1x33x2048
  broadcasts_S1x33x2048_S3x33x2048 : S1x33x2048.Broadcasts S3x33x2048
  reduces_S3x33x2048_S3x2048 : S3x33x2048.Reduces [1] S3x2048
  shapeCasts_S3x2048_S1x3x2048 : S3x2048.ShapeCasts S1x3x2048
  shapeCasts_S8x3x1048576_S8x3x1024x1024 : S8x3x1048576.ShapeCasts S8x3x1024x1024
  dot_S300x20_S20x1089_S300x1089_1_0_0_1_n_n_wf : DotDims.WF S300x20 S20x1089 S300x1089 [1] [0] [0] [1] [] []
  dot_S33x5_S5x65340_S33x65340_1_0_0_1_n_n_wf : DotDims.WF S33x5 S5x65340 S33x65340 [1] [0] [0] [1] [] []
  dot_S8x20_S20x107811_S8x107811_1_0_0_1_n_n_wf : DotDims.WF S8x20 S20x107811 S8x107811 [1] [0] [0] [1] [] []
  dot_S99x1089_S1089x2048_S99x2048_1_0_0_1_n_n_wf : DotDims.WF S99x1089 S1089x2048 S99x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x2048.size a ≤ S8x3x1048576.size a
  hwx0_0 : ∀ i : grid0.Coords, EltTy.bits .f32 = 32 ∨ (Rect.block (s := S8x3x1048576) S1x3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x99x1089.size a ≤ S8x99x1089.size a
  hwx0_1 : ∀ i : grid0.Coords, EltTy.bits .bf16 = 32 ∨ (Rect.block (s := S8x99x1089) S1x99x1089.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x2048.size a ≤ S8x3x1048576.size a
  hwx0_2 : ∀ i : grid0.Coords, EltTy.bits .f32 = 32 ∨ (Rect.block (s := S8x3x1048576) S1x3x2048.size (cc0_transform_2 i) (hinb0_2 i)).WholeWords (EltTy.packing .f32)

variable [Facts₀]

def dot_S300x20_S20x1089_S300x1089_1_0_0_1_n_n : DotDims S300x20 S20x1089 S300x1089 where
  lhsContracting := [1]
  rhsContracting := [0]
  lhsNonContracting := [0]
  rhsNonContracting := [1]
  lhsBatch := []
  rhsBatch := []
  wf := dot_S300x20_S20x1089_S300x1089_1_0_0_1_n_n_wf
def dot_S33x5_S5x65340_S33x65340_1_0_0_1_n_n : DotDims S33x5 S5x65340 S33x65340 where
  lhsContracting := [1]
  rhsContracting := [0]
  lhsNonContracting := [0]
  rhsNonContracting := [1]
  lhsBatch := []
  rhsBatch := []
  wf := dot_S33x5_S5x65340_S33x65340_1_0_0_1_n_n_wf
def dot_S8x20_S20x107811_S8x107811_1_0_0_1_n_n : DotDims S8x20 S20x107811 S8x107811 where
  lhsContracting := [1]
  rhsContracting := [0]
  lhsNonContracting := [0]
  rhsNonContracting := [1]
  lhsBatch := []
  rhsBatch := []
  wf := dot_S8x20_S20x107811_S8x107811_1_0_0_1_n_n_wf
def dot_S99x1089_S1089x2048_S99x2048_1_0_0_1_n_n : DotDims S99x1089 S1089x2048 S99x2048 where
  lhsContracting := [1]
  rhsContracting := [0]
  lhsNonContracting := [0]
  rhsNonContracting := [1]
  lhsBatch := []
  rhsBatch := []
  wf := dot_S99x1089_S1089x2048_S99x2048_1_0_0_1_n_n_wf

abbrev win0_0 : Pipeline.Window sig grid0 :=
  Pipeline.Window.ofSpec (Memref.whole main_v23) S1x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x99x1089.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x3x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x1024x1024 : Shape := ⟨4, ![8, 3, 1024, 1024]⟩
abbrev S8x20 : Shape := ⟨2, ![8, 20]⟩
abbrev S33x5 : Shape := ⟨2, ![33, 5]⟩
abbrev S20x1089 : Shape := ⟨2, ![20, 1089]⟩
abbrev S300x20 : Shape := ⟨2, ![300, 20]⟩
abbrev S300x1089 : Shape := ⟨2, ![300, 1089]⟩
abbrev S5x65340 : Shape := ⟨2, ![5, 65340]⟩
abbrev S33x65340 : Shape := ⟨2, ![33, 65340]⟩
abbrev S33x60x1089 : Shape := ⟨3, ![33, 60, 1089]⟩
abbrev S60x33x1089 : Shape := ⟨3, ![60, 33, 1089]⟩
abbrev S20x3x33x33x33 : Shape := ⟨5, ![20, 3, 33, 33, 33]⟩
abbrev S20x1x33x33x33 : Shape := ⟨5, ![20, 1, 33, 33, 33]⟩
abbrev S20x33x33x33 : Shape := ⟨4, ![20, 33, 33, 33]⟩
abbrev S20x107811 : Shape := ⟨2, ![20, 107811]⟩
abbrev S8x107811 : Shape := ⟨2, ![8, 107811]⟩
abbrev S8x3x33x33x33 : Shape := ⟨5, ![8, 3, 33, 33, 33]⟩
abbrev S_ : Shape := ⟨0, ![]⟩
abbrev S8x1x1024x1024 : Shape := ⟨4, ![8, 1, 1024, 1024]⟩
abbrev S8x1024x1024 : Shape := ⟨3, ![8, 1024, 1024]⟩
abbrev S8x1024x1024x1 : Shape := ⟨4, ![8, 1024, 1024, 1]⟩
abbrev S8x1024x1024x3 : Shape := ⟨4, ![8, 1024, 1024, 3]⟩

abbrev nBuf : Space → Nat
  | .hbm => 449
  | .vmem => 0
  | .smem => 0
  | _ => 0

abbrev hbmTy0_0 (i : Nat) : BufTy := match i % 128 with
  | 0 => ⟨S8x3x1024x1024, .f32⟩
  | 1 => ⟨S8x20, .f32⟩
  | 2 => ⟨S33x5, .f32⟩
  | 3 => ⟨S20x1089, .f32⟩
  | 4 => ⟨S300x20, .f32⟩
  | 5 => ⟨S300x1089, .f32⟩
  | 6 => ⟨S5x65340, .f32⟩
  | 7 => ⟨S33x65340, .f32⟩
  | 8 => ⟨S33x60x1089, .f32⟩
  | 9 => ⟨S60x33x1089, .f32⟩
  | 10 => ⟨S20x3x33x33x33, .f32⟩
  | 11 => ⟨S20x1x33x33x33, .f32⟩
  | 12 => ⟨S20x33x33x33, .f32⟩
  | 13 => ⟨S20x33x33x33, .f32⟩
  | 14 => ⟨S20x1x33x33x33, .f32⟩
  | 15 => ⟨S20x33x33x33, .f32⟩
  | 16 => ⟨S20x33x33x33, .f32⟩
  | 17 => ⟨S20x1x33x33x33, .f32⟩
  | 18 => ⟨S20x33x33x33, .f32⟩
  | 19 => ⟨S20x1x33x33x33, .f32⟩
  | 20 => ⟨S20x1x33x33x33, .f32⟩
  | 21 => ⟨S20x1x33x33x33, .f32⟩
  | 22 => ⟨S20x3x33x33x33, .f32⟩
  | 23 => ⟨S20x107811, .f32⟩
  | 24 => ⟨S8x107811, .f32⟩
  | 25 => ⟨S8x3x33x33x33, .f32⟩
  | 26 => ⟨S_, .f32⟩
  | 27 => ⟨S8x3x1024x1024, .f32⟩
  | 28 => ⟨S8x3x1024x1024, .f32⟩
  | 29 => ⟨S8x3x1024x1024, .f32⟩
  | 30 => ⟨S8x3x1024x1024, .i32⟩
  | 31 => ⟨S_, .i32⟩
  | 32 => ⟨S_, .i32⟩
  | 33 => ⟨S_, .i32⟩
  | 34 => ⟨S8x3x1024x1024, .i32⟩
  | 35 => ⟨S8x3x1024x1024, .i32⟩
  | 36 => ⟨S_, .i32⟩
  | 37 => ⟨S8x3x1024x1024, .i32⟩
  | 38 => ⟨S8x3x1024x1024, .i32⟩
  | 39 => ⟨S8x3x1024x1024, .f32⟩
  | 40 => ⟨S8x3x1024x1024, .f32⟩
  | 41 => ⟨S8x1x1024x1024, .i32⟩
  | 42 => ⟨S8x1024x1024, .i32⟩
  | 43 => ⟨S8x1x1024x1024, .i32⟩
  | 44 => ⟨S8x1024x1024, .i32⟩
  | 45 => ⟨S8x1x1024x1024, .i32⟩
  | 46 => ⟨S8x1024x1024, .i32⟩
  | 47 => ⟨S8x1x1024x1024, .f32⟩
  | 48 => ⟨S8x1024x1024, .f32⟩
  | 49 => ⟨S8x1x1024x1024, .f32⟩
  | 50 => ⟨S8x1024x1024, .f32⟩
  | 51 => ⟨S8x1x1024x1024, .f32⟩
  | 52 => ⟨S8x1024x1024, .f32⟩
  | 53 => ⟨S_, .i32⟩
  | 54 => ⟨S8x1024x1024, .i32⟩
  | 55 => ⟨S8x1024x1024, .i32⟩
  | 56 => ⟨S_, .i32⟩
  | 57 => ⟨S8x1024x1024, .i32⟩
  | 58 => ⟨S8x1024x1024, .i32⟩
  | 59 => ⟨S_, .i32⟩
  | 60 => ⟨S8x1024x1024, .i32⟩
  | 61 => ⟨S8x1024x1024, .i32⟩
  | 62 => ⟨S_, .i32⟩
  | 63 => ⟨S8x1024x1024, .i32⟩
  | 64 => ⟨S8x1024x1024, .i1⟩
  | 65 => ⟨S_, .i32⟩
  | 66 => ⟨S8x1024x1024, .i32⟩
  | 67 => ⟨S8x1024x1024, .i32⟩
  | 68 => ⟨S8x1024x1024, .i32⟩
  | 69 => ⟨S_, .i32⟩
  | 70 => ⟨S8x1024x1024, .i32⟩
  | 71 => ⟨S8x1024x1024, .i1⟩
  | 72 => ⟨S_, .i32⟩
  | 73 => ⟨S8x1024x1024, .i32⟩
  | 74 => ⟨S8x1024x1024, .i32⟩
  | 75 => ⟨S8x1024x1024, .i32⟩
  | 76 => ⟨S_, .i32⟩
  | 77 => ⟨S8x1024x1024, .i32⟩
  | 78 => ⟨S8x1024x1024, .i1⟩
  | 79 => ⟨S_, .i32⟩
  | 80 => ⟨S8x1024x1024, .i32⟩
  | 81 => ⟨S8x1024x1024, .i32⟩
  | 82 => ⟨S8x1024x1024, .i32⟩
  | 83 => ⟨S8x1024x1024x1, .i32⟩
  | 84 => ⟨S8x1024x1024x1, .i32⟩
  | 85 => ⟨S8x1024x1024x1, .i32⟩
  | 86 => ⟨S8x1024x1024x3, .i32⟩
  | 87 => ⟨S8x3x1024x1024, .f32⟩
  | 88 => ⟨S_, .f32⟩
  | 89 => ⟨S8x1024x1024, .f32⟩
  | 90 => ⟨S8x1024x1024, .f32⟩
  | 91 => ⟨S8x1x1024x1024, .f32⟩
  | 92 => ⟨S8x3x1024x1024, .f32⟩
  | 93 => ⟨S8x3x1024x1024, .f32⟩
  | 94 => ⟨S_, .f32⟩
  | 95 => ⟨S8x1024x1024, .f32⟩
  | 96 => ⟨S8x1024x1024, .f32⟩
  | 97 => ⟨S8x1x1024x1024, .f32⟩
  | 98 => ⟨S8x3x1024x1024, .f32⟩
  | 99 => ⟨S8x3x1024x1024, .f32⟩
  | 100 => ⟨S_, .f32⟩
  | 101 => ⟨S8x1024x1024, .f32⟩
  | 102 => ⟨S8x1024x1024, .f32⟩
  | 103 => ⟨S8x1x1024x1024, .f32⟩
  | 104 => ⟨S8x3x1024x1024, .f32⟩
  | 105 => ⟨S8x3x1024x1024, .f32⟩
  | 106 => ⟨S_, .i32⟩
  | 107 => ⟨S8x1024x1024, .i32⟩
  | 108 => ⟨S8x1024x1024, .i32⟩
  | 109 => ⟨S_, .i32⟩
  | 110 => ⟨S8x1024x1024, .i32⟩
  | 111 => ⟨S8x1024x1024, .i32⟩
  | 112 => ⟨S_, .i32⟩
  | 113 => ⟨S8x1024x1024, .i32⟩
  | 114 => ⟨S8x1024x1024, .i32⟩
  | 115 => ⟨S_, .i32⟩
  | 116 => ⟨S8x1024x1024, .i32⟩
  | 117 => ⟨S8x1024x1024, .i1⟩
  | 118 => ⟨S_, .i32⟩
  | 119 => ⟨S8x1024x1024, .i32⟩
  | 120 => ⟨S8x1024x1024, .i32⟩
  | 121 => ⟨S8x1024x1024, .i32⟩
  | 122 => ⟨S_, .i32⟩
  | 123 => ⟨S8x1024x1024, .i32⟩
  | 124 => ⟨S8x1024x1024, .i1⟩
  | 125 => ⟨S_, .i32⟩
  | 126 => ⟨S8x1024x1024, .i32⟩
  | 127 => ⟨S8x1024x1024, .i32⟩
  | _ => ⟨S8x3x1024x1024, .f32⟩

abbrev hbmTy0_1 (i : Nat) : BufTy := match i % 128 with
  | 0 => ⟨S8x1024x1024, .i32⟩
  | 1 => ⟨S_, .i32⟩
  | 2 => ⟨S8x1024x1024, .i32⟩
  | 3 => ⟨S8x1024x1024, .i1⟩
  | 4 => ⟨S_, .i32⟩
  | 5 => ⟨S8x1024x1024, .i32⟩
  | 6 => ⟨S8x1024x1024, .i32⟩
  | 7 => ⟨S8x1024x1024, .i32⟩
  | 8 => ⟨S8x1024x1024x1, .i32⟩
  | 9 => ⟨S8x1024x1024x1, .i32⟩
  | 10 => ⟨S8x1024x1024x1, .i32⟩
  | 11 => ⟨S8x1024x1024x3, .i32⟩
  | 12 => ⟨S8x3x1024x1024, .f32⟩
  | 13 => ⟨S8x1x1024x1024, .f32⟩
  | 14 => ⟨S8x3x1024x1024, .f32⟩
  | 15 => ⟨S8x3x1024x1024, .f32⟩
  | 16 => ⟨S_, .f32⟩
  | 17 => ⟨S8x1024x1024, .f32⟩
  | 18 => ⟨S8x1024x1024, .f32⟩
  | 19 => ⟨S8x1x1024x1024, .f32⟩
  | 20 => ⟨S8x3x1024x1024, .f32⟩
  | 21 => ⟨S8x3x1024x1024, .f32⟩
  | 22 => ⟨S_, .f32⟩
  | 23 => ⟨S8x1024x1024, .f32⟩
  | 24 => ⟨S8x1024x1024, .f32⟩
  | 25 => ⟨S8x1x1024x1024, .f32⟩
  | 26 => ⟨S8x3x1024x1024, .f32⟩
  | 27 => ⟨S8x3x1024x1024, .f32⟩
  | 28 => ⟨S8x3x1024x1024, .f32⟩
  | 29 => ⟨S_, .i32⟩
  | 30 => ⟨S8x1024x1024, .i32⟩
  | 31 => ⟨S8x1024x1024, .i32⟩
  | 32 => ⟨S_, .i32⟩
  | 33 => ⟨S8x1024x1024, .i32⟩
  | 34 => ⟨S8x1024x1024, .i32⟩
  | 35 => ⟨S_, .i32⟩
  | 36 => ⟨S8x1024x1024, .i32⟩
  | 37 => ⟨S8x1024x1024, .i32⟩
  | 38 => ⟨S_, .i32⟩
  | 39 => ⟨S8x1024x1024, .i32⟩
  | 40 => ⟨S8x1024x1024, .i1⟩
  | 41 => ⟨S_, .i32⟩
  | 42 => ⟨S8x1024x1024, .i32⟩
  | 43 => ⟨S8x1024x1024, .i32⟩
  | 44 => ⟨S8x1024x1024, .i32⟩
  | 45 => ⟨S_, .i32⟩
  | 46 => ⟨S8x1024x1024, .i32⟩
  | 47 => ⟨S8x1024x1024, .i1⟩
  | 48 => ⟨S_, .i32⟩
  | 49 => ⟨S8x1024x1024, .i32⟩
  | 50 => ⟨S8x1024x1024, .i32⟩
  | 51 => ⟨S8x1024x1024, .i32⟩
  | 52 => ⟨S_, .i32⟩
  | 53 => ⟨S8x1024x1024, .i32⟩
  | 54 => ⟨S8x1024x1024, .i1⟩
  | 55 => ⟨S_, .i32⟩
  | 56 => ⟨S8x1024x1024, .i32⟩
  | 57 => ⟨S8x1024x1024, .i32⟩
  | 58 => ⟨S8x1024x1024, .i32⟩
  | 59 => ⟨S8x1024x1024x1, .i32⟩
  | 60 => ⟨S8x1024x1024x1, .i32⟩
  | 61 => ⟨S8x1024x1024x1, .i32⟩
  | 62 => ⟨S8x1024x1024x3, .i32⟩
  | 63 => ⟨S8x3x1024x1024, .f32⟩
  | 64 => ⟨S_, .f32⟩
  | 65 => ⟨S8x1024x1024, .f32⟩
  | 66 => ⟨S8x1024x1024, .f32⟩
  | 67 => ⟨S8x1x1024x1024, .f32⟩
  | 68 => ⟨S8x3x1024x1024, .f32⟩
  | 69 => ⟨S8x3x1024x1024, .f32⟩
  | 70 => ⟨S8x1x1024x1024, .f32⟩
  | 71 => ⟨S8x3x1024x1024, .f32⟩
  | 72 => ⟨S8x3x1024x1024, .f32⟩
  | 73 => ⟨S_, .f32⟩
  | 74 => ⟨S8x1024x1024, .f32⟩
  | 75 => ⟨S8x1024x1024, .f32⟩
  | 76 => ⟨S8x1x1024x1024, .f32⟩
  | 77 => ⟨S8x3x1024x1024, .f32⟩
  | 78 => ⟨S8x3x1024x1024, .f32⟩
  | 79 => ⟨S8x3x1024x1024, .f32⟩
  | 80 => ⟨S_, .i32⟩
  | 81 => ⟨S8x1024x1024, .i32⟩
  | 82 => ⟨S8x1024x1024, .i32⟩
  | 83 => ⟨S_, .i32⟩
  | 84 => ⟨S8x1024x1024, .i32⟩
  | 85 => ⟨S8x1024x1024, .i32⟩
  | 86 => ⟨S_, .i32⟩
  | 87 => ⟨S8x1024x1024, .i32⟩
  | 88 => ⟨S8x1024x1024, .i32⟩
  | 89 => ⟨S_, .i32⟩
  | 90 => ⟨S8x1024x1024, .i32⟩
  | 91 => ⟨S8x1024x1024, .i1⟩
  | 92 => ⟨S_, .i32⟩
  | 93 => ⟨S8x1024x1024, .i32⟩
  | 94 => ⟨S8x1024x1024, .i32⟩
  | 95 => ⟨S8x1024x1024, .i32⟩
  | 96 => ⟨S_, .i32⟩
  | 97 => ⟨S8x1024x1024, .i32⟩
  | 98 => ⟨S8x1024x1024, .i1⟩
  | 99 => ⟨S_, .i32⟩
  | 100 => ⟨S8x1024x1024, .i32⟩
  | 101 => ⟨S8x1024x1024, .i32⟩
  | 102 => ⟨S8x1024x1024, .i32⟩
  | 103 => ⟨S_, .i32⟩
  | 104 => ⟨S8x1024x1024, .i32⟩
  | 105 => ⟨S8x1024x1024, .i1⟩
  | 106 => ⟨S_, .i32⟩
  | 107 => ⟨S8x1024x1024, .i32⟩
  | 108 => ⟨S8x1024x1024, .i32⟩
  | 109 => ⟨S8x1024x1024, .i32⟩
  | 110 => ⟨S8x1024x1024x1, .i32⟩
  | 111 => ⟨S8x1024x1024x1, .i32⟩
  | 112 => ⟨S8x1024x1024x1, .i32⟩
  | 113 => ⟨S8x1024x1024x3, .i32⟩
  | 114 => ⟨S8x3x1024x1024, .f32⟩
  | 115 => ⟨S8x1x1024x1024, .f32⟩
  | 116 => ⟨S8x3x1024x1024, .f32⟩
  | 117 => ⟨S8x3x1024x1024, .f32⟩
  | 118 => ⟨S8x1x1024x1024, .f32⟩
  | 119 => ⟨S8x3x1024x1024, .f32⟩
  | 120 => ⟨S8x3x1024x1024, .f32⟩
  | 121 => ⟨S_, .f32⟩
  | 122 => ⟨S8x1024x1024, .f32⟩
  | 123 => ⟨S8x1024x1024, .f32⟩
  | 124 => ⟨S8x1x1024x1024, .f32⟩
  | 125 => ⟨S8x3x1024x1024, .f32⟩
  | 126 => ⟨S8x3x1024x1024, .f32⟩
  | 127 => ⟨S8x3x1024x1024, .f32⟩
  | _ => ⟨S8x3x1024x1024, .f32⟩

abbrev hbmTy0_2 (i : Nat) : BufTy := match i % 128 with
  | 0 => ⟨S_, .i32⟩
  | 1 => ⟨S8x1024x1024, .i32⟩
  | 2 => ⟨S8x1024x1024, .i32⟩
  | 3 => ⟨S_, .i32⟩
  | 4 => ⟨S8x1024x1024, .i32⟩
  | 5 => ⟨S8x1024x1024, .i32⟩
  | 6 => ⟨S_, .i32⟩
  | 7 => ⟨S8x1024x1024, .i32⟩
  | 8 => ⟨S8x1024x1024, .i32⟩
  | 9 => ⟨S_, .i32⟩
  | 10 => ⟨S8x1024x1024, .i32⟩
  | 11 => ⟨S8x1024x1024, .i1⟩
  | 12 => ⟨S_, .i32⟩
  | 13 => ⟨S8x1024x1024, .i32⟩
  | 14 => ⟨S8x1024x1024, .i32⟩
  | 15 => ⟨S8x1024x1024, .i32⟩
  | 16 => ⟨S_, .i32⟩
  | 17 => ⟨S8x1024x1024, .i32⟩
  | 18 => ⟨S8x1024x1024, .i1⟩
  | 19 => ⟨S_, .i32⟩
  | 20 => ⟨S8x1024x1024, .i32⟩
  | 21 => ⟨S8x1024x1024, .i32⟩
  | 22 => ⟨S8x1024x1024, .i32⟩
  | 23 => ⟨S_, .i32⟩
  | 24 => ⟨S8x1024x1024, .i32⟩
  | 25 => ⟨S8x1024x1024, .i1⟩
  | 26 => ⟨S_, .i32⟩
  | 27 => ⟨S8x1024x1024, .i32⟩
  | 28 => ⟨S8x1024x1024, .i32⟩
  | 29 => ⟨S8x1024x1024, .i32⟩
  | 30 => ⟨S8x1024x1024x1, .i32⟩
  | 31 => ⟨S8x1024x1024x1, .i32⟩
  | 32 => ⟨S8x1024x1024x1, .i32⟩
  | 33 => ⟨S8x1024x1024x3, .i32⟩
  | 34 => ⟨S8x3x1024x1024, .f32⟩
  | 35 => ⟨S_, .f32⟩
  | 36 => ⟨S8x1024x1024, .f32⟩
  | 37 => ⟨S8x1024x1024, .f32⟩
  | 38 => ⟨S8x1x1024x1024, .f32⟩
  | 39 => ⟨S8x3x1024x1024, .f32⟩
  | 40 => ⟨S8x3x1024x1024, .f32⟩
  | 41 => ⟨S_, .f32⟩
  | 42 => ⟨S8x1024x1024, .f32⟩
  | 43 => ⟨S8x1024x1024, .f32⟩
  | 44 => ⟨S8x1x1024x1024, .f32⟩
  | 45 => ⟨S8x3x1024x1024, .f32⟩
  | 46 => ⟨S8x3x1024x1024, .f32⟩
  | 47 => ⟨S8x1x1024x1024, .f32⟩
  | 48 => ⟨S8x3x1024x1024, .f32⟩
  | 49 => ⟨S8x3x1024x1024, .f32⟩
  | 50 => ⟨S8x3x1024x1024, .f32⟩
  | 51 => ⟨S_, .i32⟩
  | 52 => ⟨S8x1024x1024, .i32⟩
  | 53 => ⟨S8x1024x1024, .i32⟩
  | 54 => ⟨S_, .i32⟩
  | 55 => ⟨S8x1024x1024, .i32⟩
  | 56 => ⟨S8x1024x1024, .i32⟩
  | 57 => ⟨S_, .i32⟩
  | 58 => ⟨S8x1024x1024, .i32⟩
  | 59 => ⟨S8x1024x1024, .i32⟩
  | 60 => ⟨S_, .i32⟩
  | 61 => ⟨S8x1024x1024, .i32⟩
  | 62 => ⟨S8x1024x1024, .i1⟩
  | 63 => ⟨S_, .i32⟩
  | 64 => ⟨S8x1024x1024, .i32⟩
  | 65 => ⟨S8x1024x1024, .i32⟩
  | 66 => ⟨S8x1024x1024, .i32⟩
  | 67 => ⟨S_, .i32⟩
  | 68 => ⟨S8x1024x1024, .i32⟩
  | 69 => ⟨S8x1024x1024, .i1⟩
  | 70 => ⟨S_, .i32⟩
  | 71 => ⟨S8x1024x1024, .i32⟩
  | 72 => ⟨S8x1024x1024, .i32⟩
  | 73 => ⟨S8x1024x1024, .i32⟩
  | 74 => ⟨S_, .i32⟩
  | 75 => ⟨S8x1024x1024, .i32⟩
  | 76 => ⟨S8x1024x1024, .i1⟩
  | 77 => ⟨S_, .i32⟩
  | 78 => ⟨S8x1024x1024, .i32⟩
  | 79 => ⟨S8x1024x1024, .i32⟩
  | 80 => ⟨S8x1024x1024, .i32⟩
  | 81 => ⟨S8x1024x1024x1, .i32⟩
  | 82 => ⟨S8x1024x1024x1, .i32⟩
  | 83 => ⟨S8x1024x1024x1, .i32⟩
  | 84 => ⟨S8x1024x1024x3, .i32⟩
  | 85 => ⟨S8x3x1024x1024, .f32⟩
  | 86 => ⟨S8x1x1024x1024, .f32⟩
  | 87 => ⟨S8x3x1024x1024, .f32⟩
  | 88 => ⟨S8x3x1024x1024, .f32⟩
  | 89 => ⟨S_, .f32⟩
  | 90 => ⟨S8x1024x1024, .f32⟩
  | 91 => ⟨S8x1024x1024, .f32⟩
  | 92 => ⟨S8x1x1024x1024, .f32⟩
  | 93 => ⟨S8x3x1024x1024, .f32⟩
  | 94 => ⟨S8x3x1024x1024, .f32⟩
  | 95 => ⟨S8x1x1024x1024, .f32⟩
  | 96 => ⟨S8x3x1024x1024, .f32⟩
  | 97 => ⟨S8x3x1024x1024, .f32⟩
  | 98 => ⟨S8x3x1024x1024, .f32⟩
  | 99 => ⟨S_, .i32⟩
  | 100 => ⟨S8x1024x1024, .i32⟩
  | 101 => ⟨S8x1024x1024, .i32⟩
  | 102 => ⟨S_, .i32⟩
  | 103 => ⟨S8x1024x1024, .i32⟩
  | 104 => ⟨S8x1024x1024, .i32⟩
  | 105 => ⟨S_, .i32⟩
  | 106 => ⟨S8x1024x1024, .i32⟩
  | 107 => ⟨S8x1024x1024, .i32⟩
  | 108 => ⟨S_, .i32⟩
  | 109 => ⟨S8x1024x1024, .i32⟩
  | 110 => ⟨S8x1024x1024, .i1⟩
  | 111 => ⟨S_, .i32⟩
  | 112 => ⟨S8x1024x1024, .i32⟩
  | 113 => ⟨S8x1024x1024, .i32⟩
  | 114 => ⟨S8x1024x1024, .i32⟩
  | 115 => ⟨S_, .i32⟩
  | 116 => ⟨S8x1024x1024, .i32⟩
  | 117 => ⟨S8x1024x1024, .i1⟩
  | 118 => ⟨S_, .i32⟩
  | 119 => ⟨S8x1024x1024, .i32⟩
  | 120 => ⟨S8x1024x1024, .i32⟩
  | 121 => ⟨S8x1024x1024, .i32⟩
  | 122 => ⟨S_, .i32⟩
  | 123 => ⟨S8x1024x1024, .i32⟩
  | 124 => ⟨S8x1024x1024, .i1⟩
  | 125 => ⟨S_, .i32⟩
  | 126 => ⟨S8x1024x1024, .i32⟩
  | 127 => ⟨S8x1024x1024, .i32⟩
  | _ => ⟨S8x3x1024x1024, .f32⟩

abbrev hbmTy0_3 (i : Nat) : BufTy := match i % 128 with
  | 0 => ⟨S8x1024x1024, .i32⟩
  | 1 => ⟨S8x1024x1024x1, .i32⟩
  | 2 => ⟨S8x1024x1024x1, .i32⟩
  | 3 => ⟨S8x1024x1024x1, .i32⟩
  | 4 => ⟨S8x1024x1024x3, .i32⟩
  | 5 => ⟨S8x3x1024x1024, .f32⟩
  | 6 => ⟨S_, .f32⟩
  | 7 => ⟨S8x1024x1024, .f32⟩
  | 8 => ⟨S8x1024x1024, .f32⟩
  | 9 => ⟨S8x1x1024x1024, .f32⟩
  | 10 => ⟨S8x3x1024x1024, .f32⟩
  | 11 => ⟨S8x3x1024x1024, .f32⟩
  | 12 => ⟨S8x1x1024x1024, .f32⟩
  | 13 => ⟨S8x3x1024x1024, .f32⟩
  | 14 => ⟨S8x3x1024x1024, .f32⟩
  | 15 => ⟨S8x1x1024x1024, .f32⟩
  | 16 => ⟨S8x3x1024x1024, .f32⟩
  | 17 => ⟨S8x3x1024x1024, .f32⟩
  | 18 => ⟨S8x3x1024x1024, .f32⟩
  | 19 => ⟨S_, .i32⟩
  | 20 => ⟨S8x1024x1024, .i32⟩
  | 21 => ⟨S8x1024x1024, .i32⟩
  | 22 => ⟨S_, .i32⟩
  | 23 => ⟨S8x1024x1024, .i32⟩
  | 24 => ⟨S8x1024x1024, .i32⟩
  | 25 => ⟨S_, .i32⟩
  | 26 => ⟨S8x1024x1024, .i32⟩
  | 27 => ⟨S8x1024x1024, .i32⟩
  | 28 => ⟨S_, .i32⟩
  | 29 => ⟨S8x1024x1024, .i32⟩
  | 30 => ⟨S8x1024x1024, .i1⟩
  | 31 => ⟨S_, .i32⟩
  | 32 => ⟨S8x1024x1024, .i32⟩
  | 33 => ⟨S8x1024x1024, .i32⟩
  | 34 => ⟨S8x1024x1024, .i32⟩
  | 35 => ⟨S_, .i32⟩
  | 36 => ⟨S8x1024x1024, .i32⟩
  | 37 => ⟨S8x1024x1024, .i1⟩
  | 38 => ⟨S_, .i32⟩
  | 39 => ⟨S8x1024x1024, .i32⟩
  | 40 => ⟨S8x1024x1024, .i32⟩
  | 41 => ⟨S8x1024x1024, .i32⟩
  | 42 => ⟨S_, .i32⟩
  | 43 => ⟨S8x1024x1024, .i32⟩
  | 44 => ⟨S8x1024x1024, .i1⟩
  | 45 => ⟨S_, .i32⟩
  | 46 => ⟨S8x1024x1024, .i32⟩
  | 47 => ⟨S8x1024x1024, .i32⟩
  | 48 => ⟨S8x1024x1024, .i32⟩
  | 49 => ⟨S8x1024x1024x1, .i32⟩
  | 50 => ⟨S8x1024x1024x1, .i32⟩
  | 51 => ⟨S8x1024x1024x1, .i32⟩
  | 52 => ⟨S8x1024x1024x3, .i32⟩
  | 53 => ⟨S8x3x1024x1024, .f32⟩
  | 54 => ⟨S8x1x1024x1024, .f32⟩
  | 55 => ⟨S8x3x1024x1024, .f32⟩
  | 56 => ⟨S8x3x1024x1024, .f32⟩
  | 57 => ⟨S8x1x1024x1024, .f32⟩
  | 58 => ⟨S8x3x1024x1024, .f32⟩
  | 59 => ⟨S8x3x1024x1024, .f32⟩
  | 60 => ⟨S8x1x1024x1024, .f32⟩
  | 61 => ⟨S8x3x1024x1024, .f32⟩
  | 62 => ⟨S8x3x1024x1024, .f32⟩
  | 63 => ⟨S8x3x1024x1024, .f32⟩
  | 64 => ⟨S8x3x1024x1024, .f32⟩
  | _ => ⟨S8x3x1024x1024, .f32⟩

abbrev hbmTy (i : Nat) : BufTy := match i / 128 with
  | 0 => hbmTy0_0 i
  | 1 => hbmTy0_1 i
  | 2 => hbmTy0_2 i
  | 3 => hbmTy0_3 i
  | _ => ⟨S8x3x1024x1024, .f32⟩

abbrev bufTy : (tb : Table) → Fin (tcTables nBuf tb) → BufTy
  | .hbm, ⟨i, _⟩ => hbmTy i
  | _, _ => ⟨S8x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_c_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_1 : Ref sig .tc := ⟨.hbm, 53, rfl⟩
abbrev main_v40 : Ref sig .tc := ⟨.hbm, 54, rfl⟩
abbrev main_v41 : Ref sig .tc := ⟨.hbm, 55, rfl⟩
abbrev main_c_2 : Ref sig .tc := ⟨.hbm, 56, rfl⟩
abbrev main_v42 : Ref sig .tc := ⟨.hbm, 57, rfl⟩
abbrev main_v43 : Ref sig .tc := ⟨.hbm, 58, rfl⟩
abbrev main_c_3 : Ref sig .tc := ⟨.hbm, 59, rfl⟩
abbrev main_v44 : Ref sig .tc := ⟨.hbm, 60, rfl⟩
abbrev main_v45 : Ref sig .tc := ⟨.hbm, 61, rfl⟩
abbrev main_c_4 : Ref sig .tc := ⟨.hbm, 62, rfl⟩
abbrev main_v46 : Ref sig .tc := ⟨.hbm, 63, rfl⟩
abbrev main_v47 : Ref sig .tc := ⟨.hbm, 64, rfl⟩
abbrev main_c_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_6 : Ref sig .tc := ⟨.hbm, 69, rfl⟩
abbrev main_v51 : Ref sig .tc := ⟨.hbm, 70, rfl⟩
abbrev main_v52 : Ref sig .tc := ⟨.hbm, 71, rfl⟩
abbrev main_c_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_8 : Ref sig .tc := ⟨.hbm, 76, rfl⟩
abbrev main_v56 : Ref sig .tc := ⟨.hbm, 77, rfl⟩
abbrev main_v57 : Ref sig .tc := ⟨.hbm, 78, rfl⟩
abbrev main_c_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_11 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_12 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_13 : Ref sig .tc := ⟨.hbm, 106, rfl⟩
abbrev main_v81 : Ref sig .tc := ⟨.hbm, 107, rfl⟩
abbrev main_v82 : Ref sig .tc := ⟨.hbm, 108, rfl⟩
abbrev main_c_14 : Ref sig .tc := ⟨.hbm, 109, rfl⟩
abbrev main_v83 : Ref sig .tc := ⟨.hbm, 110, rfl⟩
abbrev main_v84 : Ref sig .tc := ⟨.hbm, 111, rfl⟩
abbrev main_c_15 : Ref sig .tc := ⟨.hbm, 112, rfl⟩
abbrev main_v85 : Ref sig .tc := ⟨.hbm, 113, rfl⟩
abbrev main_v86 : Ref sig .tc := ⟨.hbm, 114, rfl⟩
abbrev main_c_16 : Ref sig .tc := ⟨.hbm, 115, rfl⟩
abbrev main_v87 : Ref sig .tc := ⟨.hbm, 116, rfl⟩
abbrev main_v88 : Ref sig .tc := ⟨.hbm, 117, rfl⟩
abbrev main_c_17 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_18 : Ref sig .tc := ⟨.hbm, 122, rfl⟩
abbrev main_v92 : Ref sig .tc := ⟨.hbm, 123, rfl⟩
abbrev main_v93 : Ref sig .tc := ⟨.hbm, 124, rfl⟩
abbrev main_c_19 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_20 : Ref sig .tc := ⟨.hbm, 129, rfl⟩
abbrev main_v97 : Ref sig .tc := ⟨.hbm, 130, rfl⟩
abbrev main_v98 : Ref sig .tc := ⟨.hbm, 131, rfl⟩
abbrev main_c_21 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_22 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_23 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_c_24 : Ref sig .tc := ⟨.hbm, 157, rfl⟩
abbrev main_v121 : Ref sig .tc := ⟨.hbm, 158, rfl⟩
abbrev main_v122 : Ref sig .tc := ⟨.hbm, 159, rfl⟩
abbrev main_c_25 : Ref sig .tc := ⟨.hbm, 160, rfl⟩
abbrev main_v123 : Ref sig .tc := ⟨.hbm, 161, rfl⟩
abbrev main_v124 : Ref sig .tc := ⟨.hbm, 162, rfl⟩
abbrev main_c_26 : Ref sig .tc := ⟨.hbm, 163, rfl⟩
abbrev main_v125 : Ref sig .tc := ⟨.hbm, 164, rfl⟩
abbrev main_v126 : Ref sig .tc := ⟨.hbm, 165, rfl⟩
abbrev main_c_27 : Ref sig .tc := ⟨.hbm, 166, rfl⟩
abbrev main_v127 : Ref sig .tc := ⟨.hbm, 167, rfl⟩
abbrev main_v128 : Ref sig .tc := ⟨.hbm, 168, rfl⟩
abbrev main_c_28 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_c_29 : Ref sig .tc := ⟨.hbm, 173, rfl⟩
abbrev main_v132 : Ref sig .tc := ⟨.hbm, 174, rfl⟩
abbrev main_v133 : Ref sig .tc := ⟨.hbm, 175, rfl⟩
abbrev main_c_30 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_c_31 : Ref sig .tc := ⟨.hbm, 180, rfl⟩
abbrev main_v137 : Ref sig .tc := ⟨.hbm, 181, rfl⟩
abbrev main_v138 : Ref sig .tc := ⟨.hbm, 182, rfl⟩
abbrev main_c_32 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_33 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_34 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_c_35 : Ref sig .tc := ⟨.hbm, 208, rfl⟩
abbrev main_v161 : Ref sig .tc := ⟨.hbm, 209, rfl⟩
abbrev main_v162 : Ref sig .tc := ⟨.hbm, 210, rfl⟩
abbrev main_c_36 : Ref sig .tc := ⟨.hbm, 211, rfl⟩
abbrev main_v163 : Ref sig .tc := ⟨.hbm, 212, rfl⟩
abbrev main_v164 : Ref sig .tc := ⟨.hbm, 213, rfl⟩
abbrev main_c_37 : Ref sig .tc := ⟨.hbm, 214, rfl⟩
abbrev main_v165 : Ref sig .tc := ⟨.hbm, 215, rfl⟩
abbrev main_v166 : Ref sig .tc := ⟨.hbm, 216, rfl⟩
abbrev main_c_38 : Ref sig .tc := ⟨.hbm, 217, rfl⟩
abbrev main_v167 : Ref sig .tc := ⟨.hbm, 218, rfl⟩
abbrev main_v168 : Ref sig .tc := ⟨.hbm, 219, rfl⟩
abbrev main_c_39 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_c_40 : Ref sig .tc := ⟨.hbm, 224, rfl⟩
abbrev main_v172 : Ref sig .tc := ⟨.hbm, 225, rfl⟩
abbrev main_v173 : Ref sig .tc := ⟨.hbm, 226, rfl⟩
abbrev main_c_41 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_c_42 : Ref sig .tc := ⟨.hbm, 231, rfl⟩
abbrev main_v177 : Ref sig .tc := ⟨.hbm, 232, rfl⟩
abbrev main_v178 : Ref sig .tc := ⟨.hbm, 233, rfl⟩
abbrev main_c_43 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_cst_44 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_c_45 : Ref sig .tc := ⟨.hbm, 256, rfl⟩
abbrev main_v199 : Ref sig .tc := ⟨.hbm, 257, rfl⟩
abbrev main_v200 : Ref sig .tc := ⟨.hbm, 258, rfl⟩
abbrev main_c_46 : Ref sig .tc := ⟨.hbm, 259, rfl⟩
abbrev main_v201 : Ref sig .tc := ⟨.hbm, 260, rfl⟩
abbrev main_v202 : Ref sig .tc := ⟨.hbm, 261, rfl⟩
abbrev main_c_47 : Ref sig .tc := ⟨.hbm, 262, rfl⟩
abbrev main_v203 : Ref sig .tc := ⟨.hbm, 263, rfl⟩
abbrev main_v204 : Ref sig .tc := ⟨.hbm, 264, rfl⟩
abbrev main_c_48 : Ref sig .tc := ⟨.hbm, 265, rfl⟩
abbrev main_v205 : Ref sig .tc := ⟨.hbm, 266, rfl⟩
abbrev main_v206 : Ref sig .tc := ⟨.hbm, 267, rfl⟩
abbrev main_c_49 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_c_50 : Ref sig .tc := ⟨.hbm, 272, rfl⟩
abbrev main_v210 : Ref sig .tc := ⟨.hbm, 273, rfl⟩
abbrev main_v211 : Ref sig .tc := ⟨.hbm, 274, rfl⟩
abbrev main_c_51 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_c_52 : Ref sig .tc := ⟨.hbm, 279, rfl⟩
abbrev main_v215 : Ref sig .tc := ⟨.hbm, 280, rfl⟩
abbrev main_v216 : Ref sig .tc := ⟨.hbm, 281, rfl⟩
abbrev main_c_53 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_cst_54 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_cst_55 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_c_56 : Ref sig .tc := ⟨.hbm, 307, rfl⟩
abbrev main_v239 : Ref sig .tc := ⟨.hbm, 308, rfl⟩
abbrev main_v240 : Ref sig .tc := ⟨.hbm, 309, rfl⟩
abbrev main_c_57 : Ref sig .tc := ⟨.hbm, 310, rfl⟩
abbrev main_v241 : Ref sig .tc := ⟨.hbm, 311, rfl⟩
abbrev main_v242 : Ref sig .tc := ⟨.hbm, 312, rfl⟩
abbrev main_c_58 : Ref sig .tc := ⟨.hbm, 313, rfl⟩
abbrev main_v243 : Ref sig .tc := ⟨.hbm, 314, rfl⟩
abbrev main_v244 : Ref sig .tc := ⟨.hbm, 315, rfl⟩
abbrev main_c_59 : Ref sig .tc := ⟨.hbm, 316, rfl⟩
abbrev main_v245 : Ref sig .tc := ⟨.hbm, 317, rfl⟩
abbrev main_v246 : Ref sig .tc := ⟨.hbm, 318, rfl⟩
abbrev main_c_60 : Ref sig .tc := ⟨.hbm, 319, rfl⟩
abbrev main_v247 : Ref sig .tc := ⟨.hbm, 320, rfl⟩
abbrev main_v248 : Ref sig .tc := ⟨.hbm, 321, rfl⟩
abbrev main_v249 : Ref sig .tc := ⟨.hbm, 322, rfl⟩
abbrev main_c_61 : Ref sig .tc := ⟨.hbm, 323, rfl⟩
abbrev main_v250 : Ref sig .tc := ⟨.hbm, 324, rfl⟩
abbrev main_v251 : Ref sig .tc := ⟨.hbm, 325, rfl⟩
abbrev main_c_62 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_c_63 : Ref sig .tc := ⟨.hbm, 330, rfl⟩
abbrev main_v255 : Ref sig .tc := ⟨.hbm, 331, rfl⟩
abbrev main_v256 : Ref sig .tc := ⟨.hbm, 332, rfl⟩
abbrev main_c_64 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_cst_65 : Ref sig .tc := ⟨.hbm, 345, rfl⟩
abbrev main_v268 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_c_66 : Ref sig .tc := ⟨.hbm, 355, rfl⟩
abbrev main_v277 : Ref sig .tc := ⟨.hbm, 356, rfl⟩
abbrev main_v278 : Ref sig .tc := ⟨.hbm, 357, rfl⟩
abbrev main_c_67 : Ref sig .tc := ⟨.hbm, 358, rfl⟩
abbrev main_v279 : Ref sig .tc := ⟨.hbm, 359, rfl⟩
abbrev main_v280 : Ref sig .tc := ⟨.hbm, 360, rfl⟩
abbrev main_c_68 : Ref sig .tc := ⟨.hbm, 361, rfl⟩
abbrev main_v281 : Ref sig .tc := ⟨.hbm, 362, rfl⟩
abbrev main_v282 : Ref sig .tc := ⟨.hbm, 363, rfl⟩
abbrev main_c_69 : Ref sig .tc := ⟨.hbm, 364, rfl⟩
abbrev main_v283 : Ref sig .tc := ⟨.hbm, 365, rfl⟩
abbrev main_v284 : Ref sig .tc := ⟨.hbm, 366, rfl⟩
abbrev main_c_70 : Ref sig .tc := ⟨.hbm, 367, rfl⟩
abbrev main_v285 : Ref sig .tc := ⟨.hbm, 368, rfl⟩
abbrev main_v286 : Ref sig .tc := ⟨.hbm, 369, rfl⟩
abbrev main_v287 : Ref sig .tc := ⟨.hbm, 370, rfl⟩
abbrev main_c_71 : Ref sig .tc := ⟨.hbm, 371, rfl⟩
abbrev main_v288 : Ref sig .tc := ⟨.hbm, 372, rfl⟩
abbrev main_v289 : Ref sig .tc := ⟨.hbm, 373, rfl⟩
abbrev main_c_72 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_c_73 : Ref sig .tc := ⟨.hbm, 378, rfl⟩
abbrev main_v293 : Ref sig .tc := ⟨.hbm, 379, rfl⟩
abbrev main_v294 : Ref sig .tc := ⟨.hbm, 380, rfl⟩
abbrev main_c_74 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_cst_75 : Ref sig .tc := ⟨.hbm, 390, rfl⟩
abbrev main_v303 : Ref sig .tc := ⟨.hbm, 391, rfl⟩
abbrev main_v304 : Ref sig .tc := ⟨.hbm, 392, rfl⟩
abbrev main_v305 : Ref sig .tc := ⟨.hbm, 393, rfl⟩
abbrev main_v306 : Ref sig .tc := ⟨.hbm, 394, rfl⟩
abbrev main_v307 : Ref sig .tc := ⟨.hbm, 395, rfl⟩
abbrev main_v308 : Ref sig .tc := ⟨.hbm, 396, rfl⟩
abbrev main_v309 : Ref sig .tc := ⟨.hbm, 397, rfl⟩
abbrev main_v310 : Ref sig .tc := ⟨.hbm, 398, rfl⟩
abbrev main_v311 : Ref sig .tc := ⟨.hbm, 399, rfl⟩
abbrev main_v312 : Ref sig .tc := ⟨.hbm, 400, rfl⟩
abbrev main_v313 : Ref sig .tc := ⟨.hbm, 401, rfl⟩
abbrev main_v314 : Ref sig .tc := ⟨.hbm, 402, rfl⟩
abbrev main_c_76 : Ref sig .tc := ⟨.hbm, 403, rfl⟩
abbrev main_v315 : Ref sig .tc := ⟨.hbm, 404, rfl⟩
abbrev main_v316 : Ref sig .tc := ⟨.hbm, 405, rfl⟩
abbrev main_c_77 : Ref sig .tc := ⟨.hbm, 406, rfl⟩
abbrev main_v317 : Ref sig .tc := ⟨.hbm, 407, rfl⟩
abbrev main_v318 : Ref sig .tc := ⟨.hbm, 408, rfl⟩
abbrev main_c_78 : Ref sig .tc := ⟨.hbm, 409, rfl⟩
abbrev main_v319 : Ref sig .tc := ⟨.hbm, 410, rfl⟩
abbrev main_v320 : Ref sig .tc := ⟨.hbm, 411, rfl⟩
abbrev main_c_79 : Ref sig .tc := ⟨.hbm, 412, rfl⟩
abbrev main_v321 : Ref sig .tc := ⟨.hbm, 413, rfl⟩
abbrev main_v322 : Ref sig .tc := ⟨.hbm, 414, rfl⟩
abbrev main_c_80 : Ref sig .tc := ⟨.hbm, 415, rfl⟩
abbrev main_v323 : Ref sig .tc := ⟨.hbm, 416, rfl⟩
abbrev main_v324 : Ref sig .tc := ⟨.hbm, 417, rfl⟩
abbrev main_v325 : Ref sig .tc := ⟨.hbm, 418, rfl⟩
abbrev main_c_81 : Ref sig .tc := ⟨.hbm, 419, rfl⟩
abbrev main_v326 : Ref sig .tc := ⟨.hbm, 420, rfl⟩
abbrev main_v327 : Ref sig .tc := ⟨.hbm, 421, rfl⟩
abbrev main_c_82 : Ref sig .tc := ⟨.hbm, 422, rfl⟩
abbrev main_v328 : Ref sig .tc := ⟨.hbm, 423, rfl⟩
abbrev main_v329 : Ref sig .tc := ⟨.hbm, 424, rfl⟩
abbrev main_v330 : Ref sig .tc := ⟨.hbm, 425, rfl⟩
abbrev main_c_83 : Ref sig .tc := ⟨.hbm, 426, rfl⟩
abbrev main_v331 : Ref sig .tc := ⟨.hbm, 427, rfl⟩
abbrev main_v332 : Ref sig .tc := ⟨.hbm, 428, rfl⟩
abbrev main_c_84 : Ref sig .tc := ⟨.hbm, 429, rfl⟩
abbrev main_v333 : Ref sig .tc := ⟨.hbm, 430, rfl⟩
abbrev main_v334 : Ref sig .tc := ⟨.hbm, 431, rfl⟩
abbrev main_v335 : Ref sig .tc := ⟨.hbm, 432, rfl⟩
abbrev main_v336 : Ref sig .tc := ⟨.hbm, 433, rfl⟩
abbrev main_v337 : Ref sig .tc := ⟨.hbm, 434, rfl⟩
abbrev main_v338 : Ref sig .tc := ⟨.hbm, 435, rfl⟩
abbrev main_v339 : Ref sig .tc := ⟨.hbm, 436, rfl⟩
abbrev main_v340 : Ref sig .tc := ⟨.hbm, 437, rfl⟩
abbrev main_v341 : Ref sig .tc := ⟨.hbm, 438, rfl⟩
abbrev main_v342 : Ref sig .tc := ⟨.hbm, 439, rfl⟩
abbrev main_v343 : Ref sig .tc := ⟨.hbm, 440, rfl⟩
abbrev main_v344 : Ref sig .tc := ⟨.hbm, 441, rfl⟩
abbrev main_v345 : Ref sig .tc := ⟨.hbm, 442, rfl⟩
abbrev main_v346 : Ref sig .tc := ⟨.hbm, 443, rfl⟩
abbrev main_v347 : Ref sig .tc := ⟨.hbm, 444, rfl⟩
abbrev main_v348 : Ref sig .tc := ⟨.hbm, 445, rfl⟩
abbrev main_v349 : Ref sig .tc := ⟨.hbm, 446, rfl⟩
abbrev main_v350 : Ref sig .tc := ⟨.hbm, 447, rfl⟩
abbrev main_v351 : Ref sig .tc := ⟨.hbm, 448, rfl⟩

abbrev nD : Nat := 1
abbrev τ : Topo := Topo.v7x

variable {F : FTy → Type} [FloatOps F]

class Facts₀ : Prop where
  shapeCasts_S300x1089_S5x65340 : S300x1089.ShapeCasts S5x65340
  shapeCasts_S33x65340_S33x60x1089 : S33x65340.ShapeCasts S33x60x1089
  transposes_S33x60x1089_S60x33x1089_1_0_2 : S33x60x1089.Transposes [1, 0, 2] S60x33x1089
  shapeCasts_S60x33x1089_S20x3x33x33x33 : S60x33x1089.ShapeCasts S20x3x33x33x33
  slices_S20x3x33x33x33_S20x1x33x33x33_0_0_0_0_0 : S20x3x33x33x33.Slices ![0, 0, 0, 0, 0] S20x1x33x33x33
  shapeCasts_S20x1x33x33x33_S20x33x33x33 : S20x1x33x33x33.ShapeCasts S20x33x33x33
  transposes_S20x33x33x33_S20x33x33x33_0_2_3_1 : S20x33x33x33.Transposes [0, 2, 3, 1] S20x33x33x33
  slices_S20x3x33x33x33_S20x1x33x33x33_0_1_0_0_0 : S20x3x33x33x33.Slices ![0, 1, 0, 0, 0] S20x1x33x33x33
  transposes_S20x33x33x33_S20x33x33x33_0_2_1_3 : S20x33x33x33.Transposes [0, 2, 1, 3] S20x33x33x33
  slices_S20x3x33x33x33_S20x1x33x33x33_0_2_0_0_0 : S20x3x33x33x33.Slices ![0, 2, 0, 0, 0] S20x1x33x33x33
  bcast_S20x33x33x33_S20x1x33x33x33_0_2_3_4 : S20x33x33x33.BroadcastsInDim S20x1x33x33x33 (![0, 2, 3, 4] : Fin 4 → Fin S20x1x33x33x33.rank)
  concatenates_S20x1x33x33x33_S20x1x33x33x33_S20x1x33x33x33_S20x3x33x33x33_d1 : Shape.Concatenates [S20x1x33x33x33, S20x1x33x33x33, S20x1x33x33x33] S20x3x33x33x33 1
  shapeCasts_S20x3x33x33x33_S20x107811 : S20x3x33x33x33.ShapeCasts S20x107811
  shapeCasts_S8x107811_S8x3x33x33x33 : S8x107811.ShapeCasts S8x3x33x33x33
  bcast_S_S8x3x1024x1024 : S_.BroadcastsInDim S8x3x1024x1024 (![] : Fin 0 → Fin S8x3x1024x1024.rank)
  slices_S8x3x1024x1024_S8x1x1024x1024_0_0_0_0 : S8x3x1024x1024.Slices ![0, 0, 0, 0] S8x1x1024x1024
  shapeCasts_S8x1x1024x1024_S8x1024x1024 : S8x1x1024x1024.ShapeCasts S8x1024x1024
  slices_S8x3x1024x1024_S8x1x1024x1024_0_1_0_0 : S8x3x1024x1024.Slices ![0, 1, 0, 0] S8x1x1024x1024
  slices_S8x3x1024x1024_S8x1x1024x1024_0_2_0_0 : S8x3x1024x1024.Slices ![0, 2, 0, 0] S8x1x1024x1024
  bcast_S_S8x1024x1024 : S_.BroadcastsInDim S8x1024x1024 (![] : Fin 0 → Fin S8x1024x1024.rank)
  bcast_S8x1024x1024_S8x1024x1024x1_0_1_2 : S8x1024x1024.BroadcastsInDim S8x1024x1024x1 (![0, 1, 2] : Fin 3 → Fin S8x1024x1024x1.rank)
  concatenates_S8x1024x1024x1_S8x1024x1024x1_S8x1024x1024x1_S8x1024x1024x3_d3 : Shape.Concatenates [S8x1024x1024x1, S8x1024x1024x1, S8x1024x1024x1] S8x1024x1024x3 3
  bcast_S8x1024x1024_S8x1x1024x1024_0_2_3 : S8x1024x1024.BroadcastsInDim S8x1x1024x1024 (![0, 2, 3] : Fin 3 → Fin S8x1x1024x1024.rank)
  bcast_S8x1x1024x1024_S8x3x1024x1024_0_1_2_3 : S8x1x1024x1024.BroadcastsInDim S8x3x1024x1024 (![0, 1, 2, 3] : Fin 4 → Fin S8x3x1024x1024.rank)
  dot_S300x20_S20x1089_S300x1089_1_0_0_1_n_n_wf : DotDims.WF S300x20 S20x1089 S300x1089 [1] [0] [0] [1] [] []
  dot_S33x5_S5x65340_S33x65340_1_0_0_1_n_n_wf : DotDims.WF S33x5 S5x65340 S33x65340 [1] [0] [0] [1] [] []
  dot_S8x20_S20x107811_S8x107811_1_0_0_1_n_n_wf : DotDims.WF S8x20 S20x107811 S8x107811 [1] [0] [0] [1] [] []
  gather_S8x3x33x33x33_S8x1024x1024x3_S8x3x1024x1024_1_234_0_0_234_3_13111_wf : GatherDims.WF S8x3x33x33x33 S8x1024x1024x3 S8x3x1024x1024 [1] [2, 3, 4] [0] [2, 3, 4] [0] 3 ![1, 3, 1, 1, 1]

variable [Facts₀]

def dot_S300x20_S20x1089_S300x1089_1_0_0_1_n_n : DotDims S300x20 S20x1089 S300x1089 where
  lhsContracting := [1]
  rhsContracting := [0]
  lhsNonContracting := [0]
  rhsNonContracting := [1]
  lhsBatch := []
  rhsBatch := []
  wf := dot_S300x20_S20x1089_S300x1089_1_0_0_1_n_n_wf
def dot_S33x5_S5x65340_S33x65340_1_0_0_1_n_n : DotDims S33x5 S5x65340 S33x65340 where
  lhsContracting := [1]
  rhsContracting := [0]
  lhsNonContracting := [0]
  rhsNonContracting := [1]
  lhsBatch := []
  rhsBatch := []
  wf := dot_S33x5_S5x65340_S33x65340_1_0_0_1_n_n_wf
def dot_S8x20_S20x107811_S8x107811_1_0_0_1_n_n : DotDims S8x20 S20x107811 S8x107811 where
  lhsContracting := [1]
  rhsContracting := [0]
  lhsNonContracting := [0]
  rhsNonContracting := [1]
  lhsBatch := []
  rhsBatch := []
  wf := dot_S8x20_S20x107811_S8x107811_1_0_0_1_n_n_wf
def gather_S8x3x33x33x33_S8x1024x1024x3_S8x3x1024x1024_1_234_0_0_234_3_13111 : GatherDims S8x3x33x33x33 S8x1024x1024x3 S8x3x1024x1024 where
  offsetDims := [1]
  collapsedSliceDims := [2, 3, 4]
  operandBatchingDims := [0]
  startIndicesBatchingDims := [0]
  startIndexMap := [2, 3, 4]
  indexVectorDim := 3
  sliceSizes := ![1, 3, 1, 1, 1]
  wf := gather_S8x3x33x33x33_S8x1024x1024x3_S8x3x1024x1024_1_234_0_0_234_3_13111_wf

class Facts : Prop extends Facts₀ where

variable [Facts]
-- ==== Proof.KernelRegion.lean ====
/-
  The run of the program around its one kernel region, for any reading of the floats.

  @main is twenty-four host operations (three small matrix products and the re-layouts between them build the
  per-image lookup table; the image is flattened to 8 × 3 × 2^20), the region — a grid of 8 × 512 points, each
  staging a tile of 3 × 2048 pixels and its image's table and writing back a tile of the same size — and one
  host reshape of the result.  The body at a point loads the pixel tile and the table, stores ONE value that
  covers the whole output tile, and nothing else (a load of the output tile that it never uses aside); so the
  output tile after the body is a function `tileOut` of the two loaded blocks, the inputs' staging buffers are
  left as found, and the run ends with the result array assembled from the tiles and every argument array as
  launched.
-/
import proofs.«162768_j12979391168851_2_alg».proof.Proof.Gen.Kernel.Launch
import proofs.«162768_j12979391168851_2_alg».proof.Proof.Gen.Kernel.Skeleton
import proofs.«162768_j12979391168851_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The buffers' contents when the region is entered: the launch contents after the host operations before it. -/
abbrev entry0 (c : Dev nD) : Valuation τ sig (Elt F) := StableHlo.after (List.flatten [hostOps0]) (fun b => m (c, b))
/-- The same, read at one buffer. -/
abbrev entry (c : Dev nD) (b : Ref sig .tc) : Buf (Elt F) ((c : Thread nD τ).loc b) := entry0 m c (Proc.devRef .tc b)

theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main reduces to the region, entered at `entry`, continued by the one host operation after it. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The operation after the region touches unscoped buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop
/-- and writes none of the three arrays the region stages (it writes the reshaped result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No host operation before the region writes an argument array: the region finds each as launched. -/
theorem entry_arg (a : Ref sig .tc) (ha : a = main_arg0 ∨ a = main_arg1 ∨ a = main_arg2 ∨ a = main_arg3 ∨ a = main_arg4) (c : Dev nD) :
    entry m c a = m ((c : Thread nD τ).loc a) := by
  rcases ha with rfl | rfl | rfl | rfl | rfl <;>
  exact StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- Nor does the operation after it, and no argument array is one the region stages: each ends as launched. -/
theorem final_arg (dats : (p : Fin _) → (c : Dev nD) → Dat τ (Elt F) Unit ℕ (UR sig nD τ) ℕ (cfgs p) c)
    (a : Ref sig .tc) (ha : a = main_arg0 ∨ a = main_arg1 ∨ a = main_arg2 ∨ a = main_arg3 ∨ a = main_arg4)
    (hs : ∀ w, Pipeline.arrRef spec0 w ≠ a) (hr : a ≠ main_v25) (c : Dev nD) :
    Pipeline.afterTail₀ cfgs dats 0 (entry0 m) [hostOps1] c a = m ((c : Thread nD τ).loc a) := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hr)),
    Pipeline.withArrays_of_ne _ c (entry0 m c) _ a hs]
  exact entry_arg m a ha c

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, whether it was fetched there or
    left from the point before (the table's window moves only when the image changes). -/
theorem staged_pixels {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged_table {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output tile -/

/-- The whole pixel tile, the whole table block, the whole output tile, as rectangles of their buffers. -/
abbrev rPix : Rect S1x3x2048 := Rect.unit (s := S1x3x2048) ![0, 0, 0] S1x3x2048.size inb_S1x3x2048_S1x3x2048_0_0_0
abbrev rTab : Rect S1x99x1089 := Rect.unit (s := S1x99x1089) ![0, 0, 0] S1x99x1089.size inb_S1x99x1089_S1x99x1089_0_0_0

/-- The value the body stores, from the loaded pixel tile `v0` and table block `v93`: the bins and offsets of
    the three channels, the one-hot green-red weights, the product with the table, the blend along blue, plus
    the tile. -/
def stored (v0 : Vec F S1x3x2048 .f32) (v93 : Vec F S1x99x1089 .bf16) : FVec F S1x3x2048 .f32 :=
  k0_pay1 (k0_pay2 v0) (k0_pay8 v0) (k0_pay11 v0)
    (k0_pay16 (k0_pay6 v0) (k0_pay9 v0) (k0_pay10 v0) (iota .tc S1089x2048 32 [0] iota_S1089x2048_d0_w32)
      (k0_pay12 v0) (k0_pay13 v0) (k0_pay14 v0) (k0_pay15 v0)) v93

/-- The output tile after the body, from the two input blocks. -/
def tileOut (x0 : Vec F S1x3x2048 .f32) (x1 : Vec F S1x99x1089 .bf16) : Vec F S1x3x2048 .f32 :=
  View.canon [⟨rPix, stored (View.ld x0 rPix) (View.ld x1 rTab)⟩]

/-- The one store covers the tile. -/
theorem store_covers (p0 : Vec F S1x3x2048 .f32) (y : S1x3x2048.Idx) :
    ∃ pc ∈ ([⟨rPix, p0⟩] : List (View.Piece (Elt F) S1x3x2048 .f32)), y ∈ pc.1.set :=
  View.cover_of_tiled [⟨rPix, p0⟩] S1x3x2048.size (by rfl) y

/-! ## The body's triple -/

set_option maxHeartbeats 2000000 in
/-- The body on whole staging buffers — the inputs' at contents `x0`, `x1`, the output's at anything — runs to
    its end leaving the inputs' as they were and the output's at `tileOut x0 x1`. -/
theorem body_triple (c : Dev nD) (E : Set ℕ) (i : grid0.Coords) (arg2 : Memref sig .tc .vmem S1x3x2048 .f32) (harg2 : arg2.IsWhole)
    (arg3 : Memref sig .tc .vmem S1x99x1089 .bf16) (harg3 : arg3.IsWhole) (arg4 : Memref sig .tc .vmem S1x3x2048 .f32) (harg4 : arg4.IsWhole)
    (x0 : Vec F S1x3x2048 .f32) (x1 : Vec F S1x99x1089 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (tileOut x0 x1)) -∗ K ⟨⟩))
      ⊢ wp frame (wpE (defs₀ (F := F)) Variants.none c none) E (cc0_trilinear_kernel i arg2 harg2 arg3 harg3 arg4 harg4) K := by
  simp only [cc0_trilinear_kernel_eq_skeleton]; unfold cc0_trilinear_kernel_skel
  simp only [k0_part1_eq_skeleton, k0_part2_eq_skeleton]; unfold k0_part1_skel k0_part2_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The proof data of the region -/

/-- On core `c`: the three arrays as the region finds them; after the body at point `t` the two inputs' staging
    buffers at their blocks and the output's at `tileOut` of them; nothing else owned, nothing owed. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => tileOut (blockAt m c 0 t) (blockAt m c 1 t)
  Φ _ := Pipeline.ΦA spec0 c
  q _ := fullShare
  owed _ := 0

theorem arrays_eq (c : Dev nD) (w : Fin cfg0.W) : (dats m 0 c).A w = entry m c (Pipeline.arrRef spec0 w) := by
  dsimp only [dats]
theorem after_pixels (c : Dev nD) (t : Fin cfg0.N) : (dats m 0 c).after 0 t = blockAt m c 0 t := by dsimp only [dats]
theorem after_table (c : Dev nD) (t : Fin cfg0.N) : (dats m 0 c).after 1 t = blockAt m c 1 t := by dsimp only [dats]
theorem after_out (c : Dev nD) (t : Fin cfg0.N) :
    (dats m 0 c).after 2 t = tileOut (blockAt m c 0 t) (blockAt m c 1 t) := by dsimp only [dats]

theorem found_pixels (c : Dev nD) (t : Fin cfg0.N) (d) : (dats m 0 c).before 0 t d = blockAt m c 0 t :=
  staged_pixels m (dats m 0 c) (arrays_eq m c 0) (after_pixels m c) t d
theorem found_table (c : Dev nD) (t : Fin cfg0.N) (d) : (dats m 0 c).before 1 t d = blockAt m c 1 t :=
  staged_table m (dats m 0 c) (arrays_eq m c 1) (after_table m c) t d

/-! ## The body at a point -/

/-- What the body is called with at point `t`, window by window, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [found_pixels, found_table]
  rw [show (dats m 0 c).Φ t.succ = (dats m 0 c).Φ t.castSucc from rfl,
    show (dats m 0 c).owesAt () t.succ = (dats m 0 c).owesAt () t.castSucc from rfl,
    after_pixels, after_table, after_out]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact point_sound m c t

/-! ## The run -/

set_option backward.isDefEq.respectTransparency.types false in
/-- Every weakly fair execution of @main terminates; at the end each of the three staged arrays holds what the
    tiles written back make of it, and every other unscoped buffer what the host operation after the region
    leaves. -/
theorem run_main : θ_run defs (onTc (τ := τ) (main (F := F))) (s₀ m ρ)
    (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps)
    (hmain := main_around m Variants.none) (hA := arrays_eq m) (hΦ := fun _ _ => rfl)

/-- At the end every argument array is as launched. -/
theorem args_kept (r : PUnit × MemSt nD τ sig (Elt F))
    (h : Pipeline.FramePost cfgs (dats m) 0 (Pipeline.afterTail₀ cfgs (dats m) 0 (entry0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of main_arg0 (by decide) (by decide))).trans
      (final_arg m (dats m) main_arg0 (.inl rfl) (by decide) (by decide) c),
   ((h c).2 main_arg1 (Pipeline.mem_restRefs_of main_arg1 (by decide) (by decide))).trans
      (final_arg m (dats m) main_arg1 (.inr (.inl rfl)) (by decide) (by decide) c),
   ((h c).2 main_arg2 (Pipeline.mem_restRefs_of main_arg2 (by decide) (by decide))).trans
      (final_arg m (dats m) main_arg2 (.inr (.inr (.inl rfl))) (by decide) (by decide) c),
   ((h c).2 main_arg3 (Pipeline.mem_restRefs_of main_arg3 (by decide) (by decide))).trans
      (final_arg m (dats m) main_arg3 (.inr (.inr (.inr (.inl rfl)))) (by decide) (by decide) c),
   ((h c).2 main_arg4 (Pipeline.mem_restRefs_of main_arg4 (by decide) (by decide))).trans
      (final_arg m (dats m) main_arg4 (.inr (.inr (.inr (.inr rfl)))) (by decide) (by decide) c)⟩

/-- The frame: @main runs to its end and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.Kernel.Hand

end
-- ==== Proof.KernelIdealRegion.lean ====
/-
  The run of the program around its one kernel region, for any reading of the floats.

  @main is twenty-four host operations (three small matrix products and the re-layouts between them build the
  per-image lookup table; the image is flattened to 8 × 3 × 2^20), the region — a grid of 8 × 512 points, each
  staging a tile of 3 × 2048 pixels and its image's table and writing back a tile of the same size — and one
  host reshape of the result.  The body at a point loads the pixel tile and the table, stores ONE value that
  covers the whole output tile, and nothing else (a load of the output tile that it never uses aside); so the
  output tile after the body is a function `tileOut` of the two loaded blocks, the inputs' staging buffers are
  left as found, and the run ends with the result array assembled from the tiles and every argument array as
  launched.
-/
import proofs.«162768_j12979391168851_2_alg».proof.Proof.Gen.KernelIdeal.Launch
import proofs.«162768_j12979391168851_2_alg».proof.Proof.Gen.KernelIdeal.Skeleton
import proofs.«162768_j12979391168851_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The buffers' contents when the region is entered: the launch contents after the host operations before it. -/
abbrev entry0 (c : Dev nD) : Valuation τ sig (Elt F) := StableHlo.after (List.flatten [hostOps0]) (fun b => m (c, b))
/-- The same, read at one buffer. -/
abbrev entry (c : Dev nD) (b : Ref sig .tc) : Buf (Elt F) ((c : Thread nD τ).loc b) := entry0 m c (Proc.devRef .tc b)

theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main reduces to the region, entered at `entry`, continued by the one host operation after it. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The operation after the region touches unscoped buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop
/-- and writes none of the three arrays the region stages (it writes the reshaped result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No host operation before the region writes an argument array: the region finds each as launched. -/
theorem entry_arg (a : Ref sig .tc) (ha : a = main_arg0 ∨ a = main_arg1 ∨ a = main_arg2 ∨ a = main_arg3 ∨ a = main_arg4) (c : Dev nD) :
    entry m c a = m ((c : Thread nD τ).loc a) := by
  rcases ha with rfl | rfl | rfl | rfl | rfl <;>
  exact StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- Nor does the operation after it, and no argument array is one the region stages: each ends as launched. -/
theorem final_arg (dats : (p : Fin _) → (c : Dev nD) → Dat τ (Elt F) Unit ℕ (UR sig nD τ) ℕ (cfgs p) c)
    (a : Ref sig .tc) (ha : a = main_arg0 ∨ a = main_arg1 ∨ a = main_arg2 ∨ a = main_arg3 ∨ a = main_arg4)
    (hs : ∀ w, Pipeline.arrRef spec0 w ≠ a) (hr : a ≠ main_v25) (c : Dev nD) :
    Pipeline.afterTail₀ cfgs dats 0 (entry0 m) [hostOps1] c a = m ((c : Thread nD τ).loc a) := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hr)),
    Pipeline.withArrays_of_ne _ c (entry0 m c) _ a hs]
  exact entry_arg m a ha c

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, whether it was fetched there or
    left from the point before (the table's window moves only when the image changes). -/
theorem staged_pixels {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged_table {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output tile -/

/-- The whole pixel tile, the whole table block, the whole output tile, as rectangles of their buffers. -/
abbrev rPix : Rect S1x3x2048 := Rect.unit (s := S1x3x2048) ![0, 0, 0] S1x3x2048.size inb_S1x3x2048_S1x3x2048_0_0_0
abbrev rTab : Rect S1x99x1089 := Rect.unit (s := S1x99x1089) ![0, 0, 0] S1x99x1089.size inb_S1x99x1089_S1x99x1089_0_0_0

/-- The value the body stores, from the loaded pixel tile `v0` and table block `v93`: the bins and offsets of
    the three channels, the one-hot green-red weights, the product with the table, the blend along blue, plus
    the tile. -/
def stored (v0 : Vec F S1x3x2048 .f32) (v93 : Vec F S1x99x1089 .bf16) : FVec F S1x3x2048 .f32 :=
  k0_pay1 (k0_pay2 v0) (k0_pay8 v0) (k0_pay11 v0)
    (k0_pay16 (k0_pay6 v0) (k0_pay9 v0) (k0_pay10 v0) (iota .tc S1089x2048 32 [0] iota_S1089x2048_d0_w32)
      (k0_pay12 v0) (k0_pay13 v0) (k0_pay14 v0) (k0_pay15 v0)) v93

/-- The output tile after the body, from the two input blocks. -/
def tileOut (x0 : Vec F S1x3x2048 .f32) (x1 : Vec F S1x99x1089 .bf16) : Vec F S1x3x2048 .f32 :=
  View.canon [⟨rPix, stored (View.ld x0 rPix) (View.ld x1 rTab)⟩]

/-- The one store covers the tile. -/
theorem store_covers (p0 : Vec F S1x3x2048 .f32) (y : S1x3x2048.Idx) :
    ∃ pc ∈ ([⟨rPix, p0⟩] : List (View.Piece (Elt F) S1x3x2048 .f32)), y ∈ pc.1.set :=
  View.cover_of_tiled [⟨rPix, p0⟩] S1x3x2048.size (by rfl) y

/-! ## The body's triple -/

set_option maxHeartbeats 2000000 in
/-- The body on whole staging buffers — the inputs' at contents `x0`, `x1`, the output's at anything — runs to
    its end leaving the inputs' as they were and the output's at `tileOut x0 x1`. -/
theorem body_triple (c : Dev nD) (E : Set ℕ) (i : grid0.Coords) (arg2 : Memref sig .tc .vmem S1x3x2048 .f32) (harg2 : arg2.IsWhole)
    (arg3 : Memref sig .tc .vmem S1x99x1089 .bf16) (harg3 : arg3.IsWhole) (arg4 : Memref sig .tc .vmem S1x3x2048 .f32) (harg4 : arg4.IsWhole)
    (x0 : Vec F S1x3x2048 .f32) (x1 : Vec F S1x99x1089 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (tileOut x0 x1)) -∗ K ⟨⟩))
      ⊢ wp frame (wpE (defs₀ (F := F)) Variants.none c none) E (cc0_trilinear_kernel i arg2 harg2 arg3 harg3 arg4 harg4) K := by
  simp only [cc0_trilinear_kernel_eq_skeleton]; unfold cc0_trilinear_kernel_skel
  simp only [k0_part1_eq_skeleton, k0_part2_eq_skeleton]; unfold k0_part1_skel k0_part2_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The proof data of the region -/

/-- On core `c`: the three arrays as the region finds them; after the body at point `t` the two inputs' staging
    buffers at their blocks and the output's at `tileOut` of them; nothing else owned, nothing owed. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => tileOut (blockAt m c 0 t) (blockAt m c 1 t)
  Φ _ := Pipeline.ΦA spec0 c
  q _ := fullShare
  owed _ := 0

theorem arrays_eq (c : Dev nD) (w : Fin cfg0.W) : (dats m 0 c).A w = entry m c (Pipeline.arrRef spec0 w) := by
  dsimp only [dats]
theorem after_pixels (c : Dev nD) (t : Fin cfg0.N) : (dats m 0 c).after 0 t = blockAt m c 0 t := by dsimp only [dats]
theorem after_table (c : Dev nD) (t : Fin cfg0.N) : (dats m 0 c).after 1 t = blockAt m c 1 t := by dsimp only [dats]
theorem after_out (c : Dev nD) (t : Fin cfg0.N) :
    (dats m 0 c).after 2 t = tileOut (blockAt m c 0 t) (blockAt m c 1 t) := by dsimp only [dats]

theorem found_pixels (c : Dev nD) (t : Fin cfg0.N) (d) : (dats m 0 c).before 0 t d = blockAt m c 0 t :=
  staged_pixels m (dats m 0 c) (arrays_eq m c 0) (after_pixels m c) t d
theorem found_table (c : Dev nD) (t : Fin cfg0.N) (d) : (dats m 0 c).before 1 t d = blockAt m c 1 t :=
  staged_table m (dats m 0 c) (arrays_eq m c 1) (after_table m c) t d

/-! ## The body at a point -/

/-- What the body is called with at point `t`, window by window, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [found_pixels, found_table]
  rw [show (dats m 0 c).Φ t.succ = (dats m 0 c).Φ t.castSucc from rfl,
    show (dats m 0 c).owesAt () t.succ = (dats m 0 c).owesAt () t.castSucc from rfl,
    after_pixels, after_table, after_out]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact point_sound m c t

/-! ## The run -/

set_option backward.isDefEq.respectTransparency.types false in
/-- Every weakly fair execution of @main terminates; at the end each of the three staged arrays holds what the
    tiles written back make of it, and every other unscoped buffer what the host operation after the region
    leaves. -/
theorem run_main : θ_run defs (onTc (τ := τ) (main (F := F))) (s₀ m ρ)
    (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps)
    (hmain := main_around m Variants.none) (hA := arrays_eq m) (hΦ := fun _ _ => rfl)

/-- At the end every argument array is as launched. -/
theorem args_kept (r : PUnit × MemSt nD τ sig (Elt F))
    (h : Pipeline.FramePost cfgs (dats m) 0 (Pipeline.afterTail₀ cfgs (dats m) 0 (entry0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of main_arg0 (by decide) (by decide))).trans
      (final_arg m (dats m) main_arg0 (.inl rfl) (by decide) (by decide) c),
   ((h c).2 main_arg1 (Pipeline.mem_restRefs_of main_arg1 (by decide) (by decide))).trans
      (final_arg m (dats m) main_arg1 (.inr (.inl rfl)) (by decide) (by decide) c),
   ((h c).2 main_arg2 (Pipeline.mem_restRefs_of main_arg2 (by decide) (by decide))).trans
      (final_arg m (dats m) main_arg2 (.inr (.inr (.inl rfl))) (by decide) (by decide) c),
   ((h c).2 main_arg3 (Pipeline.mem_restRefs_of main_arg3 (by decide) (by decide))).trans
      (final_arg m (dats m) main_arg3 (.inr (.inr (.inr (.inl rfl)))) (by decide) (by decide) c),
   ((h c).2 main_arg4 (Pipeline.mem_restRefs_of main_arg4 (by decide) (by decide))).trans
      (final_arg m (dats m) main_arg4 (.inr (.inr (.inr (.inr rfl)))) (by decide) (by decide) c)⟩

/-- The frame: @main runs to its end and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.KernelIdeal.Hand

end
-- ==== Proof.KernelIdealGrid.lean ====
/-
  The grid of the kernel region, read once: the region has 8 × 512 points; at point `t` the pixel tile and
  the result tile are block (t / 512, 0, t % 512) of their 8 × 3 × 2^20 arrays (blocks of 1 × 3 × 2048), and the
  table block is block (t / 512, 0, 0) of the 8 × 99 × 1089 table array (blocks of 1 × 99 × 1089).  Also: the
  one store of the body covers the whole tile, so the tile after the body is the stored value itself.
-/
import proofs.«162768_j12979391168851_2_alg».proof.Proof.KernelIdealRegion
import Idealize.ShloMosaic.Lib.Pipeline.Value
import Idealize.ShloMosaic.PureOps.Ideal

set_option maxRecDepth 16384

noncomputable section

namespace Cert.KernelIdeal.Array

open Cert.KernelIdeal Cert.KernelIdeal.Gen Cert.KernelIdeal.Hand
open Idealize.ShloMosaic Idealize.ShloMosaic.TcCoe Idealize.SL.Sem
open Idealize.ShloMosaic.Pipeline (Dat)

/-- The offsets of a whole block are all zero. -/
theorem hz3 : (![0, 0, 0] : Fin 3 → Nat) = fun _ => 0 := funext fun a => by fin_cases a <;> rfl

/-- The tile after the body is the value its one store writes, of the two blocks as loaded whole. -/
theorem tileOut_eq (x0 : Vec Ideal S1x3x2048 .f32) (x1 : Vec Ideal S1x99x1089 .bf16) :
    tileOut (F := Ideal) x0 x1 = stored x0 x1 := by
  unfold tileOut
  rw [View.canon_unit_zero hz3]
  simp only [View.ld_unit_zero (S := S1x3x2048) hz3, View.ld_unit_zero (S := S1x99x1089) hz3]

/-- The three index maps over the grid: the pixel tile moves with the result tile, the table block follows
    its picture, and the result tile's block index is (t / 512, 0, t % 512). -/
theorem idx_facts : ∀ t : Fin cfg0.N,
    win0_0.index t (0 : Fin 3) = win0_2.index t (0 : Fin 3)
    ∧ win0_0.index t (1 : Fin 3) = 0
    ∧ win0_0.index t (2 : Fin 3) = win0_2.index t (2 : Fin 3)
    ∧ win0_1.index t (0 : Fin 3) = win0_2.index t (0 : Fin 3)
    ∧ win0_1.index t (1 : Fin 3) = 0
    ∧ win0_1.index t (2 : Fin 3) = 0
    ∧ win0_2.index t (1 : Fin 3) = 0
    ∧ win0_2.index t (0 : Fin 3) = t.val / 512
    ∧ win0_2.index t (2 : Fin 3) = t.val % 512 :=
  (by decide +kernel : ∀ t : Fin grid0.N, _)

/-- The grid has 4096 points. -/
theorem N_eq : cfg0.N = 4096 := N_0

end Cert.KernelIdeal.Array

end
-- ==== Proof.TrilinearSpec.lean ====
/-
  What both programs compute, as one function of the image and of the per-image lookup table, over the
  extended reals.

  A sample `v` of the image is located in the table's grid of 33 nodes per axis: `binPos v = v / binWidth`
  is its position in units of one bin, `cellWord v` the bin it falls in (the floor, as a 32-bit word, clamped to
  0 … 31 so that the bin's upper node exists), `frac v` its offset inside that bin.  The three channels of a
  pixel (red, green, blue) locate a cube of the table with corners `(cell b + db, cell g + dg, cell r + dr)`,
  `db, dg, dr ∈ {0, 1}`, and `tri` is the trilinear blend of the table's values at those eight corners, each
  corner weighted by `frac` or `unit - frac` along each axis.  The result at a pixel and channel is the blend
  of that channel's table plus the pixel's own value there (a residual connection).
-/
import Idealize.ShloMosaic.PureOps.Ideal
import Idealize.ShloMosaic.Lib.ValueIdx

noncomputable section

namespace Cert.Trilinear

open Idealize.ShloMosaic Idealize.ShloMosaic.ValueIdx

/-- The image: 8 pictures, 3 channels, 1024 × 1024 pixels. -/
abbrev SImg : Shape := ⟨4, ![8, 3, 1024, 1024]⟩
/-- The lookup tables: per picture and output channel, 33 × 33 × 33 nodes indexed (blue, green, red). -/
abbrev SLut : Shape := ⟨5, ![8, 3, 33, 33, 33]⟩

/-- The width of one bin, the single-precision number nearest 1.000001 / 32, as both programs spell it. -/
def binWidth : EReal := Ideal.ofBits .f32 0x3D000008#32
/-- The number one, as both programs spell it. -/
def unit : EReal := Ideal.ofBits .f32 0x3F800000#32

/-- A sample's position in units of one bin. -/
def binPos (v : EReal) : EReal := Ideal.div v binWidth

/-- The bin a sample falls in, as a word: the floor of its position, clamped to 0 … 31. -/
def cellWord (v : EReal) : BitVec 32 :=
  IntOp.minsi 31#32 (IntOp.maxsi 0#32 (Ideal.fptosi 32 (Ideal.liftRound Int.floor (binPos v))))

/-- Clamping a word between 0 and 31 (signed) leaves a word whose unsigned value is at most 31. -/
theorem clamp_toNat_le (x : BitVec 32) : (IntOp.minsi 31#32 (IntOp.maxsi 0#32 x)).toNat ≤ 31 := by
  have key : ∀ y : BitVec 32, y.slt 0#32 = false → (31#32 : BitVec 32).slt y = false → y.toNat ≤ 31 := by
    intro y h0 h1
    simp only [BitVec.slt, decide_eq_false_iff_not, not_lt] at h0 h1
    have hx := BitVec.toInt_eq_toNat_cond y
    have e0 : (0#32 : BitVec 32).toInt = 0 := by decide
    have e1 : (31#32 : BitVec 32).toInt = 31 := by decide
    rw [e0] at h0; rw [e1] at h1
    split at hx <;> omega
  unfold IntOp.minsi IntOp.maxsi
  cases h0 : x.slt 0#32
  · simp only [Bool.false_eq_true, if_false]
    cases h1 : (31#32 : BitVec 32).slt x
    · simp only [Bool.false_eq_true, if_false]; exact key x h0 h1
    · simp
  · simp

/-- The bin a sample falls in, as an index of the 32 bins. -/
def cell (v : EReal) : Fin 32 := ⟨(cellWord v).toNat, Nat.lt_succ_of_le (clamp_toNat_le _)⟩

/-- A sample's offset inside its bin. -/
def frac (v : EReal) : EReal := binPos v - (((cellWord v).toInt : ℝ) : EReal)

/-- The trilinear blend of a table `L`, indexed (blue, green, red), at the pixel whose channels are `r g b`:
    eight corners, each times its weight along red, then green, then blue, summed from the left. -/
def tri (L : Fin 33 → Fin 33 → Fin 33 → EReal) (r g b : EReal) : EReal :=
  L (cell b).castSucc (cell g).castSucc (cell r).castSucc * (unit - frac r) * (unit - frac g) * (unit - frac b)
  + L (cell b).castSucc (cell g).castSucc (cell r).succ * frac r * (unit - frac g) * (unit - frac b)
  + L (cell b).castSucc (cell g).succ (cell r).castSucc * (unit - frac r) * frac g * (unit - frac b)
  + L (cell b).castSucc (cell g).succ (cell r).succ * frac r * frac g * (unit - frac b)
  + L (cell b).succ (cell g).castSucc (cell r).castSucc * (unit - frac r) * (unit - frac g) * frac b
  + L (cell b).succ (cell g).castSucc (cell r).succ * frac r * (unit - frac g) * frac b
  + L (cell b).succ (cell g).succ (cell r).castSucc * (unit - frac r) * frac g * frac b
  + L (cell b).succ (cell g).succ (cell r).succ * frac r * frac g * frac b

/-- The result at picture `n`, channel `c`, pixel `(h, w)`: the blend of that picture's and channel's table at
    the pixel's three channels, plus the pixel's own value. -/
def outAt (img : SImg.Idx → EReal) (lut : SLut.Idx → EReal) (n : Fin 8) (c : Fin 3) (h w : Fin 1024) : EReal :=
  tri (fun bb gg rr => lut (ix5 n c bb gg rr)) (img (ix4 n 0 h w)) (img (ix4 n 1 h w)) (img (ix4 n 2 h w))
    + img (ix4 n c h w)

/-- The whole result array. -/
def out (img : SImg.Idx → EReal) (lut : SLut.Idx → EReal) : SImg.Idx → EReal :=
  fun i => outAt img lut (i 0) (i 1) (i 2) (i 3)

end Cert.Trilinear

end
-- ==== Proof.OneHotSums.lean ====
/-
  Sums against indicator weights, over the extended reals.

  A weight vector that is zero except at a few distinct positions picks out those positions of any sum
  `∑ k, f k · W k`: no term is lost or invented because `x · 0 = 0` and `0 + x = x` hold for every extended real
  (infinite ones included), so no finiteness is needed here.  Also: a 32-bit comparison of two small numbers
  is the comparison of the numbers.
-/
import Idealize.ShloMosaic.PureOps.Ideal
import Mathlib

noncomputable section

namespace Cert.Trilinear

open Idealize.ShloMosaic
open scoped BigOperators

/-- Two distinct marked positions. -/
theorem sum_mul_marks2 {ι : Type} [Fintype ι] [DecidableEq ι] (f : ι → EReal) (a b : ι) (hab : a ≠ b) (A B : EReal) :
    ∑ k, f k * ((if k = a then A else 0) + (if k = b then B else 0)) = f a * A + f b * B := by
  have key : ∀ k, f k * ((if k = a then A else 0) + (if k = b then B else 0))
      = (if k = a then f a * A else 0) + (if k = b then f b * B else 0) := by
    intro k
    by_cases h1 : k = a
    · subst h1
      have : ¬ k = b := hab
      simp [this]
    · by_cases h2 : k = b
      · subst h2; simp [h1]
      · simp [h1, h2]
  simp only [key, Finset.sum_add_distrib, Finset.sum_ite_eq', Finset.mem_univ, if_true]

/-- Four distinct marked positions, the weights added from the left. -/
theorem sum_mul_marks4 {ι : Type} [Fintype ι] [DecidableEq ι] (f : ι → EReal) (a b c d : ι)
    (hab : a ≠ b) (hac : a ≠ c) (had : a ≠ d) (hbc : b ≠ c) (hbd : b ≠ d) (hcd : c ≠ d) (A B C D : EReal) :
    ∑ k, f k * ((((if k = a then A else 0) + (if k = b then B else 0)) + (if k = c then C else 0)) + (if k = d then D else 0))
      = f a * A + f b * B + f c * C + f d * D := by
  have key : ∀ k, f k * ((((if k = a then A else 0) + (if k = b then B else 0)) + (if k = c then C else 0)) + (if k = d then D else 0))
      = (((if k = a then f a * A else 0) + (if k = b then f b * B else 0)) + (if k = c then f c * C else 0))
        + (if k = d then f d * D else 0) := by
    intro k
    by_cases h1 : k = a
    · subst h1
      have e2 : ¬ k = b := hab
      have e3 : ¬ k = c := hac
      have e4 : ¬ k = d := had
      simp [e2, e3, e4]
    · by_cases h2 : k = b
      · subst h2
        have e3 : ¬ k = c := hbc
        have e4 : ¬ k = d := hbd
        simp [h1, e3, e4]
      · by_cases h3 : k = c
        · subst h3
          have e4 : ¬ k = d := hcd
          simp [h1, h2, e4]
        · by_cases h4 : k = d
          · subst h4; simp [h1, h2, h3]
          · simp [h1, h2, h3, h4]
  simp only [key, Finset.sum_add_distrib, Finset.sum_ite_eq', Finset.mem_univ, if_true]

/-- Two numbers below 2^32 are equal as 32-bit words exactly when they are equal. -/
theorem ofNat32_eq_iff (a b : ℕ) (ha : a < 2 ^ 32) (hb : b < 2 ^ 32) : BitVec.ofNat 32 a = BitVec.ofNat 32 b ↔ a = b := by
  constructor
  · intro h
    have e := congrArg BitVec.toNat h
    rw [BitVec.toNat_ofNat, BitVec.toNat_ofNat, Nat.mod_eq_of_lt ha, Nat.mod_eq_of_lt hb] at e
    exact e
  · intro h; rw [h]

/-- A select on the equality of two small numbers, compared as 32-bit words, is the `if` on the numbers. -/
theorem select_cmpi_eq {α : Type} (a b : ℕ) (ha : a < 2 ^ 32) (hb : b < 2 ^ 32) (x y : α) :
    Scalar.select (IntOp.cmpi .eq (BitVec.ofNat 32 a) (BitVec.ofNat 32 b)) x y = if a = b then x else y := by
  unfold Scalar.select IntOp.cmpi
  by_cases h : a = b
  · subst h; simp
  · have hne : ¬ BitVec.ofNat 32 a = BitVec.ofNat 32 b := fun e => h ((ofNat32_eq_iff a b ha hb).mp e)
    have hb' : (BitVec.ofNat 32 a == BitVec.ofNat 32 b) = false := by simpa using hne
    rw [hb', if_neg h]
    exact if_neg (show ¬ BitVec.ofBool false = 1#1 by decide)

end Cert.Trilinear

end
-- ==== Proof.LibReal.lean ====
/-
  Extended reals that are real numbers. The finite operations keep them so: sums, differences, products, maxima, finite
  sums, the quotient by a nonzero real, and the reciprocal square root of a positive real. These are the facts that let
  a law of real arithmetic (distributivity, cancelling) be used on values a program computes from finite inputs.
-/
import Idealize.ShloMosaic.PureOps.Ideal

noncomputable section

namespace Cert.Lib.Real

open Idealize.ShloMosaic Finset

/-- The extended real is a real number. -/
def IsReal (x : EReal) : Prop := ∃ r : ℝ, x = (r : EReal)

/-- Every entry of the family is a real number. -/
def AllReal {ι : Type*} (x : ι → EReal) : Prop := ∀ i, IsReal (x i)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The quotient of a real by a nonzero real is a real. -/
theorem IsReal.div_coe {x : EReal} (hx : IsReal x) {n : ℝ} (hn : n ≠ 0) : IsReal (Ideal.div x (n : EReal)) := by
  obtain ⟨a, rfl⟩ := hx
  rw [Ideal.div_coe hn, ← EReal.coe_mul]; exact ⟨_, rfl⟩

/-- The reciprocal square root of a positive real is a real. -/
theorem isReal_rsqrt_of_pos {r : ℝ} (hr : 0 < r) : IsReal (Ideal.rsqrt (r : EReal)) := by
  rw [Ideal.rsqrt_coe, if_neg (not_lt.mpr hr.le), if_neg hr.ne']; exact ⟨_, rfl⟩

/-- Reading a family through any map of indices keeps its entries real. -/
theorem AllReal.comp {ι κ : Type*} {x : ι → EReal} (hx : AllReal x) (g : κ → ι) : AllReal fun j => x (g j) :=
  fun j => hx (g j)

end Cert.Lib.Real

end
-- ==== Proof.BlendAlgebra.lean ====
/-
  The algebra of the trilinear blend over the extended reals.

  One program forms the blend corner by corner, `L · wr · wg · wb` summed from the left (`tri`); the other
  first blends the four corners of each of the two blue planes with the products `wg · wr` of the green and
  red weights, and then blends the two planes along blue.  The two agree by distributivity and
  commutativity of real multiplication — laws that fail on the extended reals at the infinities — so the
  identity is stated for table entries and offsets that are real numbers.  The module also records that
  the two constants of the specification are real numbers (the bin width a nonzero one), hence that the
  position and the offset of a real sample are real.
-/
import proofs.«162768_j12979391168851_2_alg».proof.Proof.TrilinearSpec
import proofs.«162768_j12979391168851_2_alg».proof.Proof.LibReal
import Mathlib

noncomputable section

namespace Cert.Trilinear

open Idealize.ShloMosaic
open Cert.Lib.Real (IsReal isReal_coe)

/-! ### The two constants -/

/-- The pattern `0x3F800000` denotes the real number one. -/
theorem unit_eq_one : unit = ((1 : ℝ) : EReal) := by
  unfold unit
  simp [Ideal.ofBits, Ideal.ieee, -EReal.coe_mul]; norm_num

/-- The real number the pattern `0x3D000008` denotes: significand `2^23 + 8`, exponent `122 - 127 - 23`. -/
def binWidthR : ℝ := (8388616 : ℝ) * (2 : ℝ) ^ (-28 : ℤ)

theorem binWidth_eq : binWidth = (binWidthR : EReal) := by
  unfold binWidth binWidthR
  simp [Ideal.ofBits, Ideal.ieee, -EReal.coe_mul]

theorem binWidthR_pos : 0 < binWidthR := by
  unfold binWidthR; positivity

theorem binWidthR_ne_zero : binWidthR ≠ 0 := ne_of_gt binWidthR_pos

theorem unit_isReal : IsReal unit := ⟨1, unit_eq_one⟩

theorem binWidth_isReal : IsReal binWidth := ⟨binWidthR, binWidth_eq⟩

/-! ### Position and offset of a real sample -/

/-- The position of a real sample: the quotient of the reals. -/
theorem binPos_coe (x : ℝ) : binPos (x : EReal) = ((x * (1 / binWidthR) : ℝ) : EReal) := by
  unfold binPos
  rw [binWidth_eq, Ideal.div_coe binWidthR_ne_zero, ← EReal.coe_mul]

theorem binPos_isReal {v : EReal} (hv : IsReal v) : IsReal (binPos v) := by
  obtain ⟨x, rfl⟩ := hv; exact ⟨_, binPos_coe x⟩

/-- The offset of a real sample inside its bin is a real number. -/
theorem frac_coe (x : ℝ) :
    frac (x : EReal) = ((x * (1 / binWidthR) - ((cellWord (x : EReal)).toInt : ℝ) : ℝ) : EReal) := by
  unfold frac
  rw [binPos_coe, ← EReal.coe_sub]

theorem frac_isReal {v : EReal} (hv : IsReal v) : IsReal (frac v) := by
  obtain ⟨x, rfl⟩ := hv; exact ⟨_, frac_coe x⟩

/-- The floor of the position of a real sample is a real number (an integer). -/
theorem floor_binPos_coe (x : ℝ) :
    Ideal.liftRound Int.floor (binPos (x : EReal)) = (((⌊x * (1 / binWidthR)⌋ : ℤ) : ℝ) : EReal) := by
  rw [binPos_coe]; rfl

/-! ### The blend -/

/-- Plane by plane equals corner by corner, when the eight corners and the three offsets are real. -/
theorem planes_eq_tri (L : Fin 33 → Fin 33 → Fin 33 → EReal) (r g b : EReal)
    (h000 : IsReal (L (cell b).castSucc (cell g).castSucc (cell r).castSucc))
    (h001 : IsReal (L (cell b).castSucc (cell g).castSucc (cell r).succ))
    (h010 : IsReal (L (cell b).castSucc (cell g).succ (cell r).castSucc))
    (h011 : IsReal (L (cell b).castSucc (cell g).succ (cell r).succ))
    (h100 : IsReal (L (cell b).succ (cell g).castSucc (cell r).castSucc))
    (h101 : IsReal (L (cell b).succ (cell g).castSucc (cell r).succ))
    (h110 : IsReal (L (cell b).succ (cell g).succ (cell r).castSucc))
    (h111 : IsReal (L (cell b).succ (cell g).succ (cell r).succ))
    (hr : IsReal (frac r)) (hg : IsReal (frac g)) (hb : IsReal (frac b)) :
    (L (cell b).castSucc (cell g).castSucc (cell r).castSucc * ((unit - frac g) * (unit - frac r))
      + L (cell b).castSucc (cell g).castSucc (cell r).succ * ((unit - frac g) * frac r)
      + L (cell b).castSucc (cell g).succ (cell r).castSucc * (frac g * (unit - frac r))
      + L (cell b).castSucc (cell g).succ (cell r).succ * (frac g * frac r)) * (unit - frac b)
    + (L (cell b).succ (cell g).castSucc (cell r).castSucc * ((unit - frac g) * (unit - frac r))
      + L (cell b).succ (cell g).castSucc (cell r).succ * ((unit - frac g) * frac r)
      + L (cell b).succ (cell g).succ (cell r).castSucc * (frac g * (unit - frac r))
      + L (cell b).succ (cell g).succ (cell r).succ * (frac g * frac r)) * frac b
    = tri L r g b := by
  unfold tri
  obtain ⟨a000, e000⟩ := h000; obtain ⟨a001, e001⟩ := h001
  obtain ⟨a010, e010⟩ := h010; obtain ⟨a011, e011⟩ := h011
  obtain ⟨a100, e100⟩ := h100; obtain ⟨a101, e101⟩ := h101
  obtain ⟨a110, e110⟩ := h110; obtain ⟨a111, e111⟩ := h111
  obtain ⟨fr, er⟩ := hr; obtain ⟨fg, eg⟩ := hg; obtain ⟨fb, eb⟩ := hb
  rw [e000, e001, e010, e011, e100, e101, e110, e111, er, eg, eb, unit_eq_one]
  simp only [← EReal.coe_sub, ← EReal.coe_mul, ← EReal.coe_add]
  congr 1; ring

/-- The same for a table all of whose entries are real and a pixel whose three channels are real. -/
theorem planes_eq_tri_of_real (L : Fin 33 → Fin 33 → Fin 33 → EReal) (r g b : EReal)
    (hL : ∀ i j k, IsReal (L i j k)) (hr : IsReal r) (hg : IsReal g) (hb : IsReal b) :
    (L (cell b).castSucc (cell g).castSucc (cell r).castSucc * ((unit - frac g) * (unit - frac r))
      + L (cell b).castSucc (cell g).castSucc (cell r).succ * ((unit - frac g) * frac r)
      + L (cell b).castSucc (cell g).succ (cell r).castSucc * (frac g * (unit - frac r))
      + L (cell b).castSucc (cell g).succ (cell r).succ * (frac g * frac r)) * (unit - frac b)
    + (L (cell b).succ (cell g).castSucc (cell r).castSucc * ((unit - frac g) * (unit - frac r))
      + L (cell b).succ (cell g).castSucc (cell r).succ * ((unit - frac g) * frac r)
      + L (cell b).succ (cell g).succ (cell r).castSucc * (frac g * (unit - frac r))
      + L (cell b).succ (cell g).succ (cell r).succ * (frac g * frac r)) * frac b
    = tri L r g b :=
  planes_eq_tri L r g b (hL _ _ _) (hL _ _ _) (hL _ _ _) (hL _ _ _) (hL _ _ _) (hL _ _ _) (hL _ _ _) (hL _ _ _)
    (frac_isReal hr) (frac_isReal hg) (frac_isReal hb)

/-- The blend of a real table at a real pixel is a real number. -/
theorem tri_isReal (L : Fin 33 → Fin 33 → Fin 33 → EReal) (r g b : EReal)
    (hL : ∀ i j k, IsReal (L i j k)) (hr : IsReal r) (hg : IsReal g) (hb : IsReal b) :
    IsReal (tri L r g b) := by
  have fr := frac_isReal hr; have fg := frac_isReal hg; have fb := frac_isReal hb
  have ur := unit_isReal.sub fr; have ug := unit_isReal.sub fg; have ub := unit_isReal.sub fb
  unfold tri
  repeat' first
    | assumption
    | exact hL _ _ _
    | apply Cert.Lib.Real.IsReal.add
    | apply Cert.Lib.Real.IsReal.mul

end Cert.Trilinear

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.KernelIdealTile.lean ====
/-
  The value the kernel's body stores, read one entry at a time over the extended reals.

  At pixel `p` of a tile, with the three channel samples `r g b` of that pixel: every intermediate array of the body
  is the specification's scalar function of the samples — the position `binPos`, the bin `cellWord`, the offset
  `frac` —, the flat green-red corner numbers are `cell g · 33 + cell r` plus 0, 1, 33, 34, the one-hot weight
  matrix is zero off those four rows, and the stored entry is the table block contracted against those weights and
  then against the two blue weights, plus the sample.
-/
import proofs.«162768_j12979391168851_2_alg».proof.Proof.Gen.KernelIdeal.Skeleton
import proofs.«162768_j12979391168851_2_alg».proof.Proof.TrilinearSpec
import proofs.«162768_j12979391168851_2_alg».proof.Proof.OneHotSums
import proofs.«162768_j12979391168851_2_alg».proof.Proof.BlendAlgebra
import proofs.«162768_j12979391168851_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.Trilinear
open scoped BigOperators

variable (v0 : Vec Ideal S1x3x2048 .f32)

/-- The sample of channel `c` at pixel `p` of the tile. -/
abbrev smp (c : Fin 3) (p : Fin 2048) : EReal := v0 (ix3 (0 : Fin 1) c p)

theorem pos_at (c : Fin 3) (p : Fin 2048) : k0_pay3 (F := Ideal) v0 (ix2 c p) = binPos (smp v0 c p) := by
  unfold k0_pay3 k0_pay2
  show Ideal.div (shapeCast S3x2048 v0 shapeCasts_S1x3x2048_S3x2048 (ix2 c p)) _ = _
  rw [shapeCast_1ab_ab_apply]
  rfl

theorem cell_at (c : Fin 3) (p : Fin 2048) : k0_pay4 (F := Ideal) v0 (ix2 c p) = cellWord (smp v0 c p) := by
  unfold k0_pay4
  show IntOp.minsi 31#32 (IntOp.maxsi 0#32 (Ideal.fptosi 32 (Ideal.liftRound Int.floor (k0_pay3 (F := Ideal) v0 (ix2 c p))))) = _
  rw [pos_at]
  rfl

theorem frac_at (c : Fin 3) (p : Fin 2048) : k0_pay5 (F := Ideal) v0 (ix2 c p) = frac (smp v0 c p) := by
  unfold k0_pay5
  show k0_pay3 (F := Ideal) v0 (ix2 c p) - (((k0_pay4 (F := Ideal) v0 (ix2 c p)).toInt : ℝ) : EReal) = _
  rw [pos_at, cell_at]
  rfl

theorem red_cell (p : Fin 2048) : k0_pay6 (F := Ideal) v0 (ix1 p) = cellWord (smp v0 0 p) := by
  unfold k0_pay6
  rw [shapeCast_1a_a_apply, slice2_axis0_apply 0 _ _ (0 : Fin 1) p (0 : Fin 3) rfl, cell_at]
theorem green_cell (p : Fin 2048) : k0_pay7 (F := Ideal) v0 (ix1 p) = cellWord (smp v0 1 p) := by
  unfold k0_pay7
  rw [shapeCast_1a_a_apply, slice2_axis0_apply 1 _ _ (0 : Fin 1) p (1 : Fin 3) rfl, cell_at]
theorem blue_cell (p : Fin 2048) : k0_pay8 (F := Ideal) v0 (ix1 p) = cellWord (smp v0 2 p) := by
  unfold k0_pay8
  rw [shapeCast_1a_a_apply, slice2_axis0_apply 2 _ _ (0 : Fin 1) p (2 : Fin 3) rfl, cell_at]
theorem red_frac (p : Fin 2048) : k0_pay9 (F := Ideal) v0 (ix1 p) = frac (smp v0 0 p) := by
  unfold k0_pay9
  rw [shapeCast_1a_a_apply, slice2_axis0_apply 0 _ _ (0 : Fin 1) p (0 : Fin 3) rfl, frac_at]
theorem green_frac (p : Fin 2048) : k0_pay10 (F := Ideal) v0 (ix1 p) = frac (smp v0 1 p) := by
  unfold k0_pay10
  rw [shapeCast_1a_a_apply, slice2_axis0_apply 1 _ _ (0 : Fin 1) p (1 : Fin 3) rfl, frac_at]
theorem blue_frac (p : Fin 2048) : k0_pay11 (F := Ideal) v0 (ix1 p) = frac (smp v0 2 p) := by
  unfold k0_pay11
  rw [shapeCast_1a_a_apply, slice2_axis0_apply 2 _ _ (0 : Fin 1) p (2 : Fin 3) rfl, frac_at]

/-! ## Small words -/

theorem cell_le (v : EReal) : (cellWord v).toNat ≤ 31 := clamp_toNat_le _
theorem cell_val (v : EReal) : (cell v).val = (cellWord v).toNat := rfl

theorem word_sum (x y : BitVec 32) (hx : x.toNat ≤ 31) (hy : y.toNat ≤ 31) :
    IntOp.addi (IntOp.muli x 33#32) y = BitVec.ofNat 32 (x.toNat * 33 + y.toNat) := by
  unfold IntOp.addi IntOp.muli
  apply BitVec.eq_of_toNat_eq
  simp only [BitVec.toNat_add, BitVec.toNat_mul, BitVec.toNat_ofNat]
  omega
theorem word_sum_succ (x y : BitVec 32) (hx : x.toNat ≤ 31) (hy : y.toNat ≤ 31) :
    IntOp.addi (IntOp.addi (IntOp.muli x 33#32) y) 1#32 = BitVec.ofNat 32 (x.toNat * 33 + y.toNat + 1) := by
  unfold IntOp.addi IntOp.muli
  apply BitVec.eq_of_toNat_eq
  simp only [BitVec.toNat_add, BitVec.toNat_mul, BitVec.toNat_ofNat]
  omega
theorem word_next_sum (x y : BitVec 32) (hx : x.toNat ≤ 31) (hy : y.toNat ≤ 31) :
    IntOp.addi (IntOp.muli (IntOp.addi x 1#32) 33#32) y = BitVec.ofNat 32 ((x.toNat + 1) * 33 + y.toNat) := by
  unfold IntOp.addi IntOp.muli
  apply BitVec.eq_of_toNat_eq
  simp only [BitVec.toNat_add, BitVec.toNat_mul, BitVec.toNat_ofNat]
  omega
theorem word_next_sum_succ (x y : BitVec 32) (hx : x.toNat ≤ 31) (hy : y.toNat ≤ 31) :
    IntOp.addi (IntOp.addi (IntOp.muli (IntOp.addi x 1#32) 33#32) y) 1#32 = BitVec.ofNat 32 ((x.toNat + 1) * 33 + y.toNat + 1) := by
  unfold IntOp.addi IntOp.muli
  apply BitVec.eq_of_toNat_eq
  simp only [BitVec.toNat_add, BitVec.toNat_mul, BitVec.toNat_ofNat]
  omega
theorem word_succ (y : BitVec 32) (hy : y.toNat ≤ 31) : IntOp.addi y 1#32 = BitVec.ofNat 32 (y.toNat + 1) := by
  unfold IntOp.addi
  apply BitVec.eq_of_toNat_eq
  simp only [BitVec.toNat_add, BitVec.toNat_ofNat]
theorem word_self (y : BitVec 32) : y = BitVec.ofNat 32 y.toNat := by simp

/-! ## The flat corner numbers of the green-red plane -/

theorem corner00 (u : Fin 1) (p : Fin 2048) : k0_pay12 (F := Ideal) v0 (ix2 u p)
    = BitVec.ofNat 32 ((cell (smp v0 1 p)).val * 33 + (cell (smp v0 0 p)).val) := by
  unfold k0_pay12
  rw [shapeCast_a_1a_apply]
  show IntOp.addi (IntOp.muli (k0_pay7 (F := Ideal) v0 (ix1 p)) 33#32) (k0_pay6 (F := Ideal) v0 (ix1 p)) = _
  rw [green_cell, red_cell]
  exact word_sum _ _ (cell_le _) (cell_le _)
theorem corner01 (u : Fin 1) (p : Fin 2048) : k0_pay13 (F := Ideal) v0 (ix2 u p)
    = BitVec.ofNat 32 ((cell (smp v0 1 p)).val * 33 + (cell (smp v0 0 p)).val + 1) := by
  unfold k0_pay13
  rw [shapeCast_a_1a_apply]
  show IntOp.addi (IntOp.addi (IntOp.muli (k0_pay7 (F := Ideal) v0 (ix1 p)) 33#32) (k0_pay6 (F := Ideal) v0 (ix1 p))) 1#32 = _
  rw [green_cell, red_cell]
  exact word_sum_succ _ _ (cell_le _) (cell_le _)
theorem corner10 (u : Fin 1) (p : Fin 2048) : k0_pay14 (F := Ideal) v0 (ix2 u p)
    = BitVec.ofNat 32 (((cell (smp v0 1 p)).val + 1) * 33 + (cell (smp v0 0 p)).val) := by
  unfold k0_pay14
  rw [shapeCast_a_1a_apply]
  show IntOp.addi (IntOp.muli (IntOp.addi (k0_pay7 (F := Ideal) v0 (ix1 p)) 1#32) 33#32) (k0_pay6 (F := Ideal) v0 (ix1 p)) = _
  rw [green_cell, red_cell]
  exact word_next_sum _ _ (cell_le _) (cell_le _)

/-! ## The one-hot weights of the green-red plane -/

/-- One summand of the weight matrix: the weight `wv` on the row whose number is the word `tw`, zero elsewhere. -/
theorem marked_row (tw : IVec S1x2048 32) (wv : FVec Ideal S1x2048 .f32) (k : Fin 1089) (p : Fin 2048) (t : ℕ) (ht : t < 2 ^ 32)
    (htw : tw (ix2 (0 : Fin 1) p) = BitVec.ofNat 32 t) :
    select (cmpi .eq (iota .tc S1089x2048 32 [0] iota_S1089x2048_d0_w32) (broadcastTo S1089x2048 tw broadcasts_S1x2048_S1089x2048))
        (broadcastTo S1089x2048 (shapeCast S1x2048 wv shapeCasts_S1x2048_S1x2048) broadcasts_S1x2048_S1089x2048)
        (broadcast S1089x2048 (Scalar.ofBits (F := Ideal) .f32 0x00000000#32)) (ix2 k p)
      = if k.val = t then wv (ix2 (0 : Fin 1) p) else 0 := by
  rw [select_apply]
  show Scalar.select (IntOp.cmpi .eq (iota .tc S1089x2048 32 [0] iota_S1089x2048_d0_w32 (ix2 k p))
      (broadcastTo S1089x2048 tw broadcasts_S1x2048_S1089x2048 (ix2 k p)))
      (broadcastTo S1089x2048 (shapeCast S1x2048 wv shapeCasts_S1x2048_S1x2048) broadcasts_S1x2048_S1089x2048 (ix2 k p))
      (Ideal.ofBits .f32 0x00000000#32) = _
  rw [broadcastTo_1b_ab_apply, broadcastTo_1b_ab_apply, shapeCast_self, htw, Ideal.ofBits_zero_f32]
  have hi : iota .tc S1089x2048 32 [0] iota_S1089x2048_d0_w32 (ix2 k p) = BitVec.ofNat 32 k.val := by
    show BitVec.ofNat 32 (0 * 1089 + k.val) = _
    rw [Nat.zero_mul, Nat.zero_add]
  rw [hi]
  exact select_cmpi_eq k.val t (by have := k.isLt; omega) ht _ _

/-- The weight matrix at row `k`, pixel `p`: four marked rows with the four products of the green and red weights. -/
theorem weights_at (v13 : IVec S2048 32) (v19 v21 : FVec Ideal S2048 .f32) (v28 v34 v40 : IVec S1x2048 32) (v44 : IVec S2048 32)
    (k : Fin 1089) (p : Fin 2048) (t00 t01 t10 t11 : ℕ) (h00 : t00 < 2 ^ 32) (h01 : t01 < 2 ^ 32) (h10 : t10 < 2 ^ 32) (h11 : t11 < 2 ^ 32)
    (e00 : v28 (ix2 (0 : Fin 1) p) = BitVec.ofNat 32 t00) (e01 : v34 (ix2 (0 : Fin 1) p) = BitVec.ofNat 32 t01)
    (e10 : v40 (ix2 (0 : Fin 1) p) = BitVec.ofNat 32 t10)
    (e11 : IntOp.addi (IntOp.addi (v44 (ix1 p)) (v13 (ix1 p))) 1#32 = BitVec.ofNat 32 t11) :
    k0_pay16 (F := Ideal) v13 v19 v21 (iota .tc S1089x2048 32 [0] iota_S1089x2048_d0_w32) v28 v34 v40 v44 (ix2 k p)
      = (((if k.val = t00 then (unit - v21 (ix1 p)) * (unit - v19 (ix1 p)) else 0)
          + (if k.val = t01 then (unit - v21 (ix1 p)) * v19 (ix1 p) else 0))
          + (if k.val = t10 then v21 (ix1 p) * (unit - v19 (ix1 p)) else 0))
          + (if k.val = t11 then v21 (ix1 p) * v19 (ix1 p) else 0) := by
  unfold k0_pay16
  dsimp only
  rw [truncf_apply, addf_apply, addf_apply, addf_apply,
    marked_row v28 _ k p t00 h00 e00, marked_row v34 _ k p t01 h01 e01, marked_row v40 _ k p t10 h10 e10,
    marked_row _ _ k p t11 h11 (by rw [shapeCast_a_1a_apply]; exact e11),
    shapeCast_a_1a_apply, shapeCast_a_1a_apply, shapeCast_a_1a_apply, shapeCast_a_1a_apply]
  rfl

/-- The weight matrix of the tile. -/
def wgr : FVec Ideal S1089x2048 .bf16 :=
  k0_pay16 (F := Ideal) (k0_pay6 v0) (k0_pay9 v0) (k0_pay10 v0) (iota .tc S1089x2048 32 [0] iota_S1089x2048_d0_w32)
    (k0_pay12 v0) (k0_pay13 v0) (k0_pay14 v0) (k0_pay15 v0)

theorem wgr_at (k : Fin 1089) (p : Fin 2048) :
    wgr v0 (ix2 k p)
      = (((if k.val = (cell (smp v0 1 p)).val * 33 + (cell (smp v0 0 p)).val
              then (unit - frac (smp v0 1 p)) * (unit - frac (smp v0 0 p)) else 0)
          + (if k.val = (cell (smp v0 1 p)).val * 33 + (cell (smp v0 0 p)).val + 1
              then (unit - frac (smp v0 1 p)) * frac (smp v0 0 p) else 0))
          + (if k.val = ((cell (smp v0 1 p)).val + 1) * 33 + (cell (smp v0 0 p)).val
              then frac (smp v0 1 p) * (unit - frac (smp v0 0 p)) else 0))
          + (if k.val = ((cell (smp v0 1 p)).val + 1) * 33 + (cell (smp v0 0 p)).val + 1
              then frac (smp v0 1 p) * frac (smp v0 0 p) else 0) := by
  have hg := cell_le (smp v0 1 p)
  have hr := cell_le (smp v0 0 p)
  have e := weights_at (k0_pay6 (F := Ideal) v0) (k0_pay9 (F := Ideal) v0) (k0_pay10 (F := Ideal) v0)
    (k0_pay12 (F := Ideal) v0) (k0_pay13 (F := Ideal) v0) (k0_pay14 (F := Ideal) v0) (k0_pay15 (F := Ideal) v0) k p
    ((cell (smp v0 1 p)).val * 33 + (cell (smp v0 0 p)).val) ((cell (smp v0 1 p)).val * 33 + (cell (smp v0 0 p)).val + 1)
    (((cell (smp v0 1 p)).val + 1) * 33 + (cell (smp v0 0 p)).val) (((cell (smp v0 1 p)).val + 1) * 33 + (cell (smp v0 0 p)).val + 1)
    (by rw [cell_val, cell_val]; omega) (by rw [cell_val, cell_val]; omega) (by rw [cell_val, cell_val]; omega) (by rw [cell_val, cell_val]; omega)
    (corner00 v0 0 p) (corner01 v0 0 p) (corner10 v0 0 p)
    (by
      show IntOp.addi (IntOp.addi (IntOp.muli (IntOp.addi (k0_pay7 (F := Ideal) v0 (ix1 p)) 1#32) 33#32) (k0_pay6 (F := Ideal) v0 (ix1 p))) 1#32 = _
      rw [green_cell, red_cell]
      exact word_next_sum_succ _ _ hg hr)
  rw [red_frac, green_frac] at e
  exact e

/-! ## The stored entry -/

/-- One summand of the blue weights: the weight `wv` on the node whose number is the word `tw`, zero elsewhere. -/
theorem marked_node (tw : IVec S1x2048 32) (wv : FVec Ideal S1x2048 .f32) (j : Fin 33) (p : Fin 2048) (t : ℕ) (ht : t < 2 ^ 32)
    (htw : tw (ix2 (0 : Fin 1) p) = BitVec.ofNat 32 t) :
    select (cmpi .eq (iota .tc S33x2048 32 [0] iota_S33x2048_d0_w32) (broadcastTo S33x2048 tw broadcasts_S1x2048_S33x2048))
        (broadcastTo S33x2048 (shapeCast S1x2048 wv shapeCasts_S1x2048_S1x2048) broadcasts_S1x2048_S33x2048)
        (broadcast S33x2048 (Scalar.ofBits (F := Ideal) .f32 0x00000000#32)) (ix2 j p)
      = if j.val = t then wv (ix2 (0 : Fin 1) p) else 0 := by
  rw [select_apply]
  show Scalar.select (IntOp.cmpi .eq (iota .tc S33x2048 32 [0] iota_S33x2048_d0_w32 (ix2 j p))
      (broadcastTo S33x2048 tw broadcasts_S1x2048_S33x2048 (ix2 j p)))
      (broadcastTo S33x2048 (shapeCast S1x2048 wv shapeCasts_S1x2048_S1x2048) broadcasts_S1x2048_S33x2048 (ix2 j p))
      (Ideal.ofBits .f32 0x00000000#32) = _
  rw [broadcastTo_1b_ab_apply, broadcastTo_1b_ab_apply, shapeCast_self, htw, Ideal.ofBits_zero_f32]
  have hi : iota .tc S33x2048 32 [0] iota_S33x2048_d0_w32 (ix2 j p) = BitVec.ofNat 32 j.val := by
    show BitVec.ofNat 32 (0 * 33 + j.val) = _
    rw [Nat.zero_mul, Nat.zero_add]
  rw [hi]
  exact select_cmpi_eq j.val t (by have := j.isLt; omega) ht _ _

/-- A `[1, b, c]` array repeated along a new leading axis reads, at `(a, j, p)`, the operand at `(0, j, p)`. -/
theorem spread_apply (x : FVec Ideal S1x33x2048 .f32) (a : Fin 3) (j : Fin 33) (p : Fin 2048) :
    broadcastTo S3x33x2048 x broadcasts_S1x33x2048_S3x33x2048 (ix3 a j p) = x (ix3 (0 : Fin 1) j p) := by
  refine broadcastTo_apply x _ (ix3 a j p) (ix3 (0 : Fin 1) j p) fun ax => ?_
  match ax with
  | ⟨0, _⟩ => rfl
  | ⟨1, _⟩ => rfl
  | ⟨2, _⟩ => rfl

/-- The product with the table block, regrouped by channel and blue node: entry `(c, j, p)` is row `c · 33 + j` of
    the table block against column `p` of the weight matrix. -/
theorem planes_at (v92 : FVec Ideal S1089x2048 .bf16) (v93 : FVec Ideal S1x99x1089 .bf16) (c : Fin 3) (j : Fin 33) (p : Fin 2048) :
    shapeCast S3x33x2048
        (matmul (F := Ideal) dot_S99x1089_S1089x2048_S99x2048_1_0_0_1_n_n none (shapeCast S99x1089 v93 shapeCasts_S1x99x1089_S99x1089) v92
          (constant (F := Ideal) S99x2048 .f32 0x00000000#32)) shapeCasts_S99x2048_S3x33x2048 (ix3 c j p)
      = ∑ k : Fin 1089, v93 (ix3 (0 : Fin 1) (⟨c.val * 33 + j.val, by have := c.isLt; have := j.isLt; omega⟩ : Fin 99) k) * v92 (ix2 k p) := by
  rw [shapeCast_apply _ shapeCasts_S99x2048_S3x33x2048 (ix3 c j p)
    (ix2 (⟨c.val * 33 + j.val, by have := c.isLt; have := j.isLt; omega⟩ : Fin 99) p) (by
      rw [Shape.rowMajor_val_two, Shape.rowMajor_val_three]; rfl)]
  have hd : dot_S99x1089_S1089x2048_S99x2048_1_0_0_1_n_n = DotDims.plain 99 1089 2048 := rfl
  rw [hd, Cert.Lib.PlainDot.matmul_zero, Cert.Lib.PlainDot.mm_apply]
  refine Finset.sum_congr rfl fun k _ => ?_
  rw [shapeCast_1ab_ab_apply]

theorem stored_sum (v1 : FVec Ideal S3x2048 .f32) (v17 : IVec S2048 32) (v23 : FVec Ideal S2048 .f32) (v92 : FVec Ideal S1089x2048 .bf16)
    (v93 : Vec Ideal S1x99x1089 .bf16) (c : Fin 3) (p : Fin 2048) (bi : ℕ) (hbi : bi ≤ 31) (e17 : v17 (ix1 p) = BitVec.ofNat 32 bi) :
    k0_pay1 (F := Ideal) v1 v17 v23 v92 v93 (ix3 (0 : Fin 1) c p)
      = (∑ j : Fin 33, (∑ k : Fin 1089, v93 (ix3 (0 : Fin 1) (⟨c.val * 33 + j.val, by have := c.isLt; have := j.isLt; omega⟩ : Fin 99) k) * v92 (ix2 k p))
            * ((if j.val = bi then unit - v23 (ix1 p) else 0) + (if j.val = bi + 1 then v23 (ix1 p) else 0)))
        + v1 (ix2 c p) := by
  unfold k0_pay1
  dsimp only
  rw [shapeCast_ab_1ab_apply, addf_apply]
  congr 1
  refine (Ideal.multiReduction_add_single _ 0x00000000#32 reduces_S3x33x2048_S3x2048 _ _ (ix2 c p)).trans ?_
  show ∑ j : Fin 33, _ = _
  refine Finset.sum_congr rfl fun j _ => ?_
  have hl : (reduces_S3x33x2048_S3x2048).lift (ix2 c p) j = ix3 c j p := funext fun a => Fin.ext (by
    match a with
    | ⟨0, _⟩ => rfl
    | ⟨1, _⟩ => rfl
    | ⟨2, _⟩ => rfl)
  rw [hl, mulf_apply, planes_at, spread_apply, shapeCast_ab_1ab_apply, addf_apply,
    marked_node _ _ j p bi (by omega) (by rw [shapeCast_a_1a_apply]; exact e17),
    marked_node _ _ j p (bi + 1) (by omega) (by
      show IntOp.addi (shapeCast S1x2048 v17 shapeCasts_S2048_S1x2048 (ix2 (0 : Fin 1) p)) 1#32 = _
      rw [shapeCast_a_1a_apply, e17]
      have := word_succ (BitVec.ofNat 32 bi) (by rw [BitVec.toNat_ofNat]; omega)
      rw [this, BitVec.toNat_ofNat]; congr 1; omega)]
  have ea : subf (broadcast S1x2048 (FloatOps.ofBits (F := Ideal) .f32 0x3F800000#32))
      (shapeCast S1x2048 v23 shapeCasts_S2048_S1x2048) (ix2 (0 : Fin 1) p) = unit - v23 (ix1 p) := by
    show unit - shapeCast S1x2048 v23 shapeCasts_S2048_S1x2048 (ix2 (0 : Fin 1) p) = _
    rw [shapeCast_a_1a_apply]
  rw [ea, shapeCast_a_1a_apply]

/-! ## The stored entry is the trilinear blend -/

/-- Marked positions of a `Fin`-indexed sum given by their numbers. -/
theorem sum_fin_marks2 {n : ℕ} (f : Fin n → EReal) (a b : Fin n) (hab : a.val ≠ b.val) (A B : EReal) :
    ∑ k : Fin n, f k * ((if k.val = a.val then A else 0) + (if k.val = b.val then B else 0)) = f a * A + f b * B := by
  have h := sum_mul_marks2 f a b (fun e => hab (congrArg Fin.val e)) A B
  simpa only [Fin.ext_iff] using h
theorem sum_fin_marks4 {n : ℕ} (f : Fin n → EReal) (a b c d : Fin n)
    (hab : a.val ≠ b.val) (hac : a.val ≠ c.val) (had : a.val ≠ d.val) (hbc : b.val ≠ c.val) (hbd : b.val ≠ d.val) (hcd : c.val ≠ d.val)
    (A B C D : EReal) :
    ∑ k : Fin n, f k * ((((if k.val = a.val then A else 0) + (if k.val = b.val then B else 0)) + (if k.val = c.val then C else 0))
        + (if k.val = d.val then D else 0))
      = f a * A + f b * B + f c * C + f d * D := by
  have h := sum_mul_marks4 f a b c d (fun e => hab (congrArg Fin.val e)) (fun e => hac (congrArg Fin.val e))
    (fun e => had (congrArg Fin.val e)) (fun e => hbc (congrArg Fin.val e)) (fun e => hbd (congrArg Fin.val e))
    (fun e => hcd (congrArg Fin.val e)) A B C D
  simpa only [Fin.ext_iff] using h

/-- Row `c · 33 + bb` of the table block is channel `c`, blue node `bb`; column `gg · 33 + rr` is green node `gg`,
    red node `rr`. -/
def rowOf (c : Fin 3) (bb : Fin 33) : Fin 99 := ⟨c.val * 33 + bb.val, by have := c.isLt; have := bb.isLt; omega⟩
def colOf (gg rr : Fin 33) : Fin 1089 := ⟨gg.val * 33 + rr.val, by have := gg.isLt; have := rr.isLt; omega⟩

open Cert.Lib.Real in
/-- THE TILE'S VALUE: at channel `c`, pixel `p`, the stored entry is the trilinear blend of channel `c`'s part of the
    table block at the pixel's three samples, plus the sample — when the samples and the table entries are reals
    (the contraction against the weights is regrouped by distributivity). -/
theorem stored_eq_tri (x0 : Vec Ideal S1x3x2048 .f32) (x1 : Vec Ideal S1x99x1089 .bf16)
    (h0 : ∀ i, IsReal (x0 i)) (h1 : ∀ i, IsReal (x1 i)) (c : Fin 3) (p : Fin 2048) :
    k0_pay1 (F := Ideal) (k0_pay2 x0) (k0_pay8 x0) (k0_pay11 x0) (wgr x0) x1 (ix3 (0 : Fin 1) c p)
      = tri (fun bb gg rr => x1 (ix3 (0 : Fin 1) (rowOf c bb) (colOf gg rr)))
          (x0 (ix3 (0 : Fin 1) 0 p)) (x0 (ix3 (0 : Fin 1) 1 p)) (x0 (ix3 (0 : Fin 1) 2 p)) + x0 (ix3 (0 : Fin 1) c p) := by
  have hb := cell_le (smp x0 2 p)
  have hg := cell_le (smp x0 1 p)
  have hr := cell_le (smp x0 0 p)
  rw [stored_sum _ _ _ _ x1 c p (cell (smp x0 2 p)).val hb ((blue_cell x0 p).trans (word_self _)), blue_frac]
  have hv1 : k0_pay2 (F := Ideal) x0 (ix2 c p) = x0 (ix3 (0 : Fin 1) c p) := by
    unfold k0_pay2; rw [shapeCast_1ab_ab_apply]
  rw [hv1]
  congr 1
  simp only [wgr_at]
  -- the green-red contraction at each blue node
  have inner : ∀ j : Fin 33,
      (∑ k : Fin 1089, x1 (ix3 (0 : Fin 1) (rowOf c j) k)
          * ((((if k.val = (cell (smp x0 1 p)).val * 33 + (cell (smp x0 0 p)).val
                then (unit - frac (smp x0 1 p)) * (unit - frac (smp x0 0 p)) else 0)
            + (if k.val = (cell (smp x0 1 p)).val * 33 + (cell (smp x0 0 p)).val + 1
                then (unit - frac (smp x0 1 p)) * frac (smp x0 0 p) else 0))
            + (if k.val = ((cell (smp x0 1 p)).val + 1) * 33 + (cell (smp x0 0 p)).val
                then frac (smp x0 1 p) * (unit - frac (smp x0 0 p)) else 0))
            + (if k.val = ((cell (smp x0 1 p)).val + 1) * 33 + (cell (smp x0 0 p)).val + 1
                then frac (smp x0 1 p) * frac (smp x0 0 p) else 0)))
        = x1 (ix3 (0 : Fin 1) (rowOf c j) (colOf (cell (smp x0 1 p)).castSucc (cell (smp x0 0 p)).castSucc))
            * ((unit - frac (smp x0 1 p)) * (unit - frac (smp x0 0 p)))
          + x1 (ix3 (0 : Fin 1) (rowOf c j) (colOf (cell (smp x0 1 p)).castSucc (cell (smp x0 0 p)).succ))
            * ((unit - frac (smp x0 1 p)) * frac (smp x0 0 p))
          + x1 (ix3 (0 : Fin 1) (rowOf c j) (colOf (cell (smp x0 1 p)).succ (cell (smp x0 0 p)).castSucc))
            * (frac (smp x0 1 p) * (unit - frac (smp x0 0 p)))
          + x1 (ix3 (0 : Fin 1) (rowOf c j) (colOf (cell (smp x0 1 p)).succ (cell (smp x0 0 p)).succ))
            * (frac (smp x0 1 p) * frac (smp x0 0 p)) := by
    intro j
    have hg' : (cell (smp x0 1 p)).val ≤ 31 := hg
    have hr' : (cell (smp x0 0 p)).val ≤ 31 := hr
    exact sum_fin_marks4 (fun k => x1 (ix3 (0 : Fin 1) (rowOf c j) k))
      (colOf (cell (smp x0 1 p)).castSucc (cell (smp x0 0 p)).castSucc) (colOf (cell (smp x0 1 p)).castSucc (cell (smp x0 0 p)).succ)
      (colOf (cell (smp x0 1 p)).succ (cell (smp x0 0 p)).castSucc) (colOf (cell (smp x0 1 p)).succ (cell (smp x0 0 p)).succ)
      (by simp only [colOf, Fin.val_succ, Fin.coe_castSucc]; omega) (by simp only [colOf, Fin.val_succ, Fin.coe_castSucc]; omega)
      (by simp only [colOf, Fin.val_succ, Fin.coe_castSucc]; omega) (by simp only [colOf, Fin.val_succ, Fin.coe_castSucc]; omega)
      (by simp only [colOf, Fin.val_succ, Fin.coe_castSucc]; omega) (by simp only [colOf, Fin.val_succ, Fin.coe_castSucc]; omega) _ _ _ _
  have rows : ∀ j : Fin 33, (⟨c.val * 33 + j.val, by have := c.isLt; have := j.isLt; omega⟩ : Fin 99) = rowOf c j := fun _ => rfl
  simp only [rows, inner]
  -- the blue contraction
  have outer := sum_fin_marks2
    (fun j : Fin 33 =>
      x1 (ix3 (0 : Fin 1) (rowOf c j) (colOf (cell (smp x0 1 p)).castSucc (cell (smp x0 0 p)).castSucc))
            * ((unit - frac (smp x0 1 p)) * (unit - frac (smp x0 0 p)))
          + x1 (ix3 (0 : Fin 1) (rowOf c j) (colOf (cell (smp x0 1 p)).castSucc (cell (smp x0 0 p)).succ))
            * ((unit - frac (smp x0 1 p)) * frac (smp x0 0 p))
          + x1 (ix3 (0 : Fin 1) (rowOf c j) (colOf (cell (smp x0 1 p)).succ (cell (smp x0 0 p)).castSucc))
            * (frac (smp x0 1 p) * (unit - frac (smp x0 0 p)))
          + x1 (ix3 (0 : Fin 1) (rowOf c j) (colOf (cell (smp x0 1 p)).succ (cell (smp x0 0 p)).succ))
            * (frac (smp x0 1 p) * frac (smp x0 0 p)))
    (cell (smp x0 2 p)).castSucc (cell (smp x0 2 p)).succ
    (by simp only [Fin.val_succ, Fin.coe_castSucc]; omega) (unit - frac (smp x0 2 p)) (frac (smp x0 2 p))
  simp only [Fin.val_succ, Fin.coe_castSucc] at outer
  rw [outer]
  exact planes_eq_tri_of_real (fun bb gg rr => x1 (ix3 (0 : Fin 1) (rowOf c bb) (colOf gg rr)))
    (x0 (ix3 (0 : Fin 1) 0 p)) (x0 (ix3 (0 : Fin 1) 1 p)) (x0 (ix3 (0 : Fin 1) 2 p))
    (fun _ _ _ => h1 _) (h0 _) (h0 _) (h0 _)

end Cert.KernelIdeal.Tile

end
-- ==== Proof.FiniteOps.lean ====
/-
  Arrays of extended reals all of whose entries are real numbers stay so under the operations that build
  the lookup table.  A layout operation (reshape, transpose, slice, broadcast, concatenation, and the change
  of float format, which does nothing on the extended reals) only re-reads entries: each entry of its result
  is some entry of an operand.  A matrix product is, at each index, a finite sum of products of entries.
-/
import Idealize.ShloMosaic.PureOps
import Idealize.ShloMosaic.PureOps.Ideal.Laws
import proofs.«162768_j12979391168851_2_alg».proof.Proof.LibReal

noncomputable section

namespace Cert.FiniteOps

open Idealize.ShloMosaic
open Cert.Lib.Real (IsReal AllReal isReal_sum)

variable {s t : Shape}

/-- A reshape re-reads entries. -/
theorem shapeCast_real {x : s.Idx → EReal} (hx : AllReal x) (h : s.ShapeCasts t) :
    AllReal (shapeCast t x h) := fun j => hx _

/-- A transpose re-reads entries. -/
theorem transpose_real {x : s.Idx → EReal} (hx : AllReal x) (perm : List (Fin s.rank)) (h : s.Transposes perm t) :
    AllReal (transpose t perm x h) := fun j => hx _

/-- A slice re-reads entries. -/
theorem slice_real {x : s.Idx → EReal} (hx : AllReal x) (off : Fin s.rank → Nat) (h : s.Slices off t) :
    AllReal (extractStridedSlice t off x h) := fun j => hx _

/-- A broadcast re-reads entries. -/
theorem broadcast_real {x : s.Idx → EReal} (hx : AllReal x) (dims : Fin s.rank → Fin t.rank)
    (h : s.BroadcastsInDim t dims) : AllReal (broadcastInDim t dims h x) := fun j => hx _

/-- A concatenation re-reads entries of one of its parts. -/
theorem concatenate_real (a : Fin t.rank) (xs : List ((s : Shape) × (s.Idx → EReal)))
    (hxs : ∀ p ∈ xs, AllReal p.2) (h : Shape.Concatenates (xs.map (·.1)) t a) :
    AllReal (concatenate t a xs h) := by
  intro j
  unfold concatenate
  exact hxs _ (List.getElem_mem _) _

/-- Narrowing the float format does nothing on the extended reals. -/
theorem truncf_real {φ ψ : FTy} {x : FVec Ideal s φ} (hx : AllReal x) (h : ψ.bits < φ.bits) :
    AllReal (truncf ψ x h : FVec Ideal s ψ) := fun j => hx j

/-- Widening the float format does nothing on the extended reals. -/
theorem extf_real {φ ψ : FTy} {x : FVec Ideal s φ} (hx : AllReal x) (h : φ.bits < ψ.bits) :
    AllReal (extf ψ x h : FVec Ideal s ψ) := fun j => hx j

/-- A matrix product of real arrays is real: each entry is a finite sum of products of entries. -/
theorem dotGeneral_real {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r : FVec Ideal so .f32) := by
  intro j
  show IsReal (FloatOps.dotGeneral d prec .single l r j)
  rw [Ideal.dotGeneral_apply]
  exact isReal_sum _ _ fun k _ => (hl _).mul (hr _)

end Cert.FiniteOps

end
-- ==== Proof.FiniteTable.lean ====
/-
  The lookup table the kernel stages, as a function of the four small matrices it is built from, and the
  fact that all its entries are real numbers when theirs are.

  The table is built on the host: a product of the 300 × 20 matrix with the 20 × 1089 matrix, regrouped as
  5 × 65340 and multiplied by the 33 × 5 matrix; the result is regrouped as 20 × 3 × 33 × 33 × 33 (`coreK`),
  its three planes along the second axis are permuted each in its own way and put back together
  (`basisK`), and the 8 × 20 matrix mixes the 20 basis tables into the 8 per-picture tables (`tableK`).  The
  kernel reads it regrouped as 8 × 99 × 1089 in the narrower float format (`lutK`).  Every step is a matrix
  product or a re-reading of entries, so real entries stay real.
-/
import proofs.«162768_j12979391168851_2_alg».proof.KernelIdeal
import proofs.«162768_j12979391168851_2_alg».proof.Proof.FiniteOps

noncomputable section

namespace Cert.KernelIdeal.Finite

open Idealize.ShloMosaic
open Cert.Lib.Real (IsReal AllReal)
open Cert.FiniteOps
open Cert.KernelIdeal

variable [Facts]
open Facts₀ Facts

/-- The product of the three small matrices, regrouped as 20 × 3 × 33 × 33 × 33. -/
def coreK (x2 : FVec Ideal S33x5 .f32) (x3 : FVec Ideal S20x1089 .f32) (x4 : FVec Ideal S300x20 .f32) :
    FVec Ideal S20x3x33x33x33 .f32 :=
  shapeCast S20x3x33x33x33
    (transpose S60x33x1089 [1, 0, 2]
      (shapeCast S33x60x1089
        (Host.dotGeneral dot_S33x5_S5x65340_S33x65340_1_0_0_1_n_n none x2
          (shapeCast S5x65340
            (Host.dotGeneral dot_S300x20_S20x1089_S300x1089_1_0_0_1_n_n none x4 x3)
            shapeCasts_S300x1089_S5x65340))
        shapeCasts_S33x65340_S33x60x1089)
      transposes_S33x60x1089_S60x33x1089_1_0_2)
    shapeCasts_S60x33x1089_S20x3x33x33x33

/-- The three planes of the core, each permuted in its own way, put back together. -/
def basisK (x2 : FVec Ideal S33x5 .f32) (x3 : FVec Ideal S20x1089 .f32) (x4 : FVec Ideal S300x20 .f32) :
    FVec Ideal S20x3x33x33x33 .f32 :=
  concatenate S20x3x33x33x33 1
    [⟨S20x1x33x33x33, broadcastInDim S20x1x33x33x33 ![0, 2, 3, 4] bcast_S20x33x33x33_S20x1x33x33x33_0_2_3_4
        (transpose S20x33x33x33 [0, 2, 3, 1]
          (shapeCast S20x33x33x33
            (extractStridedSlice S20x1x33x33x33 ![0, 0, 0, 0, 0] (coreK x2 x3 x4)
              slices_S20x3x33x33x33_S20x1x33x33x33_0_0_0_0_0)
            shapeCasts_S20x1x33x33x33_S20x33x33x33)
          transposes_S20x33x33x33_S20x33x33x33_0_2_3_1)⟩,
     ⟨S20x1x33x33x33, broadcastInDim S20x1x33x33x33 ![0, 2, 3, 4] bcast_S20x33x33x33_S20x1x33x33x33_0_2_3_4
        (transpose S20x33x33x33 [0, 2, 1, 3]
          (shapeCast S20x33x33x33
            (extractStridedSlice S20x1x33x33x33 ![0, 1, 0, 0, 0] (coreK x2 x3 x4)
              slices_S20x3x33x33x33_S20x1x33x33x33_0_1_0_0_0)
            shapeCasts_S20x1x33x33x33_S20x33x33x33)
          transposes_S20x33x33x33_S20x33x33x33_0_2_1_3)⟩,
     ⟨S20x1x33x33x33, broadcastInDim S20x1x33x33x33 ![0, 2, 3, 4] bcast_S20x33x33x33_S20x1x33x33x33_0_2_3_4
        (shapeCast S20x33x33x33
          (extractStridedSlice S20x1x33x33x33 ![0, 2, 0, 0, 0] (coreK x2 x3 x4)
            slices_S20x3x33x33x33_S20x1x33x33x33_0_2_0_0_0)
          shapeCasts_S20x1x33x33x33_S20x33x33x33)⟩]
    concatenates_S20x1x33x33x33_S20x1x33x33x33_S20x1x33x33x33_S20x3x33x33x33_d1

/-- The per-picture tables: the 8 × 20 matrix times the 20 basis tables, as 8 × 3 × 33 × 33 × 33. -/
def tableK (x1 : FVec Ideal S8x20 .f32) (x2 : FVec Ideal S33x5 .f32) (x3 : FVec Ideal S20x1089 .f32)
    (x4 : FVec Ideal S300x20 .f32) : FVec Ideal S8x3x33x33x33 .f32 :=
  shapeCast S8x3x33x33x33
    (Host.dotGeneral dot_S8x20_S20x107811_S8x107811_1_0_0_1_n_n none x1
      (shapeCast S20x107811 (basisK x2 x3 x4) shapeCasts_S20x3x33x33x33_S20x107811))
    shapeCasts_S8x107811_S8x3x33x33x33

/-- The tables as the kernel reads them: 8 × 99 × 1089, in the narrower float format. -/
def lutK (x1 : FVec Ideal S8x20 .f32) (x2 : FVec Ideal S33x5 .f32) (x3 : FVec Ideal S20x1089 .f32)
    (x4 : FVec Ideal S300x20 .f32) : FVec Ideal S8x99x1089 .bf16 :=
  truncf .bf16 (shapeCast S8x99x1089 (tableK x1 x2 x3 x4) shapeCasts_S8x3x33x33x33_S8x99x1089) bitsLt_bf16_f32

variable {x1 : FVec Ideal S8x20 .f32} {x2 : FVec Ideal S33x5 .f32} {x3 : FVec Ideal S20x1089 .f32}
  {x4 : FVec Ideal S300x20 .f32}

theorem coreK_real (h2 : AllReal x2) (h3 : AllReal x3) (h4 : AllReal x4) : AllReal (coreK x2 x3 x4) :=
  shapeCast_real (transpose_real (shapeCast_real (dotGeneral_real _ _ h2
    (shapeCast_real (dotGeneral_real _ _ h4 h3) _)) _) _ _) _

theorem basisK_real (h2 : AllReal x2) (h3 : AllReal x3) (h4 : AllReal x4) : AllReal (basisK x2 x3 x4) := by
  have hc := coreK_real h2 h3 h4
  refine concatenate_real _ _ ?_ _
  intro p hp
  simp only [List.mem_cons, List.mem_nil_iff, or_false] at hp
  rcases hp with rfl | rfl | rfl
  · dsimp only; exact broadcast_real (transpose_real (shapeCast_real (slice_real hc _ _) _) _ _) _ _
  · dsimp only; exact broadcast_real (transpose_real (shapeCast_real (slice_real hc _ _) _) _ _) _ _
  · dsimp only; exact broadcast_real (shapeCast_real (slice_real hc _ _) _) _ _

/-- Every entry of the per-picture tables is a real number when every entry of the four matrices is. -/
theorem tableK_real (h1 : AllReal x1) (h2 : AllReal x2) (h3 : AllReal x3) (h4 : AllReal x4) :
    AllReal (tableK x1 x2 x3 x4) :=
  shapeCast_real (dotGeneral_real _ _ h1 (shapeCast_real (basisK_real h2 h3 h4) _)) _

theorem lutK_real (h1 : AllReal x1) (h2 : AllReal x2) (h3 : AllReal x3) (h4 : AllReal x4) :
    AllReal (lutK x1 x2 x3 x4) :=
  truncf_real (shapeCast_real (tableK_real h1 h2 h3 h4) _) _

end Cert.KernelIdeal.Finite

end
-- ==== Proof.FiniteEntry.lean ====
/-
  What the region finds in the two arrays it reads: after the host operations before the region, the table's
  array holds `lutK` of the four small matrices as launched, and the pixels' array holds the image as launched,
  regrouped as 8 × 3 × 2^20.
-/
import proofs.«162768_j12979391168851_2_alg».proof.Proof.Gen.KernelIdeal.Launch
import proofs.«162768_j12979391168851_2_alg».proof.Proof.FiniteTable
import Idealize.ShloMosaic.Lib.StableHlo.Run

set_option maxRecDepth 16384

noncomputable section

namespace Cert.KernelIdeal.Finite

open Cert.KernelIdeal Cert.KernelIdeal.Gen
open Idealize.ShloMosaic Idealize.ShloMosaic.TcCoe
open Idealize.SL.Sem
open Idealize.ShloMosaic.StableHlo

variable (m : (ℓ : Loc nD τ sig) → Buf (Elt Ideal) ℓ)

/-- The pixels' array as the region finds it: the image as launched, regrouped. -/
theorem entry_pixels (c : Dev nD) :
    (StableHlo.after (List.flatten [hostOps0 (F := Ideal)]) (fun b => m (c, b)) (Proc.devRef .tc main_v23)
        : FVec Ideal S8x3x1048576 .f32)
      = shapeCast S8x3x1048576 (m ((c : Thread nD τ).loc main_arg0) : FVec Ideal S8x3x1024x1024 .f32)
          Facts₀.shapeCasts_S8x3x1024x1024_S8x3x1048576 := by
  simp only [hostOps0, List.flatten_cons, List.flatten_nil, List.append_nil]
  after_results
  rfl

/-- The table's array as the region finds it: `lutK` of the four small matrices as launched. -/
theorem entry_table (c : Dev nD) :
    (StableHlo.after (List.flatten [hostOps0 (F := Ideal)]) (fun b => m (c, b)) (Proc.devRef .tc main_v22)
        : FVec Ideal S8x99x1089 .bf16)
      = lutK (m ((c : Thread nD τ).loc main_arg1)) (m ((c : Thread nD τ).loc main_arg2))
          (m ((c : Thread nD τ).loc main_arg3)) (m ((c : Thread nD τ).loc main_arg4)) := by
  simp only [hostOps0, List.flatten_cons, List.flatten_nil, List.append_nil]
  after_results
  rfl

end Cert.KernelIdeal.Finite

end
-- ==== Proof.LibFinite.lean ====
/-
  From "every entry has absolute value below +∞" (a precondition's all-reduce by "and" of the comparisons
  |a| < +∞, stated to be 1) to "every entry is a real number", for an array of any shape on the extended reals.
-/
import Idealize.ShloMosaic.Lib.ReduceAll
import Idealize.ShloMosaic.PureOps.Ideal
import Idealize.ShloMosaic.PureOps.Ideal.Laws
import Idealize.ShloMosaic.Lib.ValueIdx
import Idealize.ShloMosaic.Lib.Pipeline.Value
import proofs.«162768_j12979391168851_2_alg».proof.Proof.LibReal

noncomputable section

namespace Cert.Lib.Finite

open Idealize.ShloMosaic
open Cert.Lib.Real (IsReal)

/-- The scalar shape. -/
abbrev S0 : Shape := ⟨0, ![]⟩

/-- The scalar shape has one index. -/
instance : Subsingleton S0.Idx := ⟨fun _ _ => funext fun d => d.elim0⟩

/-- The f32 pattern of +∞ is the top element. -/
theorem ofBits_inf : Ideal.ofBits .f32 0x7F800000#32 = ⊤ := by simp [Ideal.ofBits, Ideal.ieee]

/-- An extended real whose absolute value is below +∞ is a real number. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- If the all-reduce by "and" of the comparisons |a| < +∞ is 1, every entry of a is a real number. -/
theorem allReal_of_all_finite {s : Shape} {axes : List (Fin s.rank)} (a : FVec Ideal s .f32)
    (hb : S0.BroadcastsInDim s (![] : Fin 0 → Fin s.rank)) (red : s.ReducesTo axes S0) (hu : 0 < S0.numel)
    (e : Host.reduce IntOp.andi
          (cmpf .olt (Host.absf a) (broadcastInDim s ![] hb (constant (F := Ideal) S0 .f32 0x7F800000#32)))
          (constantI S0 1 1#1) red hu ValueIdx.ix0 = 1#1) : ∀ i, IsReal (a i) := by
  intro i
  have h1 := Host.reduce_andi_all _ _ red hu _ e i
  have h2 : broadcastInDim s ![] hb (constant (F := Ideal) S0 .f32 0x7F800000#32) i = ⊤ := by
    rw [broadcastInDim_apply _ hb _ i ValueIdx.ix0 (fun a => a.elim0)]
    exact ofBits_inf
  have h3 : Ideal.cmp .olt (max (a i) (-(a i))) ⊤ = 1#1 := by
    rw [← h2]; exact h1
  exact isReal_of_abs_lt_top _ h3

end Cert.Lib.Finite

end
-- ==== Proof.FiniteInputs.lean ====
/-
  The precondition says that every entry of the five argument arrays has absolute value below +∞; this
  module turns that into "every entry is a real number", first for the printed predicate at any five
  arrays, then for the argument arrays of either program on every device.
-/
import proofs.«162768_j12979391168851_2_alg».proof.Defs
import proofs.«162768_j12979391168851_2_alg».proof.Proof.LibFinite

noncomputable section

namespace Cert.FiniteInputs

open Idealize.ShloMosaic Idealize.SL.Sem
open Cert.Lib.Real (IsReal)
open Cert.Pre_finite_inputs

/-- If the printed predicate is 1 at five arrays, every entry of each of them is a real number. -/
theorem allReal_of_fn [Facts] (a0 : FVec Ideal S8x3x1024x1024 .f32) (a1 : FVec Ideal S8x20 .f32)
    (a2 : FVec Ideal S33x5 .f32) (a3 : FVec Ideal S20x1089 .f32) (a4 : FVec Ideal S300x20 .f32)
    (h : fn (F := Ideal) a0 a1 a2 a3 a4 = fun _ => 1#1) :
    (∀ i, IsReal (a0 i)) ∧ (∀ i, IsReal (a1 i)) ∧ (∀ i, IsReal (a2 i)) ∧ (∀ i, IsReal (a3 i))
      ∧ (∀ i, IsReal (a4 i)) := by
  have h0 := congrFun h ValueIdx.ix0
  dsimp only [fn, fn_part1, andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨Cert.Lib.Finite.allReal_of_all_finite a0 _ _ _ e0, Cert.Lib.Finite.allReal_of_all_finite a1 _ _ _ e1,
    Cert.Lib.Finite.allReal_of_all_finite a2 _ _ _ e2, Cert.Lib.Finite.allReal_of_all_finite a3 _ _ _ e3,
    Cert.Lib.Finite.allReal_of_all_finite a4 _ _ _ e4⟩

/-- Under the kernel's precondition every entry of its five argument arrays, on every device, is a real number. -/
theorem kernel_args_real [Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0) : FVec Ideal S8x3x1024x1024 .f32) i))
    ∧ (∀ i, IsReal ((m ((c.tc : Thread Cert.KernelIdeal.nD Cert.KernelIdeal.τ).loc Cert.KernelIdeal.main_arg1) : FVec Ideal S8x20 .f32) i))
    ∧ (∀ i, IsReal ((m ((c.tc : Thread Cert.KernelIdeal.nD Cert.KernelIdeal.τ).loc Cert.KernelIdeal.main_arg2) : FVec Ideal S33x5 .f32) i))
    ∧ (∀ i, IsReal ((m ((c.tc : Thread Cert.KernelIdeal.nD Cert.KernelIdeal.τ).loc Cert.KernelIdeal.main_arg3) : FVec Ideal S20x1089 .f32) i))
    ∧ (∀ i, IsReal ((m ((c.tc : Thread Cert.KernelIdeal.nD Cert.KernelIdeal.τ).loc Cert.KernelIdeal.main_arg4) : FVec Ideal S300x20 .f32) i)) :=
  allReal_of_fn _ _ _ _ _ (h c)

/-- The same under the reference's precondition, for the reference's argument arrays. -/
theorem reference_args_real [Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, IsReal ((m ((c.tc : Thread Cert.ReferenceIdeal.nD Cert.ReferenceIdeal.τ).loc Cert.ReferenceIdeal.main_arg0) : FVec Ideal S8x3x1024x1024 .f32) i))
    ∧ (∀ i, IsReal ((m ((c.tc : Thread Cert.ReferenceIdeal.nD Cert.ReferenceIdeal.τ).loc Cert.ReferenceIdeal.main_arg1) : FVec Ideal S8x20 .f32) i))
    ∧ (∀ i, IsReal ((m ((c.tc : Thread Cert.ReferenceIdeal.nD Cert.ReferenceIdeal.τ).loc Cert.ReferenceIdeal.main_arg2) : FVec Ideal S33x5 .f32) i))
    ∧ (∀ i, IsReal ((m ((c.tc : Thread Cert.ReferenceIdeal.nD Cert.ReferenceIdeal.τ).loc Cert.ReferenceIdeal.main_arg3) : FVec Ideal S20x1089 .f32) i))
    ∧ (∀ i, IsReal ((m ((c.tc : Thread Cert.ReferenceIdeal.nD Cert.ReferenceIdeal.τ).loc Cert.ReferenceIdeal.main_arg4) : FVec Ideal S300x20 .f32) i)) :=
  allReal_of_fn _ _ _ _ _ (h c)

end Cert.FiniteInputs

end
-- ==== Proof.KernelIdealBlocks.lean ====
/-
  From the tiles to the array.  Each point of the region writes back one tile of 1 × 3 × 2048 results; the
  tile is the body's stored value of the pixel tile and the table block the point stages, and those are
  blocks of the flat pixel array and of the table array as the region finds them.  So what point `t` writes
  back is block `t` of ONE function `Gflat` of the two arrays; the tiles cover the result array; hence the
  result array ends holding `Gflat`.  Regrouped as 8 × 3 × 1024 × 1024, with the pixel array the regrouped
  image and the table array the regrouped table, `Gflat` is the specification `Cert.Trilinear.out`.
-/
import proofs.«162768_j12979391168851_2_alg».proof.Proof.KernelIdealGrid
import proofs.«162768_j12979391168851_2_alg».proof.Proof.KernelIdealTile
import proofs.«162768_j12979391168851_2_alg».proof.Proof.FiniteEntry
import proofs.«162768_j12979391168851_2_alg».proof.Proof.FiniteInputs
import proofs.«162768_j12979391168851_2_alg».proof.Proof.BlendAlgebra
import proofs.«162768_j12979391168851_2_alg».proof.Proof.Gen.Pre_finite_inputs
import Idealize.ShloMosaic.Lib.Pipeline.Value

set_option maxRecDepth 16384

noncomputable section

namespace Cert.KernelIdeal.Array

open Cert.KernelIdeal Cert.KernelIdeal.Gen Cert.KernelIdeal.Hand Cert.KernelIdeal.Finite
open Idealize.ShloMosaic Idealize.ShloMosaic.TcCoe Idealize.SL.Sem
open Idealize.ShloMosaic.ValueIdx
open Idealize.ShloMosaic.Pipeline (Dat)
open Cert.Lib.Real (IsReal AllReal)
open Cert.KernelIdeal.Tile (rowOf colOf)

variable (m : (ℓ : Loc nD τ sig) → Buf (Elt Ideal) ℓ) (ρ : Dev nD → PrngReg)
/-- What the body's one store writes, for real blocks: at channel `c` and pixel `p` of the tile, the blend of
    the channel's part of the table block at the pixel's three channels, plus the pixel's value. -/
def TileSpec : Prop :=
  ∀ (x0 : Vec Ideal S1x3x2048 .f32) (x1 : Vec Ideal S1x99x1089 .bf16), (∀ i, IsReal (x0 i)) → (∀ i, IsReal (x1 i)) →
    ∀ (c : Fin 3) (p : Fin 2048),
      stored (F := Ideal) x0 x1 (ix3 (0 : Fin 1) c p)
        = Cert.Trilinear.tri (fun bb gg rr => x1 (ix3 (0 : Fin 1) (rowOf c bb) (colOf gg rr)))
            (x0 (ix3 (0 : Fin 1) 0 p)) (x0 (ix3 (0 : Fin 1) 1 p)) (x0 (ix3 (0 : Fin 1) 2 p)) + x0 (ix3 (0 : Fin 1) c p)

/-- The result array as one function of the pixel array and the table array, both flat: at picture `n`,
    channel `c`, pixel `q`. -/
def GflatAt (pix : S8x3x1048576.Idx → EReal) (lut : S8x99x1089.Idx → EReal) (n : Fin 8) (c : Fin 3) (q : Fin 1048576) : EReal :=
  Cert.Trilinear.tri (fun bb gg rr => lut (ix3 n (rowOf c bb) (colOf gg rr)))
    (pix (ix3 n 0 q)) (pix (ix3 n 1 q)) (pix (ix3 n 2 q)) + pix (ix3 n c q)

def Gflat (pix : S8x3x1048576.Idx → EReal) (lut : S8x99x1089.Idx → EReal) : S8x3x1048576.Idx → EReal :=
  fun i => GflatAt pix lut (i 0) (i 1) (i 2)

/-- A tile whose blocks are read off the two arrays at picture `n` stores `Gflat` of the arrays. -/
theorem tile_at (htile : TileSpec) (x0 : Vec Ideal S1x3x2048 .f32) (x1 : Vec Ideal S1x99x1089 .bf16)
    (h0 : ∀ i, IsReal (x0 i)) (h1 : ∀ i, IsReal (x1 i))
    (pix : S8x3x1048576.Idx → EReal) (lut : S8x99x1089.Idx → EReal) (n : Fin 8) (q : Fin 1048576) (c : Fin 3) (p : Fin 2048)
    (hp : ∀ k : Fin 3, x0 (ix3 (0 : Fin 1) k p) = pix (ix3 n k q))
    (hl : ∀ (r : Fin 99) (s : Fin 1089), x1 (ix3 (0 : Fin 1) r s) = lut (ix3 n r s)) :
    stored (F := Ideal) x0 x1 (ix3 (0 : Fin 1) c p) = GflatAt pix lut n c q := by
  rw [htile x0 x1 h0 h1]
  unfold GflatAt
  simp only [hp, hl]

/-- The flat pixel array (the image regrouped) at (n, k, h · 1024 + w) is the image at (n, k, h, w). -/
theorem pix_apply (img : S8x3x1024x1024.Idx → EReal) (n : Fin 8) (k : Fin 3) (h w : Fin 1024) (q : Fin 1048576)
    (hq : q.val = h.val * 1024 + w.val) :
    shapeCast S8x3x1048576 img Facts₀.shapeCasts_S8x3x1024x1024_S8x3x1048576 (ix3 n k q) = img (ix4 n k h w) := by
  refine shapeCast_apply _ _ _ _ ?_
  rw [Shape.rowMajor_val_four, Shape.rowMajor_val_three]
  show ((n.val * 3 + k.val) * 1024 + h.val) * 1024 + w.val = (n.val * 3 + k.val) * 1048576 + q.val
  omega

/-- The table as the kernel reads it, at row c · 33 + bb and column gg · 33 + rr of picture `n`, is the table at
    (n, c, bb, gg, rr). -/
theorem lut_apply (T : FVec Ideal S8x3x33x33x33 .f32) (n : Fin 8) (c : Fin 3) (bb gg rr : Fin 33) :
    (truncf .bf16 (shapeCast S8x99x1089 T Facts₀.shapeCasts_S8x3x33x33x33_S8x99x1089) Facts₀.bitsLt_bf16_f32
        : FVec Ideal S8x99x1089 .bf16) (ix3 n (rowOf c bb) (colOf gg rr)) = T (ix5 n c bb gg rr) := by
  show shapeCast S8x99x1089 T Facts₀.shapeCasts_S8x3x33x33x33_S8x99x1089 (ix3 n (rowOf c bb) (colOf gg rr)) = _
  refine shapeCast_apply _ _ _ _ ?_
  rw [Shape.rowMajor_val_five, Shape.rowMajor_val_three]
  show (((n.val * 3 + c.val) * 33 + bb.val) * 33 + gg.val) * 33 + rr.val
    = (n.val * 99 + (c.val * 33 + bb.val)) * 1089 + (gg.val * 33 + rr.val)
  omega

/-- The flat result regrouped as 8 × 3 × 1024 × 1024 is the specification, at one index. -/
theorem out_at (img : FVec Ideal S8x3x1024x1024 .f32) (T : FVec Ideal S8x3x33x33x33 .f32) (n : Fin 8) (c : Fin 3) (h w : Fin 1024) :
    shapeCast S8x3x1024x1024
        (Gflat (shapeCast S8x3x1048576 img Facts₀.shapeCasts_S8x3x1024x1024_S8x3x1048576)
          (truncf .bf16 (shapeCast S8x99x1089 T Facts₀.shapeCasts_S8x3x33x33x33_S8x99x1089) Facts₀.bitsLt_bf16_f32
            : FVec Ideal S8x99x1089 .bf16))
        Facts₀.shapeCasts_S8x3x1048576_S8x3x1024x1024 (ix4 n c h w)
      = Cert.Trilinear.outAt img T n c h w := by
  have hq : h.val * 1024 + w.val < 1048576 := by have := h.isLt; have := w.isLt; omega
  rw [shapeCast_apply _ _ (ix4 n c h w) (ix3 n c (⟨h.val * 1024 + w.val, hq⟩ : Fin 1048576)) (by
    rw [Shape.rowMajor_val_four, Shape.rowMajor_val_three]
    show (n.val * 3 + c.val) * 1048576 + (h.val * 1024 + w.val) = ((n.val * 3 + c.val) * 1024 + h.val) * 1024 + w.val
    omega)]
  show GflatAt _ _ n c ⟨h.val * 1024 + w.val, hq⟩ = _
  unfold GflatAt Cert.Trilinear.outAt
  simp only [pix_apply img n _ h w ⟨h.val * 1024 + w.val, hq⟩ rfl, lut_apply]

/-- The flat result regrouped as 8 × 3 × 1024 × 1024 is the specification. -/
theorem out_eq (img : FVec Ideal S8x3x1024x1024 .f32) (T : FVec Ideal S8x3x33x33x33 .f32) :
    shapeCast S8x3x1024x1024
        (Gflat (shapeCast S8x3x1048576 img Facts₀.shapeCasts_S8x3x1024x1024_S8x3x1048576)
          (truncf .bf16 (shapeCast S8x99x1089 T Facts₀.shapeCasts_S8x3x33x33x33_S8x99x1089) Facts₀.bitsLt_bf16_f32
            : FVec Ideal S8x99x1089 .bf16))
        Facts₀.shapeCasts_S8x3x1048576_S8x3x1024x1024
      = Cert.Trilinear.out img T := by
  funext i
  rw [eq_ix4 i]
  exact out_at img T (i 0) (i 1) (i 2) (i 3)
/-- The pixel block at point `t` is the pixel array at picture t / 512 and pixels (t % 512) · 2048 + …. -/
theorem pixels_apply (c : Dev nD) (t : Fin cfg0.N) (x : S1x3x2048.Idx) (k : S8x3x1048576.Idx)
    (h0 : (k 0).val = t.val / 512) (h1 : (k 1).val = (x 1).val) (h2 : (k 2).val = t.val % 512 * 2048 + (x 2).val) :
    (blockAt m c 0 t : Vec Ideal S1x3x2048 .f32) x = (entry m c main_v23 : S8x3x1048576.Idx → EReal) k := by
  obtain ⟨e00, e01, e02, e10, e11, e12, e21, e20, e22⟩ := idx_facts t
  unfold blockAt
  rw [View.read_apply]
  show (entry m c main_v23 : S8x3x1048576.Idx → EReal) _ = (entry m c main_v23 : S8x3x1048576.Idx → EReal) _
  congr 1
  funext a
  apply Fin.ext
  match a with
  | ⟨0, _⟩ => show win0_0.index t 0 * 1 + 1 * (x 0).val = (k 0).val; have hx : (x 0).val < 1 := (x 0).isLt; rw [e00, e20, h0]; omega
  | ⟨1, _⟩ => show win0_0.index t 1 * 3 + 1 * (x 1).val = (k 1).val; rw [e01, h1]; omega
  | ⟨2, _⟩ => show win0_0.index t 2 * 2048 + 1 * (x 2).val = (k 2).val; rw [e02, e22, h2]; omega

/-- The table block at point `t` is the table array at picture t / 512. -/
theorem table_apply (c : Dev nD) (t : Fin cfg0.N) (x : S1x99x1089.Idx) (k : S8x99x1089.Idx)
    (h0 : (k 0).val = t.val / 512) (h1 : (k 1).val = (x 1).val) (h2 : (k 2).val = (x 2).val) :
    (blockAt m c 1 t : Vec Ideal S1x99x1089 .bf16) x = (entry m c main_v22 : S8x99x1089.Idx → EReal) k := by
  obtain ⟨e00, e01, e02, e10, e11, e12, e21, e20, e22⟩ := idx_facts t
  unfold blockAt
  rw [View.read_apply]
  show (entry m c main_v22 : S8x99x1089.Idx → EReal) _ = (entry m c main_v22 : S8x99x1089.Idx → EReal) _
  congr 1
  funext a
  apply Fin.ext
  match a with
  | ⟨0, _⟩ => show win0_1.index t 0 * 1 + 1 * (x 0).val = (k 0).val; have hx : (x 0).val < 1 := (x 0).isLt; rw [e10, e20, h0]; omega
  | ⟨1, _⟩ => show win0_1.index t 1 * 99 + 1 * (x 1).val = (k 1).val; rw [e11, h1]; omega
  | ⟨2, _⟩ => show win0_1.index t 2 * 1089 + 1 * (x 2).val = (k 2).val; rw [e12, h2]; omega

/-- An index of the result array is in point `t`'s block iff each coordinate is in the block's range. -/
theorem mem_blk (t : Fin cfg0.N) (i : S8x3x1048576.Idx) :
    i ∈ ((cfg0.win 2).blk t).view.set ↔ ∀ a : Fin 3, win0_2.index t a * S1x3x2048.size a ≤ (i a).val ∧ (i a).val < win0_2.index t a * S1x3x2048.size a + S1x3x2048.size a := by
  show i ∈ ((View.whole main_v24).slice (win0_2.rect t)).set ↔ _
  rw [View.set_slice_whole, Rect.mem_set_unit]
  exact Iff.rfl

/-- The tiles cover the result array: index (n, c, q) lies in the block of point n · 512 + q / 2048. -/
theorem cover (i : S8x3x1048576.Idx) :
    ∃ t : Fin cfg0.N, (cfg0.win 2).flush t = true ∧ i ∈ ((cfg0.win 2).blk t).view.set := by
  have h0 : (i 0).val < 8 := (i 0).isLt
  have h1 : (i 1).val < 3 := (i 1).isLt
  have h2 : (i 2).val < 1048576 := (i 2).isLt
  have hN : (i 0).val * 512 + (i 2).val / 2048 < cfg0.N := by rw [N_eq]; omega
  obtain ⟨-, -, -, -, -, -, e1, e0, e2⟩ := idx_facts ⟨(i 0).val * 512 + (i 2).val / 2048, hN⟩
  refine ⟨⟨(i 0).val * 512 + (i 2).val / 2048, hN⟩, flush0_2 _, ?_⟩
  rw [mem_blk]
  intro a
  match a with
  | ⟨0, _⟩ =>
    show win0_2.index ⟨(i 0).val * 512 + (i 2).val / 2048, hN⟩ 0 * 1 ≤ (i 0).val ∧ (i 0).val < win0_2.index ⟨(i 0).val * 512 + (i 2).val / 2048, hN⟩ 0 * 1 + 1
    rw [e0]; show ((i 0).val * 512 + (i 2).val / 2048) / 512 * 1 ≤ (i 0).val ∧ (i 0).val < ((i 0).val * 512 + (i 2).val / 2048) / 512 * 1 + 1
    omega
  | ⟨1, _⟩ =>
    show win0_2.index ⟨(i 0).val * 512 + (i 2).val / 2048, hN⟩ 1 * 3 ≤ (i 1).val ∧ (i 1).val < win0_2.index ⟨(i 0).val * 512 + (i 2).val / 2048, hN⟩ 1 * 3 + 3
    rw [e1]; omega
  | ⟨2, _⟩ =>
    show win0_2.index ⟨(i 0).val * 512 + (i 2).val / 2048, hN⟩ 2 * 2048 ≤ (i 2).val ∧ (i 2).val < win0_2.index ⟨(i 0).val * 512 + (i 2).val / 2048, hN⟩ 2 * 2048 + 2048
    rw [e2]; show ((i 0).val * 512 + (i 2).val / 2048) % 512 * 2048 ≤ (i 2).val ∧ (i 2).val < ((i 0).val * 512 + (i 2).val / 2048) % 512 * 2048 + 2048
    omega

/-- The blocks the region stages are real when the arrays are. -/
theorem pixels_real (c : Dev nD) (t : Fin cfg0.N)
    (hpix : ∀ i, IsReal ((entry m c main_v23 : S8x3x1048576.Idx → EReal) i)) :
    ∀ i, IsReal ((blockAt m c 0 t : Vec Ideal S1x3x2048 .f32) i) := by
  intro i
  have ht : t.val < 4096 := lt_of_lt_of_eq t.isLt N_eq
  have h1 : (i 1).val < 3 := (i 1).isLt
  have h2 : (i 2).val < 2048 := (i 2).isLt
  rw [pixels_apply m c t i (ix3 (⟨t.val / 512, by omega⟩ : Fin 8) (⟨(i 1).val, h1⟩ : Fin 3)
    (⟨t.val % 512 * 2048 + (i 2).val, by omega⟩ : Fin 1048576)) rfl rfl rfl]
  exact hpix _

theorem table_real (c : Dev nD) (t : Fin cfg0.N)
    (hlut : ∀ i, IsReal ((entry m c main_v22 : S8x99x1089.Idx → EReal) i)) :
    ∀ i, IsReal ((blockAt m c 1 t : Vec Ideal S1x99x1089 .bf16) i) := by
  intro i
  have ht : t.val < 4096 := lt_of_lt_of_eq t.isLt N_eq
  have h1 : (i 1).val < 99 := (i 1).isLt
  have h2 : (i 2).val < 1089 := (i 2).isLt
  rw [table_apply m c t i (ix3 (⟨t.val / 512, by omega⟩ : Fin 8) (⟨(i 1).val, h1⟩ : Fin 99)
    (⟨(i 2).val, h2⟩ : Fin 1089)) rfl rfl rfl]
  exact hlut _

/-- What point `t` writes back is block `t` of `Gflat` of the two arrays as the region finds them. -/
theorem flushed_eq (htile : TileSpec) (c : Dev nD)
    (hpix : ∀ i, IsReal ((entry m c main_v23 : S8x3x1048576.Idx → EReal) i))
    (hlut : ∀ i, IsReal ((entry m c main_v22 : S8x99x1089.Idx → EReal) i)) (t : Fin cfg0.N) :
    (dats m 0 c).flushed 2 t
      = ((cfg0.win 2).blk t).view.read (Elt Ideal) (Gflat (entry m c main_v23) (entry m c main_v22)) := by
  show (cfg0.win 2).cut (grid0.coords t) ((dats m 0 c).after 2 t) = _
  rw [after_out, tileOut_eq]
  obtain ⟨e00, e01, e02, e10, e11, e12, e21, e20, e22⟩ := idx_facts t
  have hx0 := pixels_real m c t hpix
  have hx1 := table_real m c t hlut
  funext j
  have hj0 : (j 0).val < 1 := (j 0).isLt
  have hj1 : (j 1).val < 3 := (j 1).isLt
  have hj2 : (j 2).val < 2048 := (j 2).isLt
  have hx : (cfg0.win 2).xinj (grid0.coords t) j = ix3 (0 : Fin 1) ⟨(j 1).val, hj1⟩ ⟨(j 2).val, hj2⟩ := by
    funext a
    match a with
    | ⟨0, _⟩ => apply Fin.ext; show (j 0).val = 0; omega
    | ⟨1, _⟩ => rfl
    | ⟨2, _⟩ => rfl
  have he0 : ((((cfg0.win 2).blk t).view.emb j) 0).val = t.val / 512 := by
    show win0_2.index t 0 * 1 + 1 * (j 0).val = _; rw [e20]; omega
  have he1 : ((((cfg0.win 2).blk t).view.emb j) 1).val = (j 1).val := by
    show win0_2.index t 1 * 3 + 1 * (j 1).val = _; rw [e21]; omega
  have he2 : ((((cfg0.win 2).blk t).view.emb j) 2).val = t.val % 512 * 2048 + (j 2).val := by
    show win0_2.index t 2 * 2048 + 1 * (j 2).val = _; rw [e22]; omega
  have hc : (((cfg0.win 2).blk t).view.emb j) 1 = (⟨(j 1).val, hj1⟩ : Fin 3) := Fin.ext he1
  rw [View.read_apply, cast_eq]
  show stored (F := Ideal) _ _ ((cfg0.win 2).xinj (grid0.coords t) j) = _
  rw [hx]
  simp only [Gflat]
  rw [hc]
  exact tile_at htile (blockAt m c 0 t) (blockAt m c 1 t) hx0 hx1 _ _ _ _ _ _
    (fun k => pixels_apply m c t _ _ he0 rfl he2) (fun r s => table_apply m c t _ _ he0 rfl rfl)

/-- The result array after the run is `Gflat` of the two arrays as the region finds them. -/
theorem final (htile : TileSpec) (c : Dev nD)
    (hpix : ∀ i, IsReal ((entry m c main_v23 : S8x3x1048576.Idx → EReal) i))
    (hlut : ∀ i, IsReal ((entry m c main_v22 : S8x99x1089.Idx → EReal) i)) :
    (dats m 0 c).arrAt 2 cfg0.N = Gflat (entry m c main_v23) (entry m c main_v22) :=
  (dats m 0 c).arrAt_eq_of_cover 2 (Gflat (entry m c main_v23) (entry m c main_v22))
    (fun t _ => flushed_eq m htile c hpix hlut t) cover

/-- The body's store is the blend: the per-tile value. -/
theorem tileSpec : TileSpec := fun x0 x1 h0 h1 c p => Cert.KernelIdeal.Tile.stored_eq_tri x0 x1 h0 h1 c p

/-- The pixels' array as the region finds it, and its entries are real under the precondition. -/
theorem entry_pixels_eq (c : Dev nD) :
    (entry m c main_v23 : S8x3x1048576.Idx → EReal)
      = shapeCast S8x3x1048576 (m ((c : Thread nD τ).loc main_arg0) : FVec Ideal S8x3x1024x1024 .f32)
          Facts₀.shapeCasts_S8x3x1024x1024_S8x3x1048576 := entry_pixels m c

theorem entry_table_eq (c : Dev nD) :
    (entry m c main_v22 : S8x99x1089.Idx → EReal)
      = lutK (m ((c : Thread nD τ).loc main_arg1)) (m ((c : Thread nD τ).loc main_arg2))
          (m ((c : Thread nD τ).loc main_arg3)) (m ((c : Thread nD τ).loc main_arg4)) := entry_table m c

theorem entry_pixels_real (hpre : Cert.Pre_KernelIdeal m) (c : Dev nD) :
    ∀ i, IsReal ((entry m c main_v23 : S8x3x1048576.Idx → EReal) i) := by
  have h := (Cert.FiniteInputs.kernel_args_real m hpre c).1
  rw [entry_pixels_eq m c]
  exact Cert.FiniteOps.shapeCast_real h _

theorem entry_table_real (hpre : Cert.Pre_KernelIdeal m) (c : Dev nD) :
    ∀ i, IsReal ((entry m c main_v22 : S8x99x1089.Idx → EReal) i) := by
  obtain ⟨h0, h1, h2, h3, h4⟩ := Cert.FiniteInputs.kernel_args_real m hpre c
  rw [entry_table_eq m c]
  exact lutK_real h1 h2 h3 h4

/-- The one host operation after the region regroups the flat result. -/
theorem tail_result (V : Valuation τ sig (Elt Ideal)) :
    (StableHlo.after (hostOps1 (F := Ideal)) V (Proc.devRef .tc main_v25) : FVec Ideal S8x3x1024x1024 .f32)
      = shapeCast S8x3x1024x1024 (V (Proc.devRef .tc main_v24) : FVec Ideal S8x3x1048576 .f32)
          Facts₀.shapeCasts_S8x3x1048576_S8x3x1024x1024 := by
  after_results
  rfl

end Cert.KernelIdeal.Array

end
-- ==== Proof.KernelIdealValue.lean ====
/-
  The value of the idealized kernel's run.  After the run the result array is `Gflat` of the flat pixel array
  and the table array (the tiles cover it); the one host operation after the region regroups it as
  8 × 3 × 1024 × 1024; the flat pixel array is the regrouped image and the table array the regrouped table built
  from the four small matrices, all real under the precondition.  So the run ends with the specification
  `Cert.Trilinear.out` of the image and the table, and with the five arguments as launched.
-/
import proofs.«162768_j12979391168851_2_alg».proof.Proof.KernelIdealBlocks
import proofs.«162768_j12979391168851_2_alg».proof.Proof.KernelIdealTile
import proofs.«162768_j12979391168851_2_alg».proof.Proof.FiniteEntry
import proofs.«162768_j12979391168851_2_alg».proof.Proof.FiniteInputs
import proofs.«162768_j12979391168851_2_alg».proof.Proof.BlendAlgebra
import proofs.«162768_j12979391168851_2_alg».proof.Proof.Gen.Pre_finite_inputs
import Idealize.ShloMosaic.Lib.Pipeline.Value

set_option maxRecDepth 16384

noncomputable section

namespace Cert.KernelIdeal.Array

open Cert.KernelIdeal Cert.KernelIdeal.Gen Cert.KernelIdeal.Hand Cert.KernelIdeal.Finite
open Idealize.ShloMosaic Idealize.ShloMosaic.TcCoe Idealize.SL.Sem
open Idealize.ShloMosaic.ValueIdx
open Idealize.ShloMosaic.Pipeline (Dat)
open Cert.Lib.Real (IsReal AllReal)
open Cert.KernelIdeal.Tile (rowOf colOf)

variable (m : (ℓ : Loc nD τ sig) → Buf (Elt Ideal) ℓ) (ρ : Dev nD → PrngReg)

/-- After the run the reshaped result is the specification of the image and the table as launched. -/
theorem result_eq (hpre : Cert.Pre_KernelIdeal m) (r : PUnit × MemSt nD τ sig (Elt Ideal))
    (h : Pipeline.FramePost cfgs (dats m) 0 (Pipeline.afterTail₀ cfgs (dats m) 0 (entry0 m) [hostOps1]) r) (c : Dev nD) :
    (r.2.mem ((c.tc : Thread nD τ).loc main_v25) : FVec Ideal S8x3x1024x1024 .f32)
      = Cert.Trilinear.out (m ((c.tc : Thread nD τ).loc main_arg0))
          (tableK (m ((c.tc : Thread nD τ).loc main_arg1)) (m ((c.tc : Thread nD τ).loc main_arg2))
            (m ((c.tc : Thread nD τ).loc main_arg3)) (m ((c.tc : Thread nD τ).loc main_arg4))) := by
  have hfin := final m tileSpec c (entry_pixels_real m hpre c) (entry_table_real m hpre c)
  rw [entry_pixels_eq m c, entry_table_eq m c] at hfin
  unfold lutK at hfin
  rw [(h c).2 main_v25 (Pipeline.mem_restRefs_of main_v25 (by decide) (by decide))]
  unfold Pipeline.afterTail₀
  show StableHlo.after hostOps1 _ (Proc.devRef .tc main_v25) = _
  rw [tail_result]
  rw [show Pipeline.withArrays (cfgs 0).spec c (entry0 m c) (fun w => (dats m 0 c).arrAt w (cfgs 0).N)
      (Proc.devRef .tc main_v24) = (dats m 0 c).arrAt 2 cfg0.N from
    Pipeline.withArrays_arr spec0 launch0.win.arr_inj c (entry0 m c) (fun w => (dats m 0 c).arrAt w (cfgs 0).N) 2]
  rw [hfin]
  exact out_eq _ _

/-- The idealized kernel runs to its end; the result is the specification of the image and of the table
    built from the four small matrices, all as launched, and the five arguments are unchanged. -/
theorem kernel_value (hpre : Cert.Pre_KernelIdeal m) :
    θ_run Cert.KernelIdeal.defs (onTc (τ := τ) (Cert.KernelIdeal.main (F := Ideal))) ⟨m, fun _ => 0, ρ⟩ (fun r => ∀ c : Dev nD,
      (r.2.mem ((c.tc : Thread nD τ).loc main_v25) : FVec Ideal S8x3x1024x1024 .f32)
        = Cert.Trilinear.out (m ((c.tc : Thread nD τ).loc main_arg0))
            (tableK (m ((c.tc : Thread nD τ).loc main_arg1)) (m ((c.tc : Thread nD τ).loc main_arg2))
              (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨result_eq m hpre r h c, args_kept m r h c⟩) (run_main m ρ)

end Cert.KernelIdeal.Array

end
-- ==== Proof.RefValueGather.lean ====
/-
  A gather from a five-axis table, read at one result index.

  The table has shape 8 × 3 × 33 × 33 × 33 (picture, output channel, and three node axes).  The start indices
  form an array 8 × 1024 × 1024 × 3: for picture `n` and pixel `(h, w)` a vector of three words, one per node
  axis.  The gather's dimension numbers make the picture axis a batching axis, the channel axis the one offset
  axis (all three channels are taken), and the three node axes collapsed axes addressed by the start vector.
  So result element `(n, c, h, w)` is the table's element `(n, c, s₀, s₁, s₂)` where `sₖ` is component `k` of the
  start vector at `(n, h, w)`, read as a signed integer and clamped into the node range 0 … 32.
-/
import proofs.«162768_j12979391168851_2_alg».proof.ReferenceIdeal
import Idealize.ShloMosaic.Lib.ValueIdx

noncomputable section

namespace Cert.ReferenceIdeal.RefValue

open Cert.ReferenceIdeal Idealize.ShloMosaic Idealize.ShloMosaic.ValueIdx

variable [Facts₀]

/-- A start-index word read as a signed integer and clamped into the table's node range 0 … 32. -/
def node (v : BitVec 32) : Fin 33 := ⟨min v.toInt.toNat 32, by omega⟩

theorem siIdx_eq (n : Fin 8) (c : Fin 3) (h w : Fin 1024) (k : Fin gather_S8x3x33x33x33_S8x1024x1024x3_S8x3x1024x1024_1_234_0_0_234_3_13111.startIndexMap.length) :
    gather_S8x3x33x33x33_S8x1024x1024x3_S8x3x1024x1024_1_234_0_0_234_3_13111.siIdx (ix4 n c h w) k = ix4 n h w (⟨k.val, k.isLt⟩ : Fin 3) := by
  funext b; refine Fin.ext ?_
  match b with
  | ⟨0, _⟩ => rfl
  | ⟨1, _⟩ => rfl
  | ⟨2, _⟩ => rfl
  | ⟨3, _⟩ => rfl

theorem gather_lut_apply {α : Type} (x : S8x3x33x33x33.Idx → α) (idx : IVec S8x1024x1024x3 32)
    (n : Fin 8) (c : Fin 3) (h w : Fin 1024) :
    Host.gather gather_S8x3x33x33x33_S8x1024x1024x3_S8x3x1024x1024_1_234_0_0_234_3_13111 x idx (ix4 n c h w)
      = x (ix5 n c (node (idx (ix4 n h w 0))) (node (idx (ix4 n h w 1))) (node (idx (ix4 n h w 2)))) := by
  unfold Host.gather
  refine congrArg x ?_
  funext a
  refine Fin.ext ?_
  match a with
  | ⟨0, _⟩ =>
    show gather_S8x3x33x33x33_S8x1024x1024x3_S8x3x1024x1024_1_234_0_0_234_3_13111.start (ix4 n c h w) idx 0 + gather_S8x3x33x33x33_S8x1024x1024x3_S8x3x1024x1024_1_234_0_0_234_3_13111.batchCoord (ix4 n c h w) 0 + gather_S8x3x33x33x33_S8x1024x1024x3_S8x3x1024x1024_1_234_0_0_234_3_13111.offCoord (ix4 n c h w) 0 = _
    rw [show gather_S8x3x33x33x33_S8x1024x1024x3_S8x3x1024x1024_1_234_0_0_234_3_13111.start (ix4 n c h w) idx 0 = 0 from rfl, show gather_S8x3x33x33x33_S8x1024x1024x3_S8x3x1024x1024_1_234_0_0_234_3_13111.batchCoord (ix4 n c h w) 0 = n.val from rfl,
      show gather_S8x3x33x33x33_S8x1024x1024x3_S8x3x1024x1024_1_234_0_0_234_3_13111.offCoord (ix4 n c h w) 0 = 0 from rfl]
    show 0 + n.val + 0 = n.val
    omega
  | ⟨1, _⟩ =>
    show gather_S8x3x33x33x33_S8x1024x1024x3_S8x3x1024x1024_1_234_0_0_234_3_13111.start (ix4 n c h w) idx 1 + gather_S8x3x33x33x33_S8x1024x1024x3_S8x3x1024x1024_1_234_0_0_234_3_13111.batchCoord (ix4 n c h w) 1 + gather_S8x3x33x33x33_S8x1024x1024x3_S8x3x1024x1024_1_234_0_0_234_3_13111.offCoord (ix4 n c h w) 1 = _
    rw [show gather_S8x3x33x33x33_S8x1024x1024x3_S8x3x1024x1024_1_234_0_0_234_3_13111.start (ix4 n c h w) idx 1 = 0 from rfl, show gather_S8x3x33x33x33_S8x1024x1024x3_S8x3x1024x1024_1_234_0_0_234_3_13111.batchCoord (ix4 n c h w) 1 = 0 from rfl,
      show gather_S8x3x33x33x33_S8x1024x1024x3_S8x3x1024x1024_1_234_0_0_234_3_13111.offCoord (ix4 n c h w) 1 = c.val from rfl]
    show 0 + 0 + c.val = c.val
    omega
  | ⟨2, _⟩ =>
    show gather_S8x3x33x33x33_S8x1024x1024x3_S8x3x1024x1024_1_234_0_0_234_3_13111.start (ix4 n c h w) idx 2 + gather_S8x3x33x33x33_S8x1024x1024x3_S8x3x1024x1024_1_234_0_0_234_3_13111.batchCoord (ix4 n c h w) 2 + gather_S8x3x33x33x33_S8x1024x1024x3_S8x3x1024x1024_1_234_0_0_234_3_13111.offCoord (ix4 n c h w) 2 = _
    rw [show gather_S8x3x33x33x33_S8x1024x1024x3_S8x3x1024x1024_1_234_0_0_234_3_13111.batchCoord (ix4 n c h w) 2 = 0 from rfl, show gather_S8x3x33x33x33_S8x1024x1024x3_S8x3x1024x1024_1_234_0_0_234_3_13111.offCoord (ix4 n c h w) 2 = 0 from rfl]
    unfold GatherDims.start
    have hm : (2 : Fin 5) ∈ gather_S8x3x33x33x33_S8x1024x1024x3_S8x3x1024x1024_1_234_0_0_234_3_13111.startIndexMap := by
      show (2 : Fin 5) ∈ ([2, 3, 4] : List (Fin 5))
      decide
    rw [dif_pos hm, siIdx_eq]
    rfl
  | ⟨3, _⟩ =>
    show gather_S8x3x33x33x33_S8x1024x1024x3_S8x3x1024x1024_1_234_0_0_234_3_13111.start (ix4 n c h w) idx 3 + gather_S8x3x33x33x33_S8x1024x1024x3_S8x3x1024x1024_1_234_0_0_234_3_13111.batchCoord (ix4 n c h w) 3 + gather_S8x3x33x33x33_S8x1024x1024x3_S8x3x1024x1024_1_234_0_0_234_3_13111.offCoord (ix4 n c h w) 3 = _
    rw [show gather_S8x3x33x33x33_S8x1024x1024x3_S8x3x1024x1024_1_234_0_0_234_3_13111.batchCoord (ix4 n c h w) 3 = 0 from rfl, show gather_S8x3x33x33x33_S8x1024x1024x3_S8x3x1024x1024_1_234_0_0_234_3_13111.offCoord (ix4 n c h w) 3 = 0 from rfl]
    unfold GatherDims.start
    have hm : (3 : Fin 5) ∈ gather_S8x3x33x33x33_S8x1024x1024x3_S8x3x1024x1024_1_234_0_0_234_3_13111.startIndexMap := by
      show (3 : Fin 5) ∈ ([2, 3, 4] : List (Fin 5))
      decide
    rw [dif_pos hm, siIdx_eq]
    rfl
  | ⟨4, _⟩ =>
    show gather_S8x3x33x33x33_S8x1024x1024x3_S8x3x1024x1024_1_234_0_0_234_3_13111.start (ix4 n c h w) idx 4 + gather_S8x3x33x33x33_S8x1024x1024x3_S8x3x1024x1024_1_234_0_0_234_3_13111.batchCoord (ix4 n c h w) 4 + gather_S8x3x33x33x33_S8x1024x1024x3_S8x3x1024x1024_1_234_0_0_234_3_13111.offCoord (ix4 n c h w) 4 = _
    rw [show gather_S8x3x33x33x33_S8x1024x1024x3_S8x3x1024x1024_1_234_0_0_234_3_13111.batchCoord (ix4 n c h w) 4 = 0 from rfl, show gather_S8x3x33x33x33_S8x1024x1024x3_S8x3x1024x1024_1_234_0_0_234_3_13111.offCoord (ix4 n c h w) 4 = 0 from rfl]
    unfold GatherDims.start
    have hm : (4 : Fin 5) ∈ gather_S8x3x33x33x33_S8x1024x1024x3_S8x3x1024x1024_1_234_0_0_234_3_13111.startIndexMap := by
      show (4 : Fin 5) ∈ ([2, 3, 4] : List (Fin 5))
      decide
    rw [dif_pos hm, siIdx_eq]
    rfl

end Cert.ReferenceIdeal.RefValue

end
-- ==== Proof.RefValueWords.lean ====
/-
  The words that address the table.

  A sample's bin is a word `c` with `0 ≤ c ≤ 31`.  The reference adds `0` or `1` to it, then applies the
  negative-index convention "if the sum is negative add 33" — which never fires, the sum being between 0 and 32 —
  and the gather reads the result as a signed integer clamped into 0 … 32, which again changes nothing.  So the
  node addressed is the bin's lower node for the offset 0 and its upper node for the offset 1.
-/
import proofs.«162768_j12979391168851_2_alg».proof.Proof.TrilinearSpec
import proofs.«162768_j12979391168851_2_alg».proof.Proof.RefValueGather

noncomputable section

namespace Cert.ReferenceIdeal.RefValue

open Idealize.ShloMosaic Cert.Trilinear

/-- A word at most 31 plus a word at most 1, wrapped by the negative-index convention and then clamped into
    0 … 32, is the sum of the two as numbers. -/
theorem node_wrap_val (c d : BitVec 32) (hc : c.toNat ≤ 31) (hd : d.toNat ≤ 1) :
    (node (Scalar.select (IntOp.cmpi .slt (IntOp.addi c d) 0#32) (IntOp.addi (IntOp.addi c d) 33#32)
      (IntOp.addi c d))).val = c.toNat + d.toNat := by
  have hx : (IntOp.addi c d).toNat = c.toNat + d.toNat := by
    unfold IntOp.addi
    rw [BitVec.toNat_add]
    omega
  generalize IntOp.addi c d = x at hx ⊢
  have hlt : x.toNat < 2 ^ 31 := by omega
  have hi : x.toInt = (x.toNat : Int) := by
    rw [BitVec.toInt_eq_toNat_cond]
    rw [if_pos (by omega)]
  have hs : x.slt 0#32 = false := by
    simp only [BitVec.slt, decide_eq_false_iff_not, not_lt]
    rw [hi]
    have e0 : (0#32 : BitVec 32).toInt = 0 := by decide
    rw [e0]
    omega
  have hcmp : IntOp.cmpi .slt x 0#32 = 0#1 := by
    unfold IntOp.cmpi
    simp only [hs]
    rfl
  rw [hcmp]
  unfold Scalar.select
  rw [if_neg (by decide)]
  show min x.toInt.toNat 32 = _
  rw [hi, Int.toNat_natCast, hx]
  omega

/-- The offset 0 addresses the bin's lower node. -/
theorem node_cell_zero (v : EReal) :
    node (Scalar.select (IntOp.cmpi .slt (IntOp.addi (cellWord v) 0#32) 0#32)
      (IntOp.addi (IntOp.addi (cellWord v) 0#32) 33#32) (IntOp.addi (cellWord v) 0#32)) = (cell v).castSucc :=
  Fin.ext ((node_wrap_val (cellWord v) 0#32 (clamp_toNat_le _) (by decide)).trans (Nat.add_zero _))

/-- The offset 1 addresses the bin's upper node. -/
theorem node_cell_one (v : EReal) :
    node (Scalar.select (IntOp.cmpi .slt (IntOp.addi (cellWord v) 1#32) 0#32)
      (IntOp.addi (IntOp.addi (cellWord v) 1#32) 33#32) (IntOp.addi (cellWord v) 1#32)) = (cell v).succ :=
  Fin.ext (node_wrap_val (cellWord v) 1#32 (clamp_toNat_le _) (by decide))

end Cert.ReferenceIdeal.RefValue

end
-- ==== Proof.RefValueConcat.lean ====
/-
  Three one-column arrays joined along their last axis, read at one index.

  Each piece has shape 8 × 1024 × 1024 × 1 and the result 8 × 1024 × 1024 × 3: column `k` of the result at
  `(n, h, w)` is the `k`-th piece at `(n, h, w, 0)`.  This is how the three words of a start vector are laid side
  by side before a gather.
-/
import proofs.«162768_j12979391168851_2_alg».proof.ReferenceIdeal
import Idealize.ShloMosaic.Lib.ValueIdx
import Idealize.ShloMosaic.Lib.Pipeline.Value

noncomputable section

namespace Cert.ReferenceIdeal.RefValue

open Cert.ReferenceIdeal Idealize.ShloMosaic Idealize.ShloMosaic.ValueIdx

/-- Three one-column arrays joined along the last axis, read at column `k`: the `k`-th array at its one column. -/
theorem concat3_apply {α : Type} (p0 p1 p2 : S8x1024x1024x1.Idx → α)
    (hC : Shape.Concatenates [S8x1024x1024x1, S8x1024x1024x1, S8x1024x1024x1] S8x1024x1024x3 3)
    (n : Fin 8) (h w : Fin 1024) :
    concatenate S8x1024x1024x3 3 [⟨S8x1024x1024x1, p0⟩, ⟨S8x1024x1024x1, p1⟩, ⟨S8x1024x1024x1, p2⟩] hC (ix4 n h w (0 : Fin 3))
        = p0 (ix4 n h w (0 : Fin 1))
    ∧ concatenate S8x1024x1024x3 3 [⟨S8x1024x1024x1, p0⟩, ⟨S8x1024x1024x1, p1⟩, ⟨S8x1024x1024x1, p2⟩] hC (ix4 n h w (1 : Fin 3))
        = p1 (ix4 n h w (0 : Fin 1))
    ∧ concatenate S8x1024x1024x3 3 [⟨S8x1024x1024x1, p0⟩, ⟨S8x1024x1024x1, p1⟩, ⟨S8x1024x1024x1, p2⟩] hC (ix4 n h w (2 : Fin 3))
        = p2 (ix4 n h w (0 : Fin 1)) := by
  have hi : ∀ (k : Fin 3) (b : Fin S8x1024x1024x1.rank), b.cast (rfl : S8x1024x1024x1.rank = S8x1024x1024x3.rank) ≠ (3 : Fin 4) →
      ((ix4 n h w (0 : Fin 1) : S8x1024x1024x1.Idx) b).val
        = ((ix4 n h w k : S8x1024x1024x3.Idx) (b.cast (rfl : S8x1024x1024x1.rank = S8x1024x1024x3.rank))).val := by
    intro k b hb
    match b with
    | ⟨0, _⟩ => rfl
    | ⟨1, _⟩ => rfl
    | ⟨2, _⟩ => rfl
    | ⟨3, _⟩ => exact absurd rfl hb
  refine ⟨?_, ?_, ?_⟩
  · exact concatenate_apply_piece (t := S8x1024x1024x3) (3 : Fin 4) [⟨S8x1024x1024x1, p0⟩, ⟨S8x1024x1024x1, p1⟩, ⟨S8x1024x1024x1, p2⟩] hC (ix4 n h w (0 : Fin 3)) 0 (show 0 < 3 by decide) S8x1024x1024x1 p0 rfl rfl 0 rfl
      (ix4 n h w (0 : Fin 1)) (hi 0) rfl
  · exact concatenate_apply_piece (t := S8x1024x1024x3) (3 : Fin 4) [⟨S8x1024x1024x1, p0⟩, ⟨S8x1024x1024x1, p1⟩, ⟨S8x1024x1024x1, p2⟩] hC (ix4 n h w (1 : Fin 3)) 1 (show 1 < 3 by decide) S8x1024x1024x1 p1 rfl rfl 1 rfl
      (ix4 n h w (0 : Fin 1)) (hi 1) rfl
  · exact concatenate_apply_piece (t := S8x1024x1024x3) (3 : Fin 4) [⟨S8x1024x1024x1, p0⟩, ⟨S8x1024x1024x1, p1⟩, ⟨S8x1024x1024x1, p2⟩] hC (ix4 n h w (2 : Fin 3)) 2 (show 2 < 3 by decide) S8x1024x1024x1 p2 rfl rfl 2 rfl
      (ix4 n h w (0 : Fin 1)) (hi 2) rfl

end Cert.ReferenceIdeal.RefValue

end
-- ==== Proof.RefValueCorner.lean ====
/-
  One corner term of the trilinear blend, as the reference builds it, read at an index.

  The reference forms each of its eight terms in the same way: to the three arrays of bin words (blue, green, red)
  it adds the corner's offsets, applies the negative-index convention, lays the three results side by side as start
  vectors, gathers the table at them, and multiplies by three per-pixel weights, each first repeated over the three
  output channels.  Here that construction is written once, as a function of the arrays it starts from, and read at
  picture `n`, channel `c`, pixel `(h, w)`: the table at `(n, c, ·, ·, ·)` with the three start words of the pixel,
  times the three weights of the pixel.  The channel arrays themselves (a slice of one channel with its unit axis
  dropped) are read at an index in the same way.
-/
import proofs.«162768_j12979391168851_2_alg».proof.Proof.RefValueGather
import proofs.«162768_j12979391168851_2_alg».proof.Proof.RefValueConcat
import proofs.«162768_j12979391168851_2_alg».proof.Proof.TrilinearSpec
import Idealize.ShloMosaic.Lib.ValueIdx
import Idealize.ShloMosaic.Lib.Pipeline.Value

noncomputable section

namespace Cert.ReferenceIdeal.RefValue

open Cert.ReferenceIdeal Idealize.ShloMosaic Idealize.ShloMosaic.ValueIdx

variable [Facts₀]

/-! ## The pieces of one corner term, as functions of the arrays they are built from

  `cb cg cr` are the arrays of bin words (blue, green, red), one word per picture and pixel; `db dg dr` the corner's
  offsets (0 or 1) along the three node axes; `Wr Wg Wb` the three weight arrays, one number per picture and pixel. -/

/-- A word repeated over every picture and pixel. -/
def splatWord (d : BitVec 32) : IVec S8x1024x1024 32 :=
  broadcastInDim S8x1024x1024 ![] Facts₀.bcast_S_S8x1024x1024 (constantI S_ 32 d)

/-- One column of start indices: the bin word plus the offset, 33 added where that sum is negative, given a
    trailing axis of extent one. -/
def startCol (c : IVec S8x1024x1024 32) (d : BitVec 32) : IVec S8x1024x1024x1 32 :=
  broadcastInDim S8x1024x1024x1 ![0, 1, 2] Facts₀.bcast_S8x1024x1024_S8x1024x1024x1_0_1_2
    (select (cmpi .slt (addi c (splatWord d)) (splatWord 0#32)) (addi (addi c (splatWord d)) (splatWord 33#32))
      (addi c (splatWord d)))

/-- The start vectors (blue, green, red) of a corner, side by side on the last axis. -/
def starts (cb cg cr : IVec S8x1024x1024 32) (db dg dr : BitVec 32) : IVec S8x1024x1024x3 32 :=
  concatenate S8x1024x1024x3 3 [⟨S8x1024x1024x1, startCol cb db⟩, ⟨S8x1024x1024x1, startCol cg dg⟩,
    ⟨S8x1024x1024x1, startCol cr dr⟩]
    Facts₀.concatenates_S8x1024x1024x1_S8x1024x1024x1_S8x1024x1024x1_S8x1024x1024x3_d3

/-- A per-pixel weight repeated over the three output channels. -/
def spread (W : FVec Ideal S8x1024x1024 .f32) : FVec Ideal S8x3x1024x1024 .f32 :=
  broadcastInDim S8x3x1024x1024 ![0, 1, 2, 3] Facts₀.bcast_S8x1x1024x1024_S8x3x1024x1024_0_1_2_3
    (broadcastInDim S8x1x1024x1024 ![0, 2, 3] Facts₀.bcast_S8x1024x1024_S8x1x1024x1024_0_2_3 W)

/-- One minus a per-pixel weight. -/
def complement (f : FVec Ideal S8x1024x1024 .f32) : FVec Ideal S8x1024x1024 .f32 :=
  subf (broadcastInDim S8x1024x1024 ![] Facts₀.bcast_S_S8x1024x1024 (constant (F := Ideal) S_ .f32 0x3F800000#32)) f

/-- One corner term: the table gathered at the corner's start vectors, times the red, green and blue weights. -/
def corner (lut : FVec Ideal S8x3x33x33x33 .f32) (cb cg cr : IVec S8x1024x1024 32) (db dg dr : BitVec 32)
    (Wr Wg Wb : FVec Ideal S8x1024x1024 .f32) : FVec Ideal S8x3x1024x1024 .f32 :=
  mulf (mulf (mulf (Host.gather gather_S8x3x33x33x33_S8x1024x1024x3_S8x3x1024x1024_1_234_0_0_234_3_13111 lut (starts cb cg cr db dg dr)) (spread Wr)) (spread Wg)) (spread Wb)

/-- One channel of a four-axis array as a three-axis array: the slice at channel `k`, its unit axis dropped. -/
def chan {α : Type} (k : Nat) (hs : S8x3x1024x1024.Slices ![0, k, 0, 0] S8x1x1024x1024) (A : S8x3x1024x1024.Idx → α) :
    S8x1024x1024.Idx → α :=
  shapeCast S8x1024x1024 (extractStridedSlice S8x1x1024x1024 ![0, k, 0, 0] A hs) Facts₀.shapeCasts_S8x1x1024x1024_S8x1024x1024

/-! ## The same pieces read at an index -/

theorem splatWord_apply (d : BitVec 32) (j : S8x1024x1024.Idx) : splatWord d j = d := rfl

theorem complement_apply (f : FVec Ideal S8x1024x1024 .f32) (j : S8x1024x1024.Idx) :
    complement f j = Cert.Trilinear.unit - f j := rfl

theorem spread_apply (W : FVec Ideal S8x1024x1024 .f32) (n : Fin 8) (c : Fin 3) (h w : Fin 1024) :
    spread W (ix4 n c h w) = W (ix3 n h w) := by
  unfold spread
  rw [broadcastInDim_apply _ _ _ (ix4 n c h w) (ix4 n (0 : Fin 1) h w) (fun a => match a with
      | ⟨0, _⟩ => rfl
      | ⟨1, _⟩ => rfl
      | ⟨2, _⟩ => rfl
      | ⟨3, _⟩ => rfl),
    broadcastInDim_apply _ _ _ (ix4 n (0 : Fin 1) h w) (ix3 n h w) (fun a => match a with
      | ⟨0, _⟩ => rfl
      | ⟨1, _⟩ => rfl
      | ⟨2, _⟩ => rfl)]

theorem startCol_apply (c : IVec S8x1024x1024 32) (d : BitVec 32) (n : Fin 8) (h w : Fin 1024) :
    startCol c d (ix4 n h w (0 : Fin 1))
      = Scalar.select (IntOp.cmpi .slt (IntOp.addi (c (ix3 n h w)) d) 0#32)
          (IntOp.addi (IntOp.addi (c (ix3 n h w)) d) 33#32) (IntOp.addi (c (ix3 n h w)) d) := by
  unfold startCol
  rw [broadcastInDim_apply _ _ _ (ix4 n h w (0 : Fin 1)) (ix3 n h w) (fun a => match a with
      | ⟨0, _⟩ => rfl
      | ⟨1, _⟩ => rfl
      | ⟨2, _⟩ => rfl)]
  rfl

/-- A corner term at picture `n`, channel `c`, pixel `(h, w)`: the table at the three wrapped and clamped start
    words, times the three weights at the pixel. -/
theorem corner_apply (lut : FVec Ideal S8x3x33x33x33 .f32) (cb cg cr : IVec S8x1024x1024 32) (db dg dr : BitVec 32)
    (Wr Wg Wb : FVec Ideal S8x1024x1024 .f32) (n : Fin 8) (c : Fin 3) (h w : Fin 1024) :
    corner lut cb cg cr db dg dr Wr Wg Wb (ix4 n c h w)
      = lut (ix5 n c
          (node (Scalar.select (IntOp.cmpi .slt (IntOp.addi (cb (ix3 n h w)) db) 0#32)
            (IntOp.addi (IntOp.addi (cb (ix3 n h w)) db) 33#32) (IntOp.addi (cb (ix3 n h w)) db)))
          (node (Scalar.select (IntOp.cmpi .slt (IntOp.addi (cg (ix3 n h w)) dg) 0#32)
            (IntOp.addi (IntOp.addi (cg (ix3 n h w)) dg) 33#32) (IntOp.addi (cg (ix3 n h w)) dg)))
          (node (Scalar.select (IntOp.cmpi .slt (IntOp.addi (cr (ix3 n h w)) dr) 0#32)
            (IntOp.addi (IntOp.addi (cr (ix3 n h w)) dr) 33#32) (IntOp.addi (cr (ix3 n h w)) dr))))
        * Wr (ix3 n h w) * Wg (ix3 n h w) * Wb (ix3 n h w) := by
  unfold corner
  rw [mulf_apply, mulf_apply, mulf_apply, gather_lut_apply, spread_apply, spread_apply, spread_apply]
  unfold starts
  obtain ⟨e0, e1, e2⟩ := concat3_apply (startCol cb db) (startCol cg dg) (startCol cr dr)
    Facts₀.concatenates_S8x1024x1024x1_S8x1024x1024x1_S8x1024x1024x1_S8x1024x1024x3_d3 n h w
  rw [e0, e1, e2, startCol_apply, startCol_apply, startCol_apply]

/-- A channel array at picture `n` and pixel `(h, w)` is the four-axis array at `(n, k, h, w)`. -/
theorem chan_apply {α : Type} (k : Nat) (hk : k < 3) (hs : S8x3x1024x1024.Slices ![0, k, 0, 0] S8x1x1024x1024)
    (A : S8x3x1024x1024.Idx → α) (n : Fin 8) (h w : Fin 1024) :
    chan k hs A (ix3 n h w) = A (ix4 n (⟨k, hk⟩ : Fin 3) h w) := by
  unfold chan
  rw [shapeCast_apply _ _ (ix3 n h w) (ix4 n (0 : Fin 1) h w) (by
      rewrite [Shape.rowMajor_val_four, Shape.rowMajor_val_three]
      show ((n.val * 1 + 0) * 1024 + h.val) * 1024 + w.val = (n.val * 1024 + h.val) * 1024 + w.val
      omega),
    extractStridedSlice_apply _ _ _ (ix4 n (0 : Fin 1) h w) (ix4 n (⟨k, hk⟩ : Fin 3) h w) (fun a => match a with
      | ⟨0, _⟩ => (Nat.zero_add _).symm
      | ⟨1, _⟩ => (Nat.add_zero _).symm
      | ⟨2, _⟩ => (Nat.zero_add _).symm
      | ⟨3, _⟩ => (Nat.zero_add _).symm)]

end Cert.ReferenceIdeal.RefValue

end
-- ==== Proof.RefValue.lean ====
/-
  The reference program computes the specification.

  The reference's stages, composed, are: the array of bin words and the array of offsets inside the bin (pointwise
  functions of the image), their three channels, and eight corner terms — each the table gathered at the bins'
  lower or upper nodes times the matching weights — added from the left, plus the image.  The composition is an
  identity of terms; each corner term is then read at an index, where the start words reduce to the bin's lower
  or upper node, and what is left is the specification's blend, term by term.
-/
import proofs.«162768_j12979391168851_2_alg».proof.Proof.RefRead
import proofs.«162768_j12979391168851_2_alg».proof.Proof.TrilinearSpec
import proofs.«162768_j12979391168851_2_alg».proof.Proof.RefValueWords
import proofs.«162768_j12979391168851_2_alg».proof.Proof.RefValueCorner

noncomputable section

namespace Cert.ReferenceIdeal.RefValue

open Cert.ReferenceIdeal Cert.ReferenceIdeal.Gen Cert.ReferenceIdeal.Read Idealize.ShloMosaic Idealize.ShloMosaic.ValueIdx Cert.Trilinear

/-! ## The arrays of bin words and of offsets inside the bin -/

section
variable (x0 : (⟨S8x3x1024x1024, .f32⟩ : BufTy).Contents (Elt Ideal))

/-- Every sample's bin word, as the reference computes it: divide by the bin width, floor, convert, clamp. -/
theorem binWords_apply (i : S8x3x1024x1024.Idx) : val_main_v25 (F := Ideal) x0 i = cellWord (x0 i) := rfl

/-- Every sample's offset inside its bin: its position minus its bin's number. -/
theorem binOffsets_apply (i : S8x3x1024x1024.Idx) : val_main_v27 (F := Ideal) x0 i = frac (x0 i) := rfl

/-- The bin words of the red, green and blue channels, one word per picture and pixel. -/
abbrev wordsR : IVec S8x1024x1024 32 := chan 0 slices_S8x3x1024x1024_S8x1x1024x1024_0_0_0_0 (val_main_v25 (F := Ideal) x0)
abbrev wordsG : IVec S8x1024x1024 32 := chan 1 slices_S8x3x1024x1024_S8x1x1024x1024_0_1_0_0 (val_main_v25 (F := Ideal) x0)
abbrev wordsB : IVec S8x1024x1024 32 := chan 2 slices_S8x3x1024x1024_S8x1x1024x1024_0_2_0_0 (val_main_v25 (F := Ideal) x0)
/-- The offsets inside the bin of the red, green and blue channels. -/
abbrev offsR : FVec Ideal S8x1024x1024 .f32 := chan 0 slices_S8x3x1024x1024_S8x1x1024x1024_0_0_0_0 (val_main_v27 (F := Ideal) x0)
abbrev offsG : FVec Ideal S8x1024x1024 .f32 := chan 1 slices_S8x3x1024x1024_S8x1x1024x1024_0_1_0_0 (val_main_v27 (F := Ideal) x0)
abbrev offsB : FVec Ideal S8x1024x1024 .f32 := chan 2 slices_S8x3x1024x1024_S8x1x1024x1024_0_2_0_0 (val_main_v27 (F := Ideal) x0)

variable (x1 : (⟨S8x20, .f32⟩ : BufTy).Contents (Elt Ideal)) (x2 : (⟨S33x5, .f32⟩ : BufTy).Contents (Elt Ideal))
  (x3 : (⟨S20x1089, .f32⟩ : BufTy).Contents (Elt Ideal)) (x4 : (⟨S300x20, .f32⟩ : BufTy).Contents (Elt Ideal))

/-- The reference's result is the sum, from the left, of its eight corner terms, plus the image: the program's
    stages are exactly the operations the corner terms are made of. -/
theorem program_eq :
    val_main_v351 (F := Ideal) x0 x1 x2 x3 x4 =
      addf (addf (addf (addf (addf (addf (addf (addf
        (corner (val_main_v20 (F := Ideal) x1 x2 x3 x4) (wordsB x0) (wordsG x0) (wordsR x0) 0#32 0#32 0#32
          (complement (offsR x0)) (complement (offsG x0)) (complement (offsB x0)))
        (corner (val_main_v20 (F := Ideal) x1 x2 x3 x4) (wordsB x0) (wordsG x0) (wordsR x0) 0#32 0#32 1#32
          (offsR x0) (complement (offsG x0)) (complement (offsB x0))))
        (corner (val_main_v20 (F := Ideal) x1 x2 x3 x4) (wordsB x0) (wordsG x0) (wordsR x0) 0#32 1#32 0#32
          (complement (offsR x0)) (offsG x0) (complement (offsB x0))))
        (corner (val_main_v20 (F := Ideal) x1 x2 x3 x4) (wordsB x0) (wordsG x0) (wordsR x0) 0#32 1#32 1#32
          (offsR x0) (offsG x0) (complement (offsB x0))))
        (corner (val_main_v20 (F := Ideal) x1 x2 x3 x4) (wordsB x0) (wordsG x0) (wordsR x0) 1#32 0#32 0#32
          (complement (offsR x0)) (complement (offsG x0)) (offsB x0)))
        (corner (val_main_v20 (F := Ideal) x1 x2 x3 x4) (wordsB x0) (wordsG x0) (wordsR x0) 1#32 0#32 1#32
          (offsR x0) (complement (offsG x0)) (offsB x0)))
        (corner (val_main_v20 (F := Ideal) x1 x2 x3 x4) (wordsB x0) (wordsG x0) (wordsR x0) 1#32 1#32 0#32
          (complement (offsR x0)) (offsG x0) (offsB x0)))
        (corner (val_main_v20 (F := Ideal) x1 x2 x3 x4) (wordsB x0) (wordsG x0) (wordsR x0) 1#32 1#32 1#32
          (offsR x0) (offsG x0) (offsB x0)))
        x0 := rfl

/-- **The reference computes the specification**: its result is the trilinear blend of the per-picture table, corner
    by corner in the specification's order, plus the image. -/
theorem ref_is_out :
    val_main_v351 (F := Ideal) x0 x1 x2 x3 x4 = Cert.Trilinear.out x0 (val_main_v20 (F := Ideal) x1 x2 x3 x4) := by
  rw [program_eq]
  funext i
  obtain ⟨n, c, h, w, rfl⟩ : ∃ (n : Fin 8) (c : Fin 3) (h w : Fin 1024), i = ix4 n c h w :=
    ⟨i 0, i 1, i 2, i 3, eq_ix4 i⟩
  simp only [addf_apply, corner_apply, complement_apply, chan_apply 0 (by decide), chan_apply 1 (by decide),
    chan_apply 2 (by decide), binWords_apply, binOffsets_apply, node_cell_zero, node_cell_one]
  rfl

end

end Cert.ReferenceIdeal.RefValue

end
-- ==== Proof.LibHostLine.lean ====
/-
  Reading a long straight line of host operations back as one function.

  The contents of a buffer after a line of operations is a fold: each operation rewrites the buffers it writes and
  leaves the rest.  Two facts make a line of several hundred operations readable in one pass.

  * `after_append`: the fold over a concatenation is the fold over the second list started from what the first
    left — so a line may be stated in pieces and still read as a whole.

  * `cast_same`: an operation inside an outlined function is stated at the type of the tensor value and moved to
    its buffer's own type along an equation between the two types; for a literal buffer the two types are the same
    type, and the transport is the identity.  Stated as a propositional equation (not unfolded), it lets one
    rewriting pass strip every such transport from the composed term, after which the term is, operation for
    operation, the specification's term and the two are compared structurally.

  Recipe, for a goal  `after <literal list> W b = spec (W a₁) … (W aₙ)`  over any contents `W`: expose the list's
  conses, rewrite every operation's result at its own buffer and skip it at any other (the library's one-pass
  result rewriting), rewrite with `cast_same`, and close by reflexivity — the specification's definitions unfold by
  themselves.
-/
import Idealize.ShloMosaic.Lib.StableHlo.Run

noncomputable section

namespace Cert.Lib.HostLine

open Idealize.ShloMosaic Idealize.ShloMosaic.StableHlo

variable {τ : Topo} {sig : RefSig} {Val : EltTy → Type}

/-- Running two lists one after the other is running the first, then the second from what it left. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Transport along an equation of a type with itself is the identity. -/
theorem cast_same {α : Type} (h : α = α) (a : α) : cast h a = a := eq_of_heq (cast_heq h a)

end Cert.Lib.HostLine

end
-- ==== Proof.RefRunSteps.lean ====
/-
  The reference's run, read back a stretch at a time.

  The reference is one straight line of 444 host operations: the lookup table (21 operations), the bin words and
  offsets of the three channels (27), eight stretches of about fifty operations that each gather one corner of
  every pixel's cube, weight it and add it to the running sum, and the final addition of the image.  Each stretch
  is read back by itself, from ANY contents of the buffers before it: what it computes is a function of the few
  buffers it reads that earlier stretches wrote (the table, the six word and offset arrays, the running sum, the
  image), and it leaves those buffers as they were.  Chaining the eleven stretches gives the whole line's result
  as the sum of the eight corner terms plus the image.
-/
import proofs.«162768_j12979391168851_2_alg».proof.Proof.RefRun
import proofs.«162768_j12979391168851_2_alg».proof.Proof.RefValue
import proofs.«162768_j12979391168851_2_alg».proof.Proof.LibHostLine
import Idealize.ShloMosaic.Lib.StableHlo.Run
import Idealize.ShloMosaic.Lib.Tactic

set_option maxRecDepth 65536

noncomputable section

namespace Cert.ReferenceIdeal.Steps

open Cert.ReferenceIdeal Cert.ReferenceIdeal.Gen Cert.ReferenceIdeal.Value Cert.ReferenceIdeal.Read Cert.ReferenceIdeal.RefValue
open Idealize.ShloMosaic Idealize.ShloMosaic.TcCoe Idealize.SL.Sem Idealize.ShloMosaic.StableHlo Idealize.ShloMosaic.Tactic

section Stretches
variable {F : FTy → Type} [FloatOps F]

/-! ## The eleven stretches of the line -/

/-- Operations 1 to 21 of the line. -/
def seg0 : List (HloOp τ sig (Elt F)) := ((ops (F := F)).drop 0).take 21
/-- Operations 22 to 48 of the line. -/
def seg1 : List (HloOp τ sig (Elt F)) := ((ops (F := F)).drop 21).take 27
/-- Operations 49 to 101 of the line. -/
def segC1 : List (HloOp τ sig (Elt F)) := ((ops (F := F)).drop 48).take 53
/-- Operations 102 to 152 of the line. -/
def segC2 : List (HloOp τ sig (Elt F)) := ((ops (F := F)).drop 101).take 51
/-- Operations 153 to 203 of the line. -/
def segC3 : List (HloOp τ sig (Elt F)) := ((ops (F := F)).drop 152).take 51
/-- Operations 204 to 251 of the line. -/
def segC4 : List (HloOp τ sig (Elt F)) := ((ops (F := F)).drop 203).take 48
/-- Operations 252 to 302 of the line. -/
def segC5 : List (HloOp τ sig (Elt F)) := ((ops (F := F)).drop 251).take 51
/-- Operations 303 to 350 of the line. -/
def segC6 : List (HloOp τ sig (Elt F)) := ((ops (F := F)).drop 302).take 48
/-- Operations 351 to 398 of the line. -/
def segC7 : List (HloOp τ sig (Elt F)) := ((ops (F := F)).drop 350).take 48
/-- Operations 399 to 443 of the line. -/
def segC8 : List (HloOp τ sig (Elt F)) := ((ops (F := F)).drop 398).take 45
/-- Operations 444 to 444 of the line. -/
def segL : List (HloOp τ sig (Elt F)) := ((ops (F := F)).drop 443).take 1

/-- The line is its stretches, in order. -/
theorem ops_split : (ops : List (HloOp τ sig (Elt F))) =
    seg0 ++ (seg1 ++ (segC1 ++ (segC2 ++ (segC3 ++ (segC4 ++ (segC5 ++ (segC6 ++ (segC7 ++ (segC8 ++ segL))))))))) := by
  sl_kernel_rfl

end Stretches

variable (V : Valuation τ sig (Elt Ideal))

/-! ## What each stretch computes -/

theorem table_stretch : (after (seg0 (F := Ideal)) V (Proc.devRef .tc main_v20) : FVec Ideal S8x3x33x33x33 .f32)
    = val_main_v20 (F := Ideal) (V (Proc.devRef .tc main_arg1)) (V (Proc.devRef .tc main_arg2)) (V (Proc.devRef .tc main_arg3)) (V (Proc.devRef .tc main_arg4)) := by
  sl_kernel_rfl

theorem bins_wordsR : (after (seg1 (F := Ideal)) V (Proc.devRef .tc main_v29) : IVec S8x1024x1024 32) = wordsR (V (Proc.devRef .tc main_arg0)) := by
  sl_kernel_rfl
theorem bins_wordsG : (after (seg1 (F := Ideal)) V (Proc.devRef .tc main_v31) : IVec S8x1024x1024 32) = wordsG (V (Proc.devRef .tc main_arg0)) := by
  sl_kernel_rfl
theorem bins_wordsB : (after (seg1 (F := Ideal)) V (Proc.devRef .tc main_v33) : IVec S8x1024x1024 32) = wordsB (V (Proc.devRef .tc main_arg0)) := by
  sl_kernel_rfl
theorem bins_offsR : (after (seg1 (F := Ideal)) V (Proc.devRef .tc main_v35) : FVec Ideal S8x1024x1024 .f32) = offsR (V (Proc.devRef .tc main_arg0)) := by
  sl_kernel_rfl
theorem bins_offsG : (after (seg1 (F := Ideal)) V (Proc.devRef .tc main_v37) : FVec Ideal S8x1024x1024 .f32) = offsG (V (Proc.devRef .tc main_arg0)) := by
  sl_kernel_rfl
theorem bins_offsB : (after (seg1 (F := Ideal)) V (Proc.devRef .tc main_v39) : FVec Ideal S8x1024x1024 .f32) = offsB (V (Proc.devRef .tc main_arg0)) := by
  sl_kernel_rfl

theorem corner_stretch1 : (after (segC1 (F := Ideal)) V (Proc.devRef .tc main_v80) : FVec Ideal S8x3x1024x1024 .f32)
    = corner (V (Proc.devRef .tc main_v20) : FVec Ideal S8x3x33x33x33 .f32) (V (Proc.devRef .tc main_v33) : IVec S8x1024x1024 32) (V (Proc.devRef .tc main_v31) : IVec S8x1024x1024 32) (V (Proc.devRef .tc main_v29) : IVec S8x1024x1024 32) 0#32 0#32 0#32
        (complement (V (Proc.devRef .tc main_v35) : FVec Ideal S8x1024x1024 .f32)) (complement (V (Proc.devRef .tc main_v37) : FVec Ideal S8x1024x1024 .f32)) (complement (V (Proc.devRef .tc main_v39) : FVec Ideal S8x1024x1024 .f32)) := by
  sl_kernel_rfl
theorem corner_stretch2 : (after (segC2 (F := Ideal)) V (Proc.devRef .tc main_v120) : FVec Ideal S8x3x1024x1024 .f32)
    = addf (V (Proc.devRef .tc main_v80) : FVec Ideal S8x3x1024x1024 .f32)
      (corner (V (Proc.devRef .tc main_v20) : FVec Ideal S8x3x33x33x33 .f32) (V (Proc.devRef .tc main_v33) : IVec S8x1024x1024 32) (V (Proc.devRef .tc main_v31) : IVec S8x1024x1024 32) (V (Proc.devRef .tc main_v29) : IVec S8x1024x1024 32) 0#32 0#32 1#32
        (V (Proc.devRef .tc main_v35) : FVec Ideal S8x1024x1024 .f32) (complement (V (Proc.devRef .tc main_v37) : FVec Ideal S8x1024x1024 .f32)) (complement (V (Proc.devRef .tc main_v39) : FVec Ideal S8x1024x1024 .f32))) := by
  sl_kernel_rfl
theorem corner_stretch3 : (after (segC3 (F := Ideal)) V (Proc.devRef .tc main_v160) : FVec Ideal S8x3x1024x1024 .f32)
    = addf (V (Proc.devRef .tc main_v120) : FVec Ideal S8x3x1024x1024 .f32)
      (corner (V (Proc.devRef .tc main_v20) : FVec Ideal S8x3x33x33x33 .f32) (V (Proc.devRef .tc main_v33) : IVec S8x1024x1024 32) (V (Proc.devRef .tc main_v31) : IVec S8x1024x1024 32) (V (Proc.devRef .tc main_v29) : IVec S8x1024x1024 32) 0#32 1#32 0#32
        (complement (V (Proc.devRef .tc main_v35) : FVec Ideal S8x1024x1024 .f32)) (V (Proc.devRef .tc main_v37) : FVec Ideal S8x1024x1024 .f32) (complement (V (Proc.devRef .tc main_v39) : FVec Ideal S8x1024x1024 .f32))) := by
  sl_kernel_rfl
theorem corner_stretch4 : (after (segC4 (F := Ideal)) V (Proc.devRef .tc main_v198) : FVec Ideal S8x3x1024x1024 .f32)
    = addf (V (Proc.devRef .tc main_v160) : FVec Ideal S8x3x1024x1024 .f32)
      (corner (V (Proc.devRef .tc main_v20) : FVec Ideal S8x3x33x33x33 .f32) (V (Proc.devRef .tc main_v33) : IVec S8x1024x1024 32) (V (Proc.devRef .tc main_v31) : IVec S8x1024x1024 32) (V (Proc.devRef .tc main_v29) : IVec S8x1024x1024 32) 0#32 1#32 1#32
        (V (Proc.devRef .tc main_v35) : FVec Ideal S8x1024x1024 .f32) (V (Proc.devRef .tc main_v37) : FVec Ideal S8x1024x1024 .f32) (complement (V (Proc.devRef .tc main_v39) : FVec Ideal S8x1024x1024 .f32))) := by
  sl_kernel_rfl
theorem corner_stretch5 : (after (segC5 (F := Ideal)) V (Proc.devRef .tc main_v238) : FVec Ideal S8x3x1024x1024 .f32)
    = addf (V (Proc.devRef .tc main_v198) : FVec Ideal S8x3x1024x1024 .f32)
      (corner (V (Proc.devRef .tc main_v20) : FVec Ideal S8x3x33x33x33 .f32) (V (Proc.devRef .tc main_v33) : IVec S8x1024x1024 32) (V (Proc.devRef .tc main_v31) : IVec S8x1024x1024 32) (V (Proc.devRef .tc main_v29) : IVec S8x1024x1024 32) 1#32 0#32 0#32
        (complement (V (Proc.devRef .tc main_v35) : FVec Ideal S8x1024x1024 .f32)) (complement (V (Proc.devRef .tc main_v37) : FVec Ideal S8x1024x1024 .f32)) (V (Proc.devRef .tc main_v39) : FVec Ideal S8x1024x1024 .f32)) := by
  sl_kernel_rfl
theorem corner_stretch6 : (after (segC6 (F := Ideal)) V (Proc.devRef .tc main_v276) : FVec Ideal S8x3x1024x1024 .f32)
    = addf (V (Proc.devRef .tc main_v238) : FVec Ideal S8x3x1024x1024 .f32)
      (corner (V (Proc.devRef .tc main_v20) : FVec Ideal S8x3x33x33x33 .f32) (V (Proc.devRef .tc main_v33) : IVec S8x1024x1024 32) (V (Proc.devRef .tc main_v31) : IVec S8x1024x1024 32) (V (Proc.devRef .tc main_v29) : IVec S8x1024x1024 32) 1#32 0#32 1#32
        (V (Proc.devRef .tc main_v35) : FVec Ideal S8x1024x1024 .f32) (complement (V (Proc.devRef .tc main_v37) : FVec Ideal S8x1024x1024 .f32)) (V (Proc.devRef .tc main_v39) : FVec Ideal S8x1024x1024 .f32)) := by
  sl_kernel_rfl
theorem corner_stretch7 : (after (segC7 (F := Ideal)) V (Proc.devRef .tc main_v314) : FVec Ideal S8x3x1024x1024 .f32)
    = addf (V (Proc.devRef .tc main_v276) : FVec Ideal S8x3x1024x1024 .f32)
      (corner (V (Proc.devRef .tc main_v20) : FVec Ideal S8x3x33x33x33 .f32) (V (Proc.devRef .tc main_v33) : IVec S8x1024x1024 32) (V (Proc.devRef .tc main_v31) : IVec S8x1024x1024 32) (V (Proc.devRef .tc main_v29) : IVec S8x1024x1024 32) 1#32 1#32 0#32
        (complement (V (Proc.devRef .tc main_v35) : FVec Ideal S8x1024x1024 .f32)) (V (Proc.devRef .tc main_v37) : FVec Ideal S8x1024x1024 .f32) (V (Proc.devRef .tc main_v39) : FVec Ideal S8x1024x1024 .f32)) := by
  sl_kernel_rfl
theorem corner_stretch8 : (after (segC8 (F := Ideal)) V (Proc.devRef .tc main_v350) : FVec Ideal S8x3x1024x1024 .f32)
    = addf (V (Proc.devRef .tc main_v314) : FVec Ideal S8x3x1024x1024 .f32)
      (corner (V (Proc.devRef .tc main_v20) : FVec Ideal S8x3x33x33x33 .f32) (V (Proc.devRef .tc main_v33) : IVec S8x1024x1024 32) (V (Proc.devRef .tc main_v31) : IVec S8x1024x1024 32) (V (Proc.devRef .tc main_v29) : IVec S8x1024x1024 32) 1#32 1#32 1#32
        (V (Proc.devRef .tc main_v35) : FVec Ideal S8x1024x1024 .f32) (V (Proc.devRef .tc main_v37) : FVec Ideal S8x1024x1024 .f32) (V (Proc.devRef .tc main_v39) : FVec Ideal S8x1024x1024 .f32)) := by
  sl_kernel_rfl

theorem last_stretch : (after (segL (F := Ideal)) V (Proc.devRef .tc main_v351) : FVec Ideal S8x3x1024x1024 .f32)
    = (addf (V (Proc.devRef .tc main_v350)) (V (Proc.devRef .tc main_arg0)) : FVec Ideal S8x3x1024x1024 .f32) := by
  sl_kernel_rfl

/-! ## What each stretch leaves alone -/

theorem keeps_seg0_arg0 : after (seg0 (F := Ideal)) V (Proc.devRef .tc main_arg0) = V (Proc.devRef .tc main_arg0) := by
  sl_kernel_rfl
theorem keeps_seg1_arg0 : after (seg1 (F := Ideal)) V (Proc.devRef .tc main_arg0) = V (Proc.devRef .tc main_arg0) := by
  sl_kernel_rfl
theorem keeps_segC1_arg0 : after (segC1 (F := Ideal)) V (Proc.devRef .tc main_arg0) = V (Proc.devRef .tc main_arg0) := by
  sl_kernel_rfl
theorem keeps_segC2_arg0 : after (segC2 (F := Ideal)) V (Proc.devRef .tc main_arg0) = V (Proc.devRef .tc main_arg0) := by
  sl_kernel_rfl
theorem keeps_segC3_arg0 : after (segC3 (F := Ideal)) V (Proc.devRef .tc main_arg0) = V (Proc.devRef .tc main_arg0) := by
  sl_kernel_rfl
theorem keeps_segC4_arg0 : after (segC4 (F := Ideal)) V (Proc.devRef .tc main_arg0) = V (Proc.devRef .tc main_arg0) := by
  sl_kernel_rfl
theorem keeps_segC5_arg0 : after (segC5 (F := Ideal)) V (Proc.devRef .tc main_arg0) = V (Proc.devRef .tc main_arg0) := by
  sl_kernel_rfl
theorem keeps_segC6_arg0 : after (segC6 (F := Ideal)) V (Proc.devRef .tc main_arg0) = V (Proc.devRef .tc main_arg0) := by
  sl_kernel_rfl
theorem keeps_segC7_arg0 : after (segC7 (F := Ideal)) V (Proc.devRef .tc main_arg0) = V (Proc.devRef .tc main_arg0) := by
  sl_kernel_rfl
theorem keeps_segC8_arg0 : after (segC8 (F := Ideal)) V (Proc.devRef .tc main_arg0) = V (Proc.devRef .tc main_arg0) := by
  sl_kernel_rfl
theorem keeps_seg1_v20 : after (seg1 (F := Ideal)) V (Proc.devRef .tc main_v20) = V (Proc.devRef .tc main_v20) := by
  sl_kernel_rfl
theorem keeps_segC1_v20 : after (segC1 (F := Ideal)) V (Proc.devRef .tc main_v20) = V (Proc.devRef .tc main_v20) := by
  sl_kernel_rfl
theorem keeps_segC2_v20 : after (segC2 (F := Ideal)) V (Proc.devRef .tc main_v20) = V (Proc.devRef .tc main_v20) := by
  sl_kernel_rfl
theorem keeps_segC3_v20 : after (segC3 (F := Ideal)) V (Proc.devRef .tc main_v20) = V (Proc.devRef .tc main_v20) := by
  sl_kernel_rfl
theorem keeps_segC4_v20 : after (segC4 (F := Ideal)) V (Proc.devRef .tc main_v20) = V (Proc.devRef .tc main_v20) := by
  sl_kernel_rfl
theorem keeps_segC5_v20 : after (segC5 (F := Ideal)) V (Proc.devRef .tc main_v20) = V (Proc.devRef .tc main_v20) := by
  sl_kernel_rfl
theorem keeps_segC6_v20 : after (segC6 (F := Ideal)) V (Proc.devRef .tc main_v20) = V (Proc.devRef .tc main_v20) := by
  sl_kernel_rfl
theorem keeps_segC7_v20 : after (segC7 (F := Ideal)) V (Proc.devRef .tc main_v20) = V (Proc.devRef .tc main_v20) := by
  sl_kernel_rfl
theorem keeps_segC1_v29 : after (segC1 (F := Ideal)) V (Proc.devRef .tc main_v29) = V (Proc.devRef .tc main_v29) := by
  sl_kernel_rfl
theorem keeps_segC2_v29 : after (segC2 (F := Ideal)) V (Proc.devRef .tc main_v29) = V (Proc.devRef .tc main_v29) := by
  sl_kernel_rfl
theorem keeps_segC3_v29 : after (segC3 (F := Ideal)) V (Proc.devRef .tc main_v29) = V (Proc.devRef .tc main_v29) := by
  sl_kernel_rfl
theorem keeps_segC4_v29 : after (segC4 (F := Ideal)) V (Proc.devRef .tc main_v29) = V (Proc.devRef .tc main_v29) := by
  sl_kernel_rfl
theorem keeps_segC5_v29 : after (segC5 (F := Ideal)) V (Proc.devRef .tc main_v29) = V (Proc.devRef .tc main_v29) := by
  sl_kernel_rfl
theorem keeps_segC6_v29 : after (segC6 (F := Ideal)) V (Proc.devRef .tc main_v29) = V (Proc.devRef .tc main_v29) := by
  sl_kernel_rfl
theorem keeps_segC7_v29 : after (segC7 (F := Ideal)) V (Proc.devRef .tc main_v29) = V (Proc.devRef .tc main_v29) := by
  sl_kernel_rfl
theorem keeps_segC1_v31 : after (segC1 (F := Ideal)) V (Proc.devRef .tc main_v31) = V (Proc.devRef .tc main_v31) := by
  sl_kernel_rfl
theorem keeps_segC2_v31 : after (segC2 (F := Ideal)) V (Proc.devRef .tc main_v31) = V (Proc.devRef .tc main_v31) := by
  sl_kernel_rfl
theorem keeps_segC3_v31 : after (segC3 (F := Ideal)) V (Proc.devRef .tc main_v31) = V (Proc.devRef .tc main_v31) := by
  sl_kernel_rfl
theorem keeps_segC4_v31 : after (segC4 (F := Ideal)) V (Proc.devRef .tc main_v31) = V (Proc.devRef .tc main_v31) := by
  sl_kernel_rfl
theorem keeps_segC5_v31 : after (segC5 (F := Ideal)) V (Proc.devRef .tc main_v31) = V (Proc.devRef .tc main_v31) := by
  sl_kernel_rfl
theorem keeps_segC6_v31 : after (segC6 (F := Ideal)) V (Proc.devRef .tc main_v31) = V (Proc.devRef .tc main_v31) := by
  sl_kernel_rfl
theorem keeps_segC7_v31 : after (segC7 (F := Ideal)) V (Proc.devRef .tc main_v31) = V (Proc.devRef .tc main_v31) := by
  sl_kernel_rfl
theorem keeps_segC1_v33 : after (segC1 (F := Ideal)) V (Proc.devRef .tc main_v33) = V (Proc.devRef .tc main_v33) := by
  sl_kernel_rfl
theorem keeps_segC2_v33 : after (segC2 (F := Ideal)) V (Proc.devRef .tc main_v33) = V (Proc.devRef .tc main_v33) := by
  sl_kernel_rfl
theorem keeps_segC3_v33 : after (segC3 (F := Ideal)) V (Proc.devRef .tc main_v33) = V (Proc.devRef .tc main_v33) := by
  sl_kernel_rfl
theorem keeps_segC4_v33 : after (segC4 (F := Ideal)) V (Proc.devRef .tc main_v33) = V (Proc.devRef .tc main_v33) := by
  sl_kernel_rfl
theorem keeps_segC5_v33 : after (segC5 (F := Ideal)) V (Proc.devRef .tc main_v33) = V (Proc.devRef .tc main_v33) := by
  sl_kernel_rfl
theorem keeps_segC6_v33 : after (segC6 (F := Ideal)) V (Proc.devRef .tc main_v33) = V (Proc.devRef .tc main_v33) := by
  sl_kernel_rfl
theorem keeps_segC7_v33 : after (segC7 (F := Ideal)) V (Proc.devRef .tc main_v33) = V (Proc.devRef .tc main_v33) := by
  sl_kernel_rfl
theorem keeps_segC1_v35 : after (segC1 (F := Ideal)) V (Proc.devRef .tc main_v35) = V (Proc.devRef .tc main_v35) := by
  sl_kernel_rfl
theorem keeps_segC2_v35 : after (segC2 (F := Ideal)) V (Proc.devRef .tc main_v35) = V (Proc.devRef .tc main_v35) := by
  sl_kernel_rfl
theorem keeps_segC3_v35 : after (segC3 (F := Ideal)) V (Proc.devRef .tc main_v35) = V (Proc.devRef .tc main_v35) := by
  sl_kernel_rfl
theorem keeps_segC4_v35 : after (segC4 (F := Ideal)) V (Proc.devRef .tc main_v35) = V (Proc.devRef .tc main_v35) := by
  sl_kernel_rfl
theorem keeps_segC5_v35 : after (segC5 (F := Ideal)) V (Proc.devRef .tc main_v35) = V (Proc.devRef .tc main_v35) := by
  sl_kernel_rfl
theorem keeps_segC6_v35 : after (segC6 (F := Ideal)) V (Proc.devRef .tc main_v35) = V (Proc.devRef .tc main_v35) := by
  sl_kernel_rfl
theorem keeps_segC7_v35 : after (segC7 (F := Ideal)) V (Proc.devRef .tc main_v35) = V (Proc.devRef .tc main_v35) := by
  sl_kernel_rfl
theorem keeps_segC1_v37 : after (segC1 (F := Ideal)) V (Proc.devRef .tc main_v37) = V (Proc.devRef .tc main_v37) := by
  sl_kernel_rfl
theorem keeps_segC2_v37 : after (segC2 (F := Ideal)) V (Proc.devRef .tc main_v37) = V (Proc.devRef .tc main_v37) := by
  sl_kernel_rfl
theorem keeps_segC3_v37 : after (segC3 (F := Ideal)) V (Proc.devRef .tc main_v37) = V (Proc.devRef .tc main_v37) := by
  sl_kernel_rfl
theorem keeps_segC4_v37 : after (segC4 (F := Ideal)) V (Proc.devRef .tc main_v37) = V (Proc.devRef .tc main_v37) := by
  sl_kernel_rfl
theorem keeps_segC5_v37 : after (segC5 (F := Ideal)) V (Proc.devRef .tc main_v37) = V (Proc.devRef .tc main_v37) := by
  sl_kernel_rfl
theorem keeps_segC6_v37 : after (segC6 (F := Ideal)) V (Proc.devRef .tc main_v37) = V (Proc.devRef .tc main_v37) := by
  sl_kernel_rfl
theorem keeps_segC7_v37 : after (segC7 (F := Ideal)) V (Proc.devRef .tc main_v37) = V (Proc.devRef .tc main_v37) := by
  sl_kernel_rfl
theorem keeps_segC1_v39 : after (segC1 (F := Ideal)) V (Proc.devRef .tc main_v39) = V (Proc.devRef .tc main_v39) := by
  sl_kernel_rfl
theorem keeps_segC2_v39 : after (segC2 (F := Ideal)) V (Proc.devRef .tc main_v39) = V (Proc.devRef .tc main_v39) := by
  sl_kernel_rfl
theorem keeps_segC3_v39 : after (segC3 (F := Ideal)) V (Proc.devRef .tc main_v39) = V (Proc.devRef .tc main_v39) := by
  sl_kernel_rfl
theorem keeps_segC4_v39 : after (segC4 (F := Ideal)) V (Proc.devRef .tc main_v39) = V (Proc.devRef .tc main_v39) := by
  sl_kernel_rfl
theorem keeps_segC5_v39 : after (segC5 (F := Ideal)) V (Proc.devRef .tc main_v39) = V (Proc.devRef .tc main_v39) := by
  sl_kernel_rfl
theorem keeps_segC6_v39 : after (segC6 (F := Ideal)) V (Proc.devRef .tc main_v39) = V (Proc.devRef .tc main_v39) := by
  sl_kernel_rfl
theorem keeps_segC7_v39 : after (segC7 (F := Ideal)) V (Proc.devRef .tc main_v39) = V (Proc.devRef .tc main_v39) := by
  sl_kernel_rfl

/-! ## The whole line -/

variable (W : Valuation τ sig (Elt Ideal))

/-- The result buffer after the whole line is the reference's last stage of the five arguments. -/
theorem result_eq : (after (ops (F := Ideal)) W (Proc.devRef .tc main_v351) : FVec Ideal S8x3x1024x1024 .f32)
    = val_main_v351 (F := Ideal) (W (Proc.devRef .tc main_arg0)) (W (Proc.devRef .tc main_arg1)) (W (Proc.devRef .tc main_arg2)) (W (Proc.devRef .tc main_arg3)) (W (Proc.devRef .tc main_arg4)) := by
  rw [program_eq, ops_split]
  simp only [Cert.Lib.HostLine.after_append]
  rw [last_stretch, corner_stretch8, keeps_segC8_arg0, corner_stretch7, keeps_segC7_arg0, keeps_segC7_v20, keeps_segC7_v29, keeps_segC7_v31, keeps_segC7_v33, keeps_segC7_v35, keeps_segC7_v37, keeps_segC7_v39, corner_stretch6, keeps_segC6_arg0, keeps_segC6_v20, keeps_segC6_v29, keeps_segC6_v31, keeps_segC6_v33, keeps_segC6_v35, keeps_segC6_v37, keeps_segC6_v39, corner_stretch5, keeps_segC5_arg0, keeps_segC5_v20, keeps_segC5_v29, keeps_segC5_v31, keeps_segC5_v33, keeps_segC5_v35, keeps_segC5_v37, keeps_segC5_v39, corner_stretch4, keeps_segC4_arg0, keeps_segC4_v20, keeps_segC4_v29, keeps_segC4_v31, keeps_segC4_v33, keeps_segC4_v35, keeps_segC4_v37, keeps_segC4_v39, corner_stretch3, keeps_segC3_arg0, keeps_segC3_v20, keeps_segC3_v29, keeps_segC3_v31, keeps_segC3_v33, keeps_segC3_v35, keeps_segC3_v37, keeps_segC3_v39, corner_stretch2, keeps_segC2_arg0, keeps_segC2_v20, keeps_segC2_v29, keeps_segC2_v31, keeps_segC2_v33, keeps_segC2_v35, keeps_segC2_v37, keeps_segC2_v39, corner_stretch1, keeps_segC1_arg0, keeps_segC1_v20, keeps_segC1_v29, keeps_segC1_v31, keeps_segC1_v33, keeps_segC1_v35, keeps_segC1_v37, keeps_segC1_v39, bins_wordsR, bins_wordsG, bins_wordsB, bins_offsR, bins_offsG, bins_offsB, keeps_seg1_v20, keeps_seg1_arg0, table_stretch, keeps_seg0_arg0]

/-- No operation of the line writes an argument. -/
theorem kept0 : after (ops (F := Ideal)) W (Proc.devRef .tc main_arg0) = W (Proc.devRef .tc main_arg0) := by sl_kernel_rfl
theorem kept1 : after (ops (F := Ideal)) W (Proc.devRef .tc main_arg1) = W (Proc.devRef .tc main_arg1) := by sl_kernel_rfl
theorem kept2 : after (ops (F := Ideal)) W (Proc.devRef .tc main_arg2) = W (Proc.devRef .tc main_arg2) := by sl_kernel_rfl
theorem kept3 : after (ops (F := Ideal)) W (Proc.devRef .tc main_arg3) = W (Proc.devRef .tc main_arg3) := by sl_kernel_rfl
theorem kept4 : after (ops (F := Ideal)) W (Proc.devRef .tc main_arg4) = W (Proc.devRef .tc main_arg4) := by sl_kernel_rfl

/-! ## The run -/

/-- No operation of the line leaves a buffer's contents undetermined. -/
theorem fresh_count : ((ops : List (HloOp τ sig (Elt Ideal))).all fun op => op.fresh.card == 0) = true := by
  sl_kernel_rfl
theorem fresh_none : ∀ op ∈ (ops : List (HloOp τ sig (Elt Ideal))), op.fresh = ∅ := fun op hop =>
  Finset.card_eq_zero.mp (by simpa using (List.all_eq_true.mp fresh_count) op hop)

/-- On every device, from any memory with zero counters: every weakly fair execution of the reference terminates
    with the result buffer at the reference's last stage of the five arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v351)
          = val_main_v351 (F := Ideal) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v351).trans (result_eq (launchContents m c)),
      (h c main_arg0).trans (kept0 (launchContents m c)), (h c main_arg1).trans (kept1 (launchContents m c)),
      (h c main_arg2).trans (kept2 (launchContents m c)), (h c main_arg3).trans (kept3 (launchContents m c)),
      (h c main_arg4).trans (kept4 (launchContents m c))⟩)
    (run_seq scopedRefs_eq scopedSems_eq defs main (fun _ => ops) main_eq (fun _ => ops_sub) m ρ (fun _ => fresh_none))

end Cert.ReferenceIdeal.Steps

end
-- ==== Proof.FiniteTableRef.lean ====
/-
  The reference builds its lookup table by the same host operations as the kernel (its first twenty-one
  lines): `tableR` is that composition written over the reference's own shape records, and it is the
  kernel's `tableK` — the two programs' records are the same data —, so its entries are real numbers when
  the four small matrices' are.
-/
import proofs.«162768_j12979391168851_2_alg».proof.ReferenceIdeal
import proofs.«162768_j12979391168851_2_alg».proof.Proof.FiniteTable

noncomputable section

namespace Cert.ReferenceIdeal.Finite

open Idealize.ShloMosaic
open Cert.Lib.Real (IsReal AllReal)
open Cert.ReferenceIdeal

variable [Facts]
open Facts₀ Facts

/-- The product of the three small matrices, regrouped as 20 × 3 × 33 × 33 × 33. -/
def coreR (x2 : FVec Ideal S33x5 .f32) (x3 : FVec Ideal S20x1089 .f32) (x4 : FVec Ideal S300x20 .f32) :
    FVec Ideal S20x3x33x33x33 .f32 :=
  shapeCast S20x3x33x33x33
    (transpose S60x33x1089 [1, 0, 2]
      (shapeCast S33x60x1089
        (Host.dotGeneral dot_S33x5_S5x65340_S33x65340_1_0_0_1_n_n none x2
          (shapeCast S5x65340
            (Host.dotGeneral dot_S300x20_S20x1089_S300x1089_1_0_0_1_n_n none x4 x3)
            shapeCasts_S300x1089_S5x65340))
        shapeCasts_S33x65340_S33x60x1089)
      transposes_S33x60x1089_S60x33x1089_1_0_2)
    shapeCasts_S60x33x1089_S20x3x33x33x33

/-- The three planes of the core, each permuted in its own way, put back together. -/
def basisR (x2 : FVec Ideal S33x5 .f32) (x3 : FVec Ideal S20x1089 .f32) (x4 : FVec Ideal S300x20 .f32) :
    FVec Ideal S20x3x33x33x33 .f32 :=
  concatenate S20x3x33x33x33 1
    [⟨S20x1x33x33x33, broadcastInDim S20x1x33x33x33 ![0, 2, 3, 4] bcast_S20x33x33x33_S20x1x33x33x33_0_2_3_4
        (transpose S20x33x33x33 [0, 2, 3, 1]
          (shapeCast S20x33x33x33
            (extractStridedSlice S20x1x33x33x33 ![0, 0, 0, 0, 0] (coreR x2 x3 x4)
              slices_S20x3x33x33x33_S20x1x33x33x33_0_0_0_0_0)
            shapeCasts_S20x1x33x33x33_S20x33x33x33)
          transposes_S20x33x33x33_S20x33x33x33_0_2_3_1)⟩,
     ⟨S20x1x33x33x33, broadcastInDim S20x1x33x33x33 ![0, 2, 3, 4] bcast_S20x33x33x33_S20x1x33x33x33_0_2_3_4
        (transpose S20x33x33x33 [0, 2, 1, 3]
          (shapeCast S20x33x33x33
            (extractStridedSlice S20x1x33x33x33 ![0, 1, 0, 0, 0] (coreR x2 x3 x4)
              slices_S20x3x33x33x33_S20x1x33x33x33_0_1_0_0_0)
            shapeCasts_S20x1x33x33x33_S20x33x33x33)
          transposes_S20x33x33x33_S20x33x33x33_0_2_1_3)⟩,
     ⟨S20x1x33x33x33, broadcastInDim S20x1x33x33x33 ![0, 2, 3, 4] bcast_S20x33x33x33_S20x1x33x33x33_0_2_3_4
        (shapeCast S20x33x33x33
          (extractStridedSlice S20x1x33x33x33 ![0, 2, 0, 0, 0] (coreR x2 x3 x4)
            slices_S20x3x33x33x33_S20x1x33x33x33_0_2_0_0_0)
          shapeCasts_S20x1x33x33x33_S20x33x33x33)⟩]
    concatenates_S20x1x33x33x33_S20x1x33x33x33_S20x1x33x33x33_S20x3x33x33x33_d1

/-- The per-picture tables: the 8 × 20 matrix times the 20 basis tables, as 8 × 3 × 33 × 33 × 33. -/
def tableR (x1 : FVec Ideal S8x20 .f32) (x2 : FVec Ideal S33x5 .f32) (x3 : FVec Ideal S20x1089 .f32)
    (x4 : FVec Ideal S300x20 .f32) : FVec Ideal S8x3x33x33x33 .f32 :=
  shapeCast S8x3x33x33x33
    (Host.dotGeneral dot_S8x20_S20x107811_S8x107811_1_0_0_1_n_n none x1
      (shapeCast S20x107811 (basisR x2 x3 x4) shapeCasts_S20x3x33x33x33_S20x107811))
    shapeCasts_S8x107811_S8x3x33x33x33

variable {x1 : FVec Ideal S8x20 .f32} {x2 : FVec Ideal S33x5 .f32} {x3 : FVec Ideal S20x1089 .f32}
  {x4 : FVec Ideal S300x20 .f32}

/-- The reference's table is the kernel's. -/
theorem tableR_eq_tableK [Cert.KernelIdeal.Facts] :
    tableR x1 x2 x3 x4 = Cert.KernelIdeal.Finite.tableK x1 x2 x3 x4 := rfl

/-- Every entry of the reference's table is a real number when every entry of the four matrices is. -/
theorem tableR_real [Cert.KernelIdeal.Facts] (h1 : AllReal x1) (h2 : AllReal x2) (h3 : AllReal x3)
    (h4 : AllReal x4) : AllReal (tableR x1 x2 x3 x4) :=
  Cert.KernelIdeal.Finite.tableK_real h1 h2 h3 h4

end Cert.ReferenceIdeal.Finite

end
-- ==== Proof.lean ====
/-
  The certificate: the three programs run to their end and leave their arguments unchanged, and the idealized
  kernel and the idealized reference, from memories that agree on the arguments, end with the same result.

  Both programs build, on the host and by the same operations, a per-image lookup table of 33 × 33 × 33 nodes per
  output channel from the four small argument matrices, and apply it to the image by trilinear interpolation, adding
  the image itself.  The reference gathers the eight corners of each pixel's cube of the table and sums the eight
  weighted values.  The kernel, tile by tile, builds a weight matrix with the four green-red weights on the four
  corner rows of the flattened green-red plane, multiplies the table by it, and contracts the result against the two
  blue weights.  Over the extended reals the kernel's two contractions pick exactly the reference's eight terms (a
  product with a zero weight is zero); regrouping them is distributivity, which holds because under the
  precondition every argument, hence every table entry and every weight, is a real number.
-/
import proofs.«162768_j12979391168851_2_alg».proof.Defs
import proofs.«162768_j12979391168851_2_alg».proof.Proof.Gen.Kernel
import proofs.«162768_j12979391168851_2_alg».proof.Proof.Gen.KernelIdeal
import proofs.«162768_j12979391168851_2_alg».proof.Proof.Gen.ReferenceIdeal
import proofs.«162768_j12979391168851_2_alg».proof.Proof.Gen.Pre_finite_inputs
import proofs.«162768_j12979391168851_2_alg».proof.Proof.KernelRegion
import proofs.«162768_j12979391168851_2_alg».proof.Proof.KernelIdealRegion
import proofs.«162768_j12979391168851_2_alg».proof.Proof.KernelIdealValue
import proofs.«162768_j12979391168851_2_alg».proof.Proof.RefValue
import proofs.«162768_j12979391168851_2_alg».proof.Proof.RefRunSteps
import proofs.«162768_j12979391168851_2_alg».proof.Proof.FiniteTableRef
import Idealize.ShloMosaic.Adequacy
import Idealize.ShloMosaic.Init

noncomputable section

namespace Cert.Proof

open Idealize.ShloMosaic Idealize.ShloMosaic.TcCoe Idealize.SL.Sem

/-- The word-level kernel runs and keeps its arguments: the run around its region. -/
theorem frame_kernel : Cert.frame_Kernel (hKernel := Cert.Kernel.Gen.facts) (hPre_finite_inputs := Cert.Pre_finite_inputs.Gen.facts) :=
  fun m ρ _ => Cert.Kernel.Hand.frame m ρ

/-- So does the idealized kernel: the same run read at the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Hand.frame m ρ

/-- The reference runs and keeps its arguments: its run read back stretch by stretch, the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Steps.run m ρ)

/-- The two programs build the lookup table by the same operations of the same four arguments. -/
theorem same_table (x1 : (⟨Cert.ReferenceIdeal.S8x20, .f32⟩ : BufTy).Contents (Elt Ideal)) (x2 : (⟨Cert.ReferenceIdeal.S33x5, .f32⟩ : BufTy).Contents (Elt Ideal))
    (x3 : (⟨Cert.ReferenceIdeal.S20x1089, .f32⟩ : BufTy).Contents (Elt Ideal)) (x4 : (⟨Cert.ReferenceIdeal.S300x20, .f32⟩ : BufTy).Contents (Elt Ideal)) :
    Cert.ReferenceIdeal.Read.val_main_v20 (F := Ideal) x1 x2 x3 x4 = Cert.KernelIdeal.Finite.tableK x1 x2 x3 x4 :=
  (show Cert.ReferenceIdeal.Read.val_main_v20 (F := Ideal) x1 x2 x3 x4 = Cert.ReferenceIdeal.Finite.tableR x1 x2 x3 x4 from rfl).trans
    (Cert.ReferenceIdeal.Finite.tableR_eq_tableK)

/-- From memories that agree on the five arguments both idealized programs end with the specification's array of the
    image and the common table: the kernel by its tiles' values assembled (under the precondition, which makes the
    regrouping of its contractions exact), the reference term by term. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Trilinear.out (m ((c.tc : Thread Cert.KernelIdeal.nD Cert.KernelIdeal.τ).loc Cert.KernelIdeal.main_arg0))
      (Cert.KernelIdeal.Finite.tableK (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))),
    Cert.KernelIdeal.Array.kernel_value m ρ hpre, ?_⟩
  refine (θ_run Cert.ReferenceIdeal.defs _ _).mono (fun r h c => ⟨(h c).1.trans ?_, (h c).2⟩)
    (Cert.ReferenceIdeal.Steps.run m' ρ')
  rw [Cert.ReferenceIdeal.RefValue.ref_is_out, same_table,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
